-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v265) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x65536 : Shape := ⟨3, ![8, 3, 65536]⟩
abbrev S8x64x32x32x32 : Shape := ⟨5, ![8, 64, 32, 32, 32]⟩
abbrev S_ : Shape := ⟨0, ![]⟩

class Facts : Prop where
  bcast_S_S8x3x65536 : S_.BroadcastsInDim S8x3x65536 (![] : Fin 0 → Fin S8x3x65536.rank)
  reducesTo_S8x3x65536_S_d0_1_2 : S8x3x65536.ReducesTo [0, 1, 2] S_
  h_S_ : 0 < S_.numel
  bcast_S_S8x64x32x32x32 : S_.BroadcastsInDim S8x64x32x32x32 (![] : Fin 0 → Fin S8x64x32x32x32.rank)
  reducesTo_S8x64x32x32x32_S_d0_1_2_3_4 : S8x64x32x32x32.ReducesTo [0, 1, 2, 3, 4] S_

variable [Facts]

def fn {F : FTy → Type} [FloatOps F] (main_arg0 : FVec F S8x3x65536 .f32) (main_arg1 : FVec F S8x64x32x32x32 .f32) : IVec S_ 1 :=
  let main_v0 : FVec F S8x3x65536 .f32 := Host.absf main_arg0
  let main_cst : FVec F S_ .f32 := constant S_ .f32 0x7F800000#32
  let main_v1 : FVec F S8x3x65536 .f32 := broadcastInDim S8x3x65536 ![] bcast_S_S8x3x65536 main_cst
  let main_v2 : IVec S8x3x65536 1 := cmpf .olt main_v0 main_v1
  let main_c : IVec S_ 1 := constantI S_ 1 1#1
  let main_v3 : IVec S_ 1 := (fun x v => Host.reduce IntOp.andi x v reducesTo_S8x3x65536_S_d0_1_2 h_S_) main_v2 main_c
  let main_v4 : FVec F S8x64x32x32x32 .f32 := Host.absf main_arg1
  let main_cst_0 : FVec F S_ .f32 := constant S_ .f32 0x7F800000#32
  let main_v5 : FVec F S8x64x32x32x32 .f32 := broadcastInDim S8x64x32x32x32 ![] bcast_S_S8x64x32x32x32 main_cst_0
  let main_v6 : IVec S8x64x32x32x32 1 := cmpf .olt main_v4 main_v5
  let main_c_1 : IVec S_ 1 := constantI S_ 1 1#1
  let main_v7 : IVec S_ 1 := (fun x v => Host.reduce IntOp.andi x v reducesTo_S8x64x32x32x32_S_d0_1_2_3_4 h_S_) main_v6 main_c_1
  let main_v8 : IVec S_ 1 := andi main_v3 main_v7
  main_v8
-- ==== Kernel.lean ====
abbrev S8x3x65536 : Shape := ⟨3, ![8, 3, 65536]⟩
abbrev S8x64x32x32x32 : Shape := ⟨5, ![8, 64, 32, 32, 32]⟩
abbrev S_ : Shape := ⟨0, ![]⟩
abbrev S8x3 : Shape := ⟨2, ![8, 3]⟩
abbrev S8x3x1 : Shape := ⟨3, ![8, 3, 1]⟩
abbrev S8x65536 : Shape := ⟨2, ![8, 65536]⟩
abbrev S8x2048x1024 : Shape := ⟨3, ![8, 2048, 1024]⟩
abbrev S8x64x65536 : Shape := ⟨3, ![8, 64, 65536]⟩
abbrev S1x2048x1024 : Shape := ⟨3, ![1, 2048, 1024]⟩
abbrev S1x3x1024 : Shape := ⟨3, ![1, 3, 1024]⟩
abbrev S1x64x1024 : Shape := ⟨3, ![1, 64, 1024]⟩
abbrev S2048x1024 : Shape := ⟨2, ![2048, 1024]⟩
abbrev S1x1x1024 : Shape := ⟨3, ![1, 1, 1024]⟩
abbrev S1024 : Shape := ⟨1, ![1024]⟩
abbrev S1x1024 : Shape := ⟨2, ![1, 1024]⟩
abbrev S32x1024 : Shape := ⟨2, ![32, 1024]⟩
abbrev S32x1x1024 : Shape := ⟨3, ![32, 1, 1024]⟩
abbrev S1x32x1024 : Shape := ⟨3, ![1, 32, 1024]⟩
abbrev S32x32x1024 : Shape := ⟨3, ![32, 32, 1024]⟩
abbrev S1024x1024 : Shape := ⟨2, ![1024, 1024]⟩
abbrev S64x32x1024 : Shape := ⟨3, ![64, 32, 1024]⟩
abbrev S64x1024 : Shape := ⟨2, ![64, 1024]⟩
abbrev S64x1x1024 : Shape := ⟨3, ![64, 1, 1024]⟩

abbrev nBuf : Space → Nat
  | .hbm => 30
  | .vmem => 12
  | .smem => 0
  | _ => 0

abbrev bufTy : (tb : Table) → Fin (tcTables nBuf tb) → BufTy
  | .hbm, ⟨0, _⟩ => ⟨S8x3x65536, .f32⟩
  | .hbm, ⟨1, _⟩ => ⟨S8x64x32x32x32, .f32⟩
  | .hbm, ⟨2, _⟩ => ⟨S_, .f32⟩
  | .hbm, ⟨3, _⟩ => ⟨S8x3, .f32⟩
  | .hbm, ⟨4, _⟩ => ⟨S8x3x1, .f32⟩
  | .hbm, ⟨5, _⟩ => ⟨S8x3x65536, .f32⟩
  | .hbm, ⟨6, _⟩ => ⟨S8x3x65536, .f32⟩
  | .hbm, ⟨7, _⟩ => ⟨S8x3x65536, .f32⟩
  | .hbm, ⟨8, _⟩ => ⟨S_, .f32⟩
  | .hbm, ⟨9, _⟩ => ⟨S8x65536, .f32⟩
  | .hbm, ⟨10, _⟩ => ⟨S8x65536, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8x3x65536, .f32⟩
  | .hbm, ⟨16, _⟩ => ⟨S8x3x65536, .f32⟩
  | .hbm, ⟨17, _⟩ => ⟨S_, .f32⟩
  | .hbm, ⟨18, _⟩ => ⟨S8x3x65536, .f32⟩
  | .hbm, ⟨19, _⟩ => ⟨S8x3x65536, .f32⟩
  | .hbm, ⟨20, _⟩ => ⟨S_, .f32⟩
  | .hbm, ⟨21, _⟩ => ⟨S8x3x65536, .f32⟩
  | .hbm, ⟨22, _⟩ => ⟨S8x3x65536, .f32⟩
  | .hbm, ⟨23, _⟩ => ⟨S8x3x65536, .f32⟩
  | .hbm, ⟨24, _⟩ => ⟨S8x3x65536, .i32⟩
  | .hbm, ⟨25, _⟩ => ⟨S8x3x65536, .f32⟩
  | .hbm, ⟨26, _⟩ => ⟨S8x3x65536, .i32⟩
  | .hbm, ⟨27, _⟩ => ⟨S8x2048x1024, .f32⟩
  | .hbm, ⟨28, _⟩ => ⟨S8x2048x1024, .bf16⟩
  | .hbm, ⟨29, _⟩ => ⟨S8x64x65536, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x3x1024, .i32⟩
  | .local _ .vmem, ⟨3, _⟩ => ⟨S1x3x1024, .i32⟩
  | .local _ .vmem, ⟨4, _⟩ => ⟨S1x3x1024, .i32⟩
  | .local _ .vmem, ⟨5, _⟩ => ⟨S1x3x1024, .i32⟩
  | .local _ .vmem, ⟨6, _⟩ => ⟨S1x3x1024, .f32⟩
  | .local _ .vmem, ⟨7, _⟩ => ⟨S1x3x1024, .f32⟩
  | .local _ .vmem, ⟨8, _⟩ => ⟨S1x3x1024, .f32⟩
  | .local _ .vmem, ⟨9, _⟩ => ⟨S1x3x1024, .f32⟩
  | .local _ .vmem, ⟨10, _⟩ => ⟨S1x64x1024, .f32⟩
  | .local _ .vmem, ⟨11, _⟩ => ⟨S1x64x1024, .f32⟩
  | _, _ => ⟨S8x3x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  reducesTo_S8x3x65536_S8x3_d2 : S8x3x65536.ReducesTo [2] S8x3
  h_S_ : 0 < S_.numel
  bcast_S8x3_S8x3x1_0_1 : S8x3.BroadcastsInDim S8x3x1 (![0, 1] : Fin 2 → Fin S8x3x1.rank)
  bcast_S8x3x1_S8x3x65536_0_1_2 : S8x3x1.BroadcastsInDim S8x3x65536 (![0, 1, 2] : Fin 3 → Fin S8x3x65536.rank)
  reducesTo_S8x3x65536_S8x65536_d1 : S8x3x65536.ReducesTo [1] S8x65536
  reducesTo_S8x65536_S_d0_1 : S8x65536.ReducesTo [0, 1] S_
  bcast_S_S8x3x65536 : S_.BroadcastsInDim S8x3x65536 (![] : Fin 0 → Fin S8x3x65536.rank)
  shapeCasts_S8x64x32x32x32_S8x2048x1024 : S8x64x32x32x32.ShapeCasts S8x2048x1024
  bitsLt_bf16_f32 : FTy.bits .bf16 < FTy.bits .f32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x3x1024_S1x1x1024_0_0_0 : ∀ a, (![0, 0, 0] : Fin 3 → Nat) a + S1x1x1024.size a ≤ S1x3x1024.size a
  h_S1x1x1024 : 0 < S1x1x1024.numel
  shapeCasts_S1x1x1024_S1024 : S1x1x1024.ShapeCasts S1024
  shapeCasts_S1024_S1x1024 : S1024.ShapeCasts S1x1024
  inb_S1x3x1024_S1x1x1024_0_1_0 : ∀ a, (![0, 1, 0] : Fin 3 → Nat) a + S1x1x1024.size a ≤ S1x3x1024.size a
  inb_S1x3x1024_S1x1x1024_0_2_0 : ∀ a, (![0, 2, 0] : Fin 3 → Nat) a + S1x1x1024.size a ≤ S1x3x1024.size a
  iota_S32x1024_d0_w32 : S32x1024.Iotas .tc 32 [0]
  broadcasts_S1x1024_S32x1024 : S1x1024.Broadcasts S32x1024
  shapeCasts_S1x1024_S1x1024 : S1x1024.ShapeCasts S1x1024
  shapeCasts_S32x1024_S32x1x1024 : S32x1024.ShapeCasts S32x1x1024
  shapeCasts_S32x1024_S1x32x1024 : S32x1024.ShapeCasts S1x32x1024
  broadcasts_S32x1x1024_S32x32x1024 : S32x1x1024.Broadcasts S32x32x1024
  broadcasts_S1x32x1024_S32x32x1024 : S1x32x1024.Broadcasts S32x32x1024
  shapeCasts_S32x32x1024_S1024x1024 : S32x32x1024.ShapeCasts S1024x1024
  shapeCasts_S2048x1024_S64x32x1024 : S2048x1024.ShapeCasts S64x32x1024
  slices_S64x32x1024_o0_0_0_S64x1x1024 : S64x32x1024.Slices ![0, 0, 0] S64x1x1024
  shapeCasts_S64x1x1024_S64x1024 : S64x1x1024.ShapeCasts S64x1024
  slices_S32x1024_o0_0_S1x1024 : S32x1024.Slices ![0, 0] S1x1024
  shapeCasts_S1x1024_S1024 : S1x1024.ShapeCasts S1024
  broadcasts_S1x1024_S64x1024 : S1x1024.Broadcasts S64x1024
  slices_S64x32x1024_o0_1_0_S64x1x1024 : S64x32x1024.Slices ![0, 1, 0] S64x1x1024
  slices_S32x1024_o1_0_S1x1024 : S32x1024.Slices ![1, 0] S1x1024
  slices_S64x32x1024_o0_2_0_S64x1x1024 : S64x32x1024.Slices ![0, 2, 0] S64x1x1024
  slices_S32x1024_o2_0_S1x1024 : S32x1024.Slices ![2, 0] S1x1024
  slices_S64x32x1024_o0_3_0_S64x1x1024 : S64x32x1024.Slices ![0, 3, 0] S64x1x1024
  slices_S32x1024_o3_0_S1x1024 : S32x1024.Slices ![3, 0] S1x1024
  slices_S64x32x1024_o0_4_0_S64x1x1024 : S64x32x1024.Slices ![0, 4, 0] S64x1x1024
  slices_S32x1024_o4_0_S1x1024 : S32x1024.Slices ![4, 0] S1x1024
  slices_S64x32x1024_o0_5_0_S64x1x1024 : S64x32x1024.Slices ![0, 5, 0] S64x1x1024
  slices_S32x1024_o5_0_S1x1024 : S32x1024.Slices ![5, 0] S1x1024
  slices_S64x32x1024_o0_6_0_S64x1x1024 : S64x32x1024.Slices ![0, 6, 0] S64x1x1024
  slices_S32x1024_o6_0_S1x1024 : S32x1024.Slices ![6, 0] S1x1024
  slices_S64x32x1024_o0_7_0_S64x1x1024 : S64x32x1024.Slices ![0, 7, 0] S64x1x1024
  slices_S32x1024_o7_0_S1x1024 : S32x1024.Slices ![7, 0] S1x1024
  slices_S64x32x1024_o0_8_0_S64x1x1024 : S64x32x1024.Slices ![0, 8, 0] S64x1x1024
  slices_S32x1024_o8_0_S1x1024 : S32x1024.Slices ![8, 0] S1x1024
  slices_S64x32x1024_o0_9_0_S64x1x1024 : S64x32x1024.Slices ![0, 9, 0] S64x1x1024
  slices_S32x1024_o9_0_S1x1024 : S32x1024.Slices ![9, 0] S1x1024
  slices_S64x32x1024_o0_10_0_S64x1x1024 : S64x32x1024.Slices ![0, 10, 0] S64x1x1024
  slices_S32x1024_o10_0_S1x1024 : S32x1024.Slices ![10, 0] S1x1024
  slices_S64x32x1024_o0_11_0_S64x1x1024 : S64x32x1024.Slices ![0, 11, 0] S64x1x1024
  slices_S32x1024_o11_0_S1x1024 : S32x1024.Slices ![11, 0] S1x1024
  slices_S64x32x1024_o0_12_0_S64x1x1024 : S64x32x1024.Slices ![0, 12, 0] S64x1x1024
  slices_S32x1024_o12_0_S1x1024 : S32x1024.Slices ![12, 0] S1x1024
  slices_S64x32x1024_o0_13_0_S64x1x1024 : S64x32x1024.Slices ![0, 13, 0] S64x1x1024
  slices_S32x1024_o13_0_S1x1024 : S32x1024.Slices ![13, 0] S1x1024
  slices_S64x32x1024_o0_14_0_S64x1x1024 : S64x32x1024.Slices ![0, 14, 0] S64x1x1024
  slices_S32x1024_o14_0_S1x1024 : S32x1024.Slices ![14, 0] S1x1024
  slices_S64x32x1024_o0_15_0_S64x1x1024 : S64x32x1024.Slices ![0, 15, 0] S64x1x1024
  slices_S32x1024_o15_0_S1x1024 : S32x1024.Slices ![15, 0] S1x1024
  slices_S64x32x1024_o0_16_0_S64x1x1024 : S64x32x1024.Slices ![0, 16, 0] S64x1x1024
  slices_S32x1024_o16_0_S1x1024 : S32x1024.Slices ![16, 0] S1x1024
  slices_S64x32x1024_o0_17_0_S64x1x1024 : S64x32x1024.Slices ![0, 17, 0] S64x1x1024
  slices_S32x1024_o17_0_S1x1024 : S32x1024.Slices ![17, 0] S1x1024
  slices_S64x32x1024_o0_18_0_S64x1x1024 : S64x32x1024.Slices ![0, 18, 0] S64x1x1024
  slices_S32x1024_o18_0_S1x1024 : S32x1024.Slices ![18, 0] S1x1024
  slices_S64x32x1024_o0_19_0_S64x1x1024 : S64x32x1024.Slices ![0, 19, 0] S64x1x1024
  slices_S32x1024_o19_0_S1x1024 : S32x1024.Slices ![19, 0] S1x1024
  slices_S64x32x1024_o0_20_0_S64x1x1024 : S64x32x1024.Slices ![0, 20, 0] S64x1x1024
  slices_S32x1024_o20_0_S1x1024 : S32x1024.Slices ![20, 0] S1x1024
  slices_S64x32x1024_o0_21_0_S64x1x1024 : S64x32x1024.Slices ![0, 21, 0] S64x1x1024
  slices_S32x1024_o21_0_S1x1024 : S32x1024.Slices ![21, 0] S1x1024
  slices_S64x32x1024_o0_22_0_S64x1x1024 : S64x32x1024.Slices ![0, 22, 0] S64x1x1024
  slices_S32x1024_o22_0_S1x1024 : S32x1024.Slices ![22, 0] S1x1024
  slices_S64x32x1024_o0_23_0_S64x1x1024 : S64x32x1024.Slices ![0, 23, 0] S64x1x1024
  slices_S32x1024_o23_0_S1x1024 : S32x1024.Slices ![23, 0] S1x1024
  slices_S64x32x1024_o0_24_0_S64x1x1024 : S64x32x1024.Slices ![0, 24, 0] S64x1x1024
  slices_S32x1024_o24_0_S1x1024 : S32x1024.Slices ![24, 0] S1x1024
  slices_S64x32x1024_o0_25_0_S64x1x1024 : S64x32x1024.Slices ![0, 25, 0] S64x1x1024
  slices_S32x1024_o25_0_S1x1024 : S32x1024.Slices ![25, 0] S1x1024
  slices_S64x32x1024_o0_26_0_S64x1x1024 : S64x32x1024.Slices ![0, 26, 0] S64x1x1024
  slices_S32x1024_o26_0_S1x1024 : S32x1024.Slices ![26, 0] S1x1024
  slices_S64x32x1024_o0_27_0_S64x1x1024 : S64x32x1024.Slices ![0, 27, 0] S64x1x1024
  slices_S32x1024_o27_0_S1x1024 : S32x1024.Slices ![27, 0] S1x1024
  slices_S64x32x1024_o0_28_0_S64x1x1024 : S64x32x1024.Slices ![0, 28, 0] S64x1x1024
  slices_S32x1024_o28_0_S1x1024 : S32x1024.Slices ![28, 0] S1x1024
  slices_S64x32x1024_o0_29_0_S64x1x1024 : S64x32x1024.Slices ![0, 29, 0] S64x1x1024
  slices_S32x1024_o29_0_S1x1024 : S32x1024.Slices ![29, 0] S1x1024
  slices_S64x32x1024_o0_30_0_S64x1x1024 : S64x32x1024.Slices ![0, 30, 0] S64x1x1024
  slices_S32x1024_o30_0_S1x1024 : S32x1024.Slices ![30, 0] S1x1024
  slices_S64x32x1024_o0_31_0_S64x1x1024 : S64x32x1024.Slices ![0, 31, 0] S64x1x1024
  slices_S32x1024_o31_0_S1x1024 : S32x1024.Slices ![31, 0] S1x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x1024.size a
  hwx0_0 : ∀ i : grid0.Coords, EltTy.bits .bf16 = 32 ∨ (Rect.block (s := S8x2048x1024) S1x2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S8x3x65536.size a
  hwx0_1 : ∀ i : grid0.Coords, EltTy.bits .i32 = 32 ∨ (Rect.block (s := S8x3x65536) S1x3x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x1024.size a ≤ S8x3x65536.size a
  hwx0_2 : ∀ i : grid0.Coords, EltTy.bits .i32 = 32 ∨ (Rect.block (s := S8x3x65536) S1x3x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x1024.size a ≤ S8x3x65536.size a
  hwx0_3 : ∀ i : grid0.Coords, EltTy.bits .f32 = 32 ∨ (Rect.block (s := S8x3x65536) S1x3x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x3x1024.size a ≤ S8x3x65536.size a
  hwx0_4 : ∀ i : grid0.Coords, EltTy.bits .f32 = 32 ∨ (Rect.block (s := S8x3x65536) S1x3x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x1024.size a ≤ S8x64x65536.size a
  hwx0_5 : ∀ i : grid0.Coords, EltTy.bits .f32 = 32 ∨ (Rect.block (s := S8x64x65536) S1x64x1024.size (cc0_transform_5 i) (hinb0_5 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_v18) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x3x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x3x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x3x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x64x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x3x65536 : Shape := ⟨3, ![8, 3, 65536]⟩
abbrev S8x64x32x32x32 : Shape := ⟨5, ![8, 64, 32, 32, 32]⟩
abbrev S_ : Shape := ⟨0, ![]⟩
abbrev S8x3 : Shape := ⟨2, ![8, 3]⟩
abbrev S8x3x1 : Shape := ⟨3, ![8, 3, 1]⟩
abbrev S8x65536 : Shape := ⟨2, ![8, 65536]⟩
abbrev S8x1x65536 : Shape := ⟨3, ![8, 1, 65536]⟩
abbrev S8x65536x1 : Shape := ⟨3, ![8, 65536, 1]⟩
abbrev S8x65536x3 : Shape := ⟨3, ![8, 65536, 3]⟩
abbrev S8x64x65536 : Shape := ⟨3, ![8, 64, 65536]⟩

abbrev nBuf : Space → Nat
  | .hbm => 324
  | .vmem => 0
  | .smem => 0
  | _ => 0

abbrev hbmTy0_0 (i : Nat) : BufTy := match i % 128 with
  | 0 => ⟨S8x3x65536, .f32⟩
  | 1 => ⟨S8x64x32x32x32, .f32⟩
  | 2 => ⟨S_, .f32⟩
  | 3 => ⟨S8x3, .f32⟩
  | 4 => ⟨S8x3x1, .f32⟩
  | 5 => ⟨S8x3x65536, .f32⟩
  | 6 => ⟨S8x3x65536, .f32⟩
  | 7 => ⟨S8x3x65536, .f32⟩
  | 8 => ⟨S_, .f32⟩
  | 9 => ⟨S8x65536, .f32⟩
  | 10 => ⟨S8x65536, .f32⟩
  | 11 => ⟨S_, .f32⟩
  | 12 => ⟨S_, .f32⟩
  | 13 => ⟨S_, .f32⟩
  | 14 => ⟨S_, .f32⟩
  | 15 => ⟨S8x3x65536, .f32⟩
  | 16 => ⟨S8x3x65536, .f32⟩
  | 17 => ⟨S_, .f32⟩
  | 18 => ⟨S8x3x65536, .f32⟩
  | 19 => ⟨S8x3x65536, .f32⟩
  | 20 => ⟨S_, .f32⟩
  | 21 => ⟨S8x3x65536, .f32⟩
  | 22 => ⟨S8x3x65536, .f32⟩
  | 23 => ⟨S8x3x65536, .f32⟩
  | 24 => ⟨S8x3x65536, .i32⟩
  | 25 => ⟨S8x3x65536, .f32⟩
  | 26 => ⟨S8x3x65536, .i32⟩
  | 27 => ⟨S8x1x65536, .i32⟩
  | 28 => ⟨S8x65536, .i32⟩
  | 29 => ⟨S8x1x65536, .i32⟩
  | 30 => ⟨S8x65536, .i32⟩
  | 31 => ⟨S8x1x65536, .i32⟩
  | 32 => ⟨S8x65536, .i32⟩
  | 33 => ⟨S8x1x65536, .i32⟩
  | 34 => ⟨S8x65536, .i32⟩
  | 35 => ⟨S8x1x65536, .i32⟩
  | 36 => ⟨S8x65536, .i32⟩
  | 37 => ⟨S8x1x65536, .i32⟩
  | 38 => ⟨S8x65536, .i32⟩
  | 39 => ⟨S_, .i32⟩
  | 40 => ⟨S8x65536, .i32⟩
  | 41 => ⟨S8x65536, .i1⟩
  | 42 => ⟨S_, .i32⟩
  | 43 => ⟨S8x65536, .i32⟩
  | 44 => ⟨S8x65536, .i32⟩
  | 45 => ⟨S8x65536, .i32⟩
  | 46 => ⟨S_, .i32⟩
  | 47 => ⟨S8x65536, .i32⟩
  | 48 => ⟨S8x65536, .i1⟩
  | 49 => ⟨S_, .i32⟩
  | 50 => ⟨S8x65536, .i32⟩
  | 51 => ⟨S8x65536, .i32⟩
  | 52 => ⟨S8x65536, .i32⟩
  | 53 => ⟨S_, .i32⟩
  | 54 => ⟨S8x65536, .i32⟩
  | 55 => ⟨S8x65536, .i1⟩
  | 56 => ⟨S_, .i32⟩
  | 57 => ⟨S8x65536, .i32⟩
  | 58 => ⟨S8x65536, .i32⟩
  | 59 => ⟨S8x65536, .i32⟩
  | 60 => ⟨S8x65536x1, .i32⟩
  | 61 => ⟨S8x65536x1, .i32⟩
  | 62 => ⟨S8x65536x1, .i32⟩
  | 63 => ⟨S8x65536x3, .i32⟩
  | 64 => ⟨S8x64x65536, .f32⟩
  | 65 => ⟨S8x1x65536, .f32⟩
  | 66 => ⟨S8x65536, .f32⟩
  | 67 => ⟨S8x1x65536, .f32⟩
  | 68 => ⟨S8x64x65536, .f32⟩
  | 69 => ⟨S8x64x65536, .f32⟩
  | 70 => ⟨S_, .i32⟩
  | 71 => ⟨S8x65536, .i32⟩
  | 72 => ⟨S8x65536, .i1⟩
  | 73 => ⟨S_, .i32⟩
  | 74 => ⟨S8x65536, .i32⟩
  | 75 => ⟨S8x65536, .i32⟩
  | 76 => ⟨S8x65536, .i32⟩
  | 77 => ⟨S_, .i32⟩
  | 78 => ⟨S8x65536, .i32⟩
  | 79 => ⟨S8x65536, .i1⟩
  | 80 => ⟨S_, .i32⟩
  | 81 => ⟨S8x65536, .i32⟩
  | 82 => ⟨S8x65536, .i32⟩
  | 83 => ⟨S8x65536, .i32⟩
  | 84 => ⟨S_, .i32⟩
  | 85 => ⟨S8x65536, .i32⟩
  | 86 => ⟨S8x65536, .i1⟩
  | 87 => ⟨S_, .i32⟩
  | 88 => ⟨S8x65536, .i32⟩
  | 89 => ⟨S8x65536, .i32⟩
  | 90 => ⟨S8x65536, .i32⟩
  | 91 => ⟨S8x65536x1, .i32⟩
  | 92 => ⟨S8x65536x1, .i32⟩
  | 93 => ⟨S8x65536x1, .i32⟩
  | 94 => ⟨S8x65536x3, .i32⟩
  | 95 => ⟨S8x64x65536, .f32⟩
  | 96 => ⟨S8x1x65536, .f32⟩
  | 97 => ⟨S8x65536, .f32⟩
  | 98 => ⟨S8x1x65536, .f32⟩
  | 99 => ⟨S8x64x65536, .f32⟩
  | 100 => ⟨S8x64x65536, .f32⟩
  | 101 => ⟨S8x64x65536, .f32⟩
  | 102 => ⟨S_, .i32⟩
  | 103 => ⟨S8x65536, .i32⟩
  | 104 => ⟨S8x65536, .i1⟩
  | 105 => ⟨S_, .i32⟩
  | 106 => ⟨S8x65536, .i32⟩
  | 107 => ⟨S8x65536, .i32⟩
  | 108 => ⟨S8x65536, .i32⟩
  | 109 => ⟨S_, .i32⟩
  | 110 => ⟨S8x65536, .i32⟩
  | 111 => ⟨S8x65536, .i1⟩
  | 112 => ⟨S_, .i32⟩
  | 113 => ⟨S8x65536, .i32⟩
  | 114 => ⟨S8x65536, .i32⟩
  | 115 => ⟨S8x65536, .i32⟩
  | 116 => ⟨S_, .i32⟩
  | 117 => ⟨S8x65536, .i32⟩
  | 118 => ⟨S8x65536, .i1⟩
  | 119 => ⟨S_, .i32⟩
  | 120 => ⟨S8x65536, .i32⟩
  | 121 => ⟨S8x65536, .i32⟩
  | 122 => ⟨S8x65536, .i32⟩
  | 123 => ⟨S8x65536x1, .i32⟩
  | 124 => ⟨S8x65536x1, .i32⟩
  | 125 => ⟨S8x65536x1, .i32⟩
  | 126 => ⟨S8x65536x3, .i32⟩
  | 127 => ⟨S8x64x65536, .f32⟩
  | _ => ⟨S8x3x65536, .f32⟩

abbrev hbmTy0_1 (i : Nat) : BufTy := match i % 128 with
  | 0 => ⟨S8x1x65536, .f32⟩
  | 1 => ⟨S8x65536, .f32⟩
  | 2 => ⟨S8x1x65536, .f32⟩
  | 3 => ⟨S8x64x65536, .f32⟩
  | 4 => ⟨S8x64x65536, .f32⟩
  | 5 => ⟨S_, .i32⟩
  | 6 => ⟨S8x65536, .i32⟩
  | 7 => ⟨S8x65536, .i1⟩
  | 8 => ⟨S_, .i32⟩
  | 9 => ⟨S8x65536, .i32⟩
  | 10 => ⟨S8x65536, .i32⟩
  | 11 => ⟨S8x65536, .i32⟩
  | 12 => ⟨S_, .i32⟩
  | 13 => ⟨S8x65536, .i32⟩
  | 14 => ⟨S8x65536, .i1⟩
  | 15 => ⟨S_, .i32⟩
  | 16 => ⟨S8x65536, .i32⟩
  | 17 => ⟨S8x65536, .i32⟩
  | 18 => ⟨S8x65536, .i32⟩
  | 19 => ⟨S_, .i32⟩
  | 20 => ⟨S8x65536, .i32⟩
  | 21 => ⟨S8x65536, .i1⟩
  | 22 => ⟨S_, .i32⟩
  | 23 => ⟨S8x65536, .i32⟩
  | 24 => ⟨S8x65536, .i32⟩
  | 25 => ⟨S8x65536, .i32⟩
  | 26 => ⟨S8x65536x1, .i32⟩
  | 27 => ⟨S8x65536x1, .i32⟩
  | 28 => ⟨S8x65536x1, .i32⟩
  | 29 => ⟨S8x65536x3, .i32⟩
  | 30 => ⟨S8x64x65536, .f32⟩
  | 31 => ⟨S8x1x65536, .f32⟩
  | 32 => ⟨S8x65536, .f32⟩
  | 33 => ⟨S8x1x65536, .f32⟩
  | 34 => ⟨S8x64x65536, .f32⟩
  | 35 => ⟨S8x64x65536, .f32⟩
  | 36 => ⟨S8x64x65536, .f32⟩
  | 37 => ⟨S_, .i32⟩
  | 38 => ⟨S8x65536, .i32⟩
  | 39 => ⟨S8x65536, .i1⟩
  | 40 => ⟨S_, .i32⟩
  | 41 => ⟨S8x65536, .i32⟩
  | 42 => ⟨S8x65536, .i32⟩
  | 43 => ⟨S8x65536, .i32⟩
  | 44 => ⟨S_, .i32⟩
  | 45 => ⟨S8x65536, .i32⟩
  | 46 => ⟨S8x65536, .i1⟩
  | 47 => ⟨S_, .i32⟩
  | 48 => ⟨S8x65536, .i32⟩
  | 49 => ⟨S8x65536, .i32⟩
  | 50 => ⟨S8x65536, .i32⟩
  | 51 => ⟨S_, .i32⟩
  | 52 => ⟨S8x65536, .i32⟩
  | 53 => ⟨S8x65536, .i1⟩
  | 54 => ⟨S_, .i32⟩
  | 55 => ⟨S8x65536, .i32⟩
  | 56 => ⟨S8x65536, .i32⟩
  | 57 => ⟨S8x65536, .i32⟩
  | 58 => ⟨S8x65536x1, .i32⟩
  | 59 => ⟨S8x65536x1, .i32⟩
  | 60 => ⟨S8x65536x1, .i32⟩
  | 61 => ⟨S8x65536x3, .i32⟩
  | 62 => ⟨S8x64x65536, .f32⟩
  | 63 => ⟨S8x1x65536, .f32⟩
  | 64 => ⟨S8x65536, .f32⟩
  | 65 => ⟨S8x1x65536, .f32⟩
  | 66 => ⟨S8x64x65536, .f32⟩
  | 67 => ⟨S8x64x65536, .f32⟩
  | 68 => ⟨S_, .i32⟩
  | 69 => ⟨S8x65536, .i32⟩
  | 70 => ⟨S8x65536, .i1⟩
  | 71 => ⟨S_, .i32⟩
  | 72 => ⟨S8x65536, .i32⟩
  | 73 => ⟨S8x65536, .i32⟩
  | 74 => ⟨S8x65536, .i32⟩
  | 75 => ⟨S_, .i32⟩
  | 76 => ⟨S8x65536, .i32⟩
  | 77 => ⟨S8x65536, .i1⟩
  | 78 => ⟨S_, .i32⟩
  | 79 => ⟨S8x65536, .i32⟩
  | 80 => ⟨S8x65536, .i32⟩
  | 81 => ⟨S8x65536, .i32⟩
  | 82 => ⟨S_, .i32⟩
  | 83 => ⟨S8x65536, .i32⟩
  | 84 => ⟨S8x65536, .i1⟩
  | 85 => ⟨S_, .i32⟩
  | 86 => ⟨S8x65536, .i32⟩
  | 87 => ⟨S8x65536, .i32⟩
  | 88 => ⟨S8x65536, .i32⟩
  | 89 => ⟨S8x65536x1, .i32⟩
  | 90 => ⟨S8x65536x1, .i32⟩
  | 91 => ⟨S8x65536x1, .i32⟩
  | 92 => ⟨S8x65536x3, .i32⟩
  | 93 => ⟨S8x64x65536, .f32⟩
  | 94 => ⟨S8x1x65536, .f32⟩
  | 95 => ⟨S8x65536, .f32⟩
  | 96 => ⟨S8x1x65536, .f32⟩
  | 97 => ⟨S8x64x65536, .f32⟩
  | 98 => ⟨S8x64x65536, .f32⟩
  | 99 => ⟨S8x64x65536, .f32⟩
  | 100 => ⟨S_, .i32⟩
  | 101 => ⟨S8x65536, .i32⟩
  | 102 => ⟨S8x65536, .i1⟩
  | 103 => ⟨S_, .i32⟩
  | 104 => ⟨S8x65536, .i32⟩
  | 105 => ⟨S8x65536, .i32⟩
  | 106 => ⟨S8x65536, .i32⟩
  | 107 => ⟨S_, .i32⟩
  | 108 => ⟨S8x65536, .i32⟩
  | 109 => ⟨S8x65536, .i1⟩
  | 110 => ⟨S_, .i32⟩
  | 111 => ⟨S8x65536, .i32⟩
  | 112 => ⟨S8x65536, .i32⟩
  | 113 => ⟨S8x65536, .i32⟩
  | 114 => ⟨S_, .i32⟩
  | 115 => ⟨S8x65536, .i32⟩
  | 116 => ⟨S8x65536, .i1⟩
  | 117 => ⟨S_, .i32⟩
  | 118 => ⟨S8x65536, .i32⟩
  | 119 => ⟨S8x65536, .i32⟩
  | 120 => ⟨S8x65536, .i32⟩
  | 121 => ⟨S8x65536x1, .i32⟩
  | 122 => ⟨S8x65536x1, .i32⟩
  | 123 => ⟨S8x65536x1, .i32⟩
  | 124 => ⟨S8x65536x3, .i32⟩
  | 125 => ⟨S8x64x65536, .f32⟩
  | 126 => ⟨S8x1x65536, .f32⟩
  | 127 => ⟨S8x65536, .f32⟩
  | _ => ⟨S8x3x65536, .f32⟩

abbrev hbmTy0_2 (i : Nat) : BufTy := match i % 128 with
  | 0 => ⟨S8x1x65536, .f32⟩
  | 1 => ⟨S8x64x65536, .f32⟩
  | 2 => ⟨S8x64x65536, .f32⟩
  | 3 => ⟨S_, .i32⟩
  | 4 => ⟨S8x65536, .i32⟩
  | 5 => ⟨S8x65536, .i1⟩
  | 6 => ⟨S_, .i32⟩
  | 7 => ⟨S8x65536, .i32⟩
  | 8 => ⟨S8x65536, .i32⟩
  | 9 => ⟨S8x65536, .i32⟩
  | 10 => ⟨S_, .i32⟩
  | 11 => ⟨S8x65536, .i32⟩
  | 12 => ⟨S8x65536, .i1⟩
  | 13 => ⟨S_, .i32⟩
  | 14 => ⟨S8x65536, .i32⟩
  | 15 => ⟨S8x65536, .i32⟩
  | 16 => ⟨S8x65536, .i32⟩
  | 17 => ⟨S_, .i32⟩
  | 18 => ⟨S8x65536, .i32⟩
  | 19 => ⟨S8x65536, .i1⟩
  | 20 => ⟨S_, .i32⟩
  | 21 => ⟨S8x65536, .i32⟩
  | 22 => ⟨S8x65536, .i32⟩
  | 23 => ⟨S8x65536, .i32⟩
  | 24 => ⟨S8x65536x1, .i32⟩
  | 25 => ⟨S8x65536x1, .i32⟩
  | 26 => ⟨S8x65536x1, .i32⟩
  | 27 => ⟨S8x65536x3, .i32⟩
  | 28 => ⟨S8x64x65536, .f32⟩
  | 29 => ⟨S8x1x65536, .f32⟩
  | 30 => ⟨S8x65536, .f32⟩
  | 31 => ⟨S8x1x65536, .f32⟩
  | 32 => ⟨S8x64x65536, .f32⟩
  | 33 => ⟨S8x64x65536, .f32⟩
  | 34 => ⟨S8x64x65536, .f32⟩
  | 35 => ⟨S8x1x65536, .f32⟩
  | 36 => ⟨S8x65536, .f32⟩
  | 37 => ⟨S8x1x65536, .f32⟩
  | 38 => ⟨S8x64x65536, .f32⟩
  | 39 => ⟨S8x64x65536, .f32⟩
  | 40 => ⟨S8x1x65536, .f32⟩
  | 41 => ⟨S8x65536, .f32⟩
  | 42 => ⟨S8x1x65536, .f32⟩
  | 43 => ⟨S8x64x65536, .f32⟩
  | 44 => ⟨S8x64x65536, .f32⟩
  | 45 => ⟨S8x64x65536, .f32⟩
  | 46 => ⟨S8x1x65536, .f32⟩
  | 47 => ⟨S8x65536, .f32⟩
  | 48 => ⟨S8x1x65536, .f32⟩
  | 49 => ⟨S8x64x65536, .f32⟩
  | 50 => ⟨S8x64x65536, .f32⟩
  | 51 => ⟨S8x1x65536, .f32⟩
  | 52 => ⟨S8x65536, .f32⟩
  | 53 => ⟨S8x1x65536, .f32⟩
  | 54 => ⟨S8x64x65536, .f32⟩
  | 55 => ⟨S8x64x65536, .f32⟩
  | 56 => ⟨S8x64x65536, .f32⟩
  | 57 => ⟨S8x1x65536, .f32⟩
  | 58 => ⟨S8x65536, .f32⟩
  | 59 => ⟨S8x1x65536, .f32⟩
  | 60 => ⟨S8x64x65536, .f32⟩
  | 61 => ⟨S8x64x65536, .f32⟩
  | 62 => ⟨S8x1x65536, .f32⟩
  | 63 => ⟨S8x65536, .f32⟩
  | 64 => ⟨S8x1x65536, .f32⟩
  | 65 => ⟨S8x64x65536, .f32⟩
  | 66 => ⟨S8x64x65536, .f32⟩
  | 67 => ⟨S8x64x65536, .f32⟩
  | _ => ⟨S8x3x65536, .f32⟩

abbrev hbmTy (i : Nat) : BufTy := match i / 128 with
  | 0 => hbmTy0_0 i
  | 1 => hbmTy0_1 i
  | 2 => hbmTy0_2 i
  | _ => ⟨S8x3x65536, .f32⟩

abbrev bufTy : (tb : Table) → Fin (tcTables nBuf tb) → BufTy
  | .hbm, ⟨i, _⟩ => hbmTy i
  | _, _ => ⟨S8x3x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_v29 : Ref sig .tc := ⟨.hbm, 40, rfl⟩
abbrev main_v30 : Ref sig .tc := ⟨.hbm, 41, rfl⟩
abbrev main_c_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_5 : Ref sig .tc := ⟨.hbm, 46, rfl⟩
abbrev main_v34 : Ref sig .tc := ⟨.hbm, 47, rfl⟩
abbrev main_v35 : Ref sig .tc := ⟨.hbm, 48, rfl⟩
abbrev main_c_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_7 : Ref sig .tc := ⟨.hbm, 53, rfl⟩
abbrev main_v39 : Ref sig .tc := ⟨.hbm, 54, rfl⟩
abbrev main_v40 : Ref sig .tc := ⟨.hbm, 55, rfl⟩
abbrev main_c_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_9 : Ref sig .tc := ⟨.hbm, 70, rfl⟩
abbrev main_v54 : Ref sig .tc := ⟨.hbm, 71, rfl⟩
abbrev main_v55 : Ref sig .tc := ⟨.hbm, 72, rfl⟩
abbrev main_c_10 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_c_11 : Ref sig .tc := ⟨.hbm, 77, rfl⟩
abbrev main_v59 : Ref sig .tc := ⟨.hbm, 78, rfl⟩
abbrev main_v60 : Ref sig .tc := ⟨.hbm, 79, rfl⟩
abbrev main_c_12 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_13 : Ref sig .tc := ⟨.hbm, 84, rfl⟩
abbrev main_v64 : Ref sig .tc := ⟨.hbm, 85, rfl⟩
abbrev main_v65 : Ref sig .tc := ⟨.hbm, 86, rfl⟩
abbrev main_c_14 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_c_15 : Ref sig .tc := ⟨.hbm, 102, rfl⟩
abbrev main_v80 : Ref sig .tc := ⟨.hbm, 103, rfl⟩
abbrev main_v81 : Ref sig .tc := ⟨.hbm, 104, rfl⟩
abbrev main_c_16 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_c_17 : Ref sig .tc := ⟨.hbm, 109, rfl⟩
abbrev main_v85 : Ref sig .tc := ⟨.hbm, 110, rfl⟩
abbrev main_v86 : Ref sig .tc := ⟨.hbm, 111, rfl⟩
abbrev main_c_18 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_c_19 : Ref sig .tc := ⟨.hbm, 116, rfl⟩
abbrev main_v90 : Ref sig .tc := ⟨.hbm, 117, rfl⟩
abbrev main_v91 : Ref sig .tc := ⟨.hbm, 118, rfl⟩
abbrev main_c_20 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_c_21 : Ref sig .tc := ⟨.hbm, 133, rfl⟩
abbrev main_v105 : Ref sig .tc := ⟨.hbm, 134, rfl⟩
abbrev main_v106 : Ref sig .tc := ⟨.hbm, 135, rfl⟩
abbrev main_c_22 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_c_23 : Ref sig .tc := ⟨.hbm, 140, rfl⟩
abbrev main_v110 : Ref sig .tc := ⟨.hbm, 141, rfl⟩
abbrev main_v111 : Ref sig .tc := ⟨.hbm, 142, rfl⟩
abbrev main_c_24 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_c_25 : Ref sig .tc := ⟨.hbm, 147, rfl⟩
abbrev main_v115 : Ref sig .tc := ⟨.hbm, 148, rfl⟩
abbrev main_v116 : Ref sig .tc := ⟨.hbm, 149, rfl⟩
abbrev main_c_26 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_c_27 : Ref sig .tc := ⟨.hbm, 165, rfl⟩
abbrev main_v131 : Ref sig .tc := ⟨.hbm, 166, rfl⟩
abbrev main_v132 : Ref sig .tc := ⟨.hbm, 167, rfl⟩
abbrev main_c_28 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_c_29 : Ref sig .tc := ⟨.hbm, 172, rfl⟩
abbrev main_v136 : Ref sig .tc := ⟨.hbm, 173, rfl⟩
abbrev main_v137 : Ref sig .tc := ⟨.hbm, 174, rfl⟩
abbrev main_c_30 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_c_31 : Ref sig .tc := ⟨.hbm, 179, rfl⟩
abbrev main_v141 : Ref sig .tc := ⟨.hbm, 180, rfl⟩
abbrev main_v142 : Ref sig .tc := ⟨.hbm, 181, rfl⟩
abbrev main_c_32 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_c_33 : Ref sig .tc := ⟨.hbm, 196, rfl⟩
abbrev main_v156 : Ref sig .tc := ⟨.hbm, 197, rfl⟩
abbrev main_v157 : Ref sig .tc := ⟨.hbm, 198, rfl⟩
abbrev main_c_34 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_c_35 : Ref sig .tc := ⟨.hbm, 203, rfl⟩
abbrev main_v161 : Ref sig .tc := ⟨.hbm, 204, rfl⟩
abbrev main_v162 : Ref sig .tc := ⟨.hbm, 205, rfl⟩
abbrev main_c_36 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_c_37 : Ref sig .tc := ⟨.hbm, 210, rfl⟩
abbrev main_v166 : Ref sig .tc := ⟨.hbm, 211, rfl⟩
abbrev main_v167 : Ref sig .tc := ⟨.hbm, 212, rfl⟩
abbrev main_c_38 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_c_39 : Ref sig .tc := ⟨.hbm, 228, rfl⟩
abbrev main_v182 : Ref sig .tc := ⟨.hbm, 229, rfl⟩
abbrev main_v183 : Ref sig .tc := ⟨.hbm, 230, rfl⟩
abbrev main_c_40 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_c_41 : Ref sig .tc := ⟨.hbm, 235, rfl⟩
abbrev main_v187 : Ref sig .tc := ⟨.hbm, 236, rfl⟩
abbrev main_v188 : Ref sig .tc := ⟨.hbm, 237, rfl⟩
abbrev main_c_42 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_c_43 : Ref sig .tc := ⟨.hbm, 242, rfl⟩
abbrev main_v192 : Ref sig .tc := ⟨.hbm, 243, rfl⟩
abbrev main_v193 : Ref sig .tc := ⟨.hbm, 244, rfl⟩
abbrev main_c_44 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_c_45 : Ref sig .tc := ⟨.hbm, 259, rfl⟩
abbrev main_v207 : Ref sig .tc := ⟨.hbm, 260, rfl⟩
abbrev main_v208 : Ref sig .tc := ⟨.hbm, 261, rfl⟩
abbrev main_c_46 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_c_47 : Ref sig .tc := ⟨.hbm, 266, rfl⟩
abbrev main_v212 : Ref sig .tc := ⟨.hbm, 267, rfl⟩
abbrev main_v213 : Ref sig .tc := ⟨.hbm, 268, rfl⟩
abbrev main_c_48 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_c_49 : Ref sig .tc := ⟨.hbm, 273, rfl⟩
abbrev main_v217 : Ref sig .tc := ⟨.hbm, 274, rfl⟩
abbrev main_v218 : Ref sig .tc := ⟨.hbm, 275, rfl⟩
abbrev main_c_50 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_v243 : Ref sig .tc := ⟨.hbm, 301, rfl⟩
abbrev main_v244 : Ref sig .tc := ⟨.hbm, 302, rfl⟩
abbrev main_v245 : Ref sig .tc := ⟨.hbm, 303, rfl⟩
abbrev main_v246 : Ref sig .tc := ⟨.hbm, 304, rfl⟩
abbrev main_v247 : Ref sig .tc := ⟨.hbm, 305, rfl⟩
abbrev main_v248 : Ref sig .tc := ⟨.hbm, 306, rfl⟩
abbrev main_v249 : Ref sig .tc := ⟨.hbm, 307, rfl⟩
abbrev main_v250 : Ref sig .tc := ⟨.hbm, 308, rfl⟩
abbrev main_v251 : Ref sig .tc := ⟨.hbm, 309, rfl⟩
abbrev main_v252 : Ref sig .tc := ⟨.hbm, 310, rfl⟩
abbrev main_v253 : Ref sig .tc := ⟨.hbm, 311, rfl⟩
abbrev main_v254 : Ref sig .tc := ⟨.hbm, 312, rfl⟩
abbrev main_v255 : Ref sig .tc := ⟨.hbm, 313, rfl⟩
abbrev main_v256 : Ref sig .tc := ⟨.hbm, 314, rfl⟩
abbrev main_v257 : Ref sig .tc := ⟨.hbm, 315, rfl⟩
abbrev main_v258 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_v262 : Ref sig .tc := ⟨.hbm, 320, rfl⟩
abbrev main_v263 : Ref sig .tc := ⟨.hbm, 321, rfl⟩
abbrev main_v264 : Ref sig .tc := ⟨.hbm, 322, rfl⟩
abbrev main_v265 : Ref sig .tc := ⟨.hbm, 323, rfl⟩

abbrev nD : Nat := 1
abbrev τ : Topo := Topo.v7x

variable {F : FTy → Type} [FloatOps F]

class Facts₀ : Prop where
  reducesTo_S8x3x65536_S8x3_d2 : S8x3x65536.ReducesTo [2] S8x3
  h_S_ : 0 < S_.numel
  bcast_S8x3_S8x3x1_0_1 : S8x3.BroadcastsInDim S8x3x1 (![0, 1] : Fin 2 → Fin S8x3x1.rank)
  bcast_S8x3x1_S8x3x65536_0_1_2 : S8x3x1.BroadcastsInDim S8x3x65536 (![0, 1, 2] : Fin 3 → Fin S8x3x65536.rank)
  reducesTo_S8x3x65536_S8x65536_d1 : S8x3x65536.ReducesTo [1] S8x65536
  reducesTo_S8x65536_S_d0_1 : S8x65536.ReducesTo [0, 1] S_
  bcast_S_S8x3x65536 : S_.BroadcastsInDim S8x3x65536 (![] : Fin 0 → Fin S8x3x65536.rank)
  slices_S8x3x65536_S8x1x65536_0_0_0 : S8x3x65536.Slices ![0, 0, 0] S8x1x65536
  shapeCasts_S8x1x65536_S8x65536 : S8x1x65536.ShapeCasts S8x65536
  slices_S8x3x65536_S8x1x65536_0_1_0 : S8x3x65536.Slices ![0, 1, 0] S8x1x65536
  slices_S8x3x65536_S8x1x65536_0_2_0 : S8x3x65536.Slices ![0, 2, 0] S8x1x65536
  bcast_S_S8x65536 : S_.BroadcastsInDim S8x65536 (![] : Fin 0 → Fin S8x65536.rank)
  bcast_S8x65536_S8x65536x1_0_1 : S8x65536.BroadcastsInDim S8x65536x1 (![0, 1] : Fin 2 → Fin S8x65536x1.rank)
  concatenates_S8x65536x1_S8x65536x1_S8x65536x1_S8x65536x3_d2 : Shape.Concatenates [S8x65536x1, S8x65536x1, S8x65536x1] S8x65536x3 2
  bcast_S8x65536_S8x1x65536_0_2 : S8x65536.BroadcastsInDim S8x1x65536 (![0, 2] : Fin 2 → Fin S8x1x65536.rank)
  bcast_S8x1x65536_S8x64x65536_0_1_2 : S8x1x65536.BroadcastsInDim S8x64x65536 (![0, 1, 2] : Fin 3 → Fin S8x64x65536.rank)
  gather_S8x64x32x32x32_S8x65536x3_S8x64x65536_1_234_0_0_234_2_164111_wf : GatherDims.WF S8x64x32x32x32 S8x65536x3 S8x64x65536 [1] [2, 3, 4] [0] [2, 3, 4] [0] 2 ![1, 64, 1, 1, 1]

variable [Facts₀]

def gather_S8x64x32x32x32_S8x65536x3_S8x64x65536_1_234_0_0_234_2_164111 : GatherDims S8x64x32x32x32 S8x65536x3 S8x64x65536 where
  offsetDims := [1]
  collapsedSliceDims := [2, 3, 4]
  operandBatchingDims := [0]
  startIndicesBatchingDims := [0]
  startIndexMap := [2, 3, 4]
  indexVectorDim := 2
  sliceSizes := ![1, 64, 1, 1, 1]
  wf := gather_S8x64x32x32x32_S8x65536x3_S8x64x65536_1_234_0_0_234_2_164111_wf

class Facts : Prop extends Facts₀ where

variable [Facts]
-- ==== Proof.RefOps.lean ====
/-
  The reference program as a sequence: its @main is the list of its 322 host operations, in program order, the four
  operations of the outlined norm standing at its call; every operation touches only the TensorCore's buffers.
-/
import proofs.«112822_j57062935495024_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- @main's operations, in program order. -/
abbrev ops : List (HloOp τ sig (Elt F)) :=
  [ nullary main_cst (constant S_ .f32 0x7F800000#32),
    binary main_arg0 main_cst main_v0 ((fun x v => Host.reduce FloatOps.minimumf x v reducesTo_S8x3x65536_S8x3_d2 h_S_) : (⟨S8x3x65536, .f32⟩ : BufTy).Contents (Elt F) → (⟨S_, .f32⟩ : BufTy).Contents (Elt F) → (⟨S8x3, .f32⟩ : BufTy).Contents (Elt F)),
    unary main_v0 main_v1 (broadcastInDim S8x3x1 ![0, 1] bcast_S8x3_S8x3x1_0_1 : (⟨S8x3, .f32⟩ : BufTy).Contents (Elt F) → (⟨S8x3x1, .f32⟩ : BufTy).Contents (Elt F)),
    unary main_v1 main_v2 (broadcastInDim S8x3x65536 ![0, 1, 2] bcast_S8x3x1_S8x3x65536_0_1_2 : (⟨S8x3x1, .f32⟩ : BufTy).Contents (Elt F) → (⟨S8x3x65536, .f32⟩ : BufTy).Contents (Elt F)),
    binary main_arg0 main_v2 main_v3 (subf : (⟨S8x3x65536, .f32⟩ : BufTy).Contents (Elt F) → (⟨S8x3x65536, .f32⟩ : BufTy).Contents (Elt F) → (⟨S8x3x65536, .f32⟩ : BufTy).Contents (Elt F)),
    TRef.binary (TRef.of (T := ⟨S8x3x65536, .f32⟩) main_v3) (TRef.of (T := ⟨S8x3x65536, .f32⟩) main_v3) main_call0.v0 mulf,
    TRef.nullary main_call0.cst (constant S_ .f32 0x00000000#32),
    TRef.binary main_call0.v0 main_call0.cst main_call0.v1 (fun x v => Host.reduceAdd x v reducesTo_S8x3x65536_S8x65536_d1 h_S_),
    TRef.unary main_call0.v1 main_call0.v2 Host.sqrt,
    nullary main_cst_0 (constant S_ .f32 0xFF800000#32),
    binary main_v4 main_cst_0 main_v5 ((fun x v => Host.reduce FloatOps.maximumf x v reducesTo_S8x65536_S_d0_1 h_S_) : (⟨S8x65536, .f32⟩ : BufTy).Contents (Elt F) → (⟨S_, .f32⟩ : BufTy).Contents (Elt F) → (⟨S_, .f32⟩ : BufTy).Contents (Elt F)),
    nullary main_cst_1 (constant S_ .f32 0x322BCC77#32),
    binary main_v5 main_cst_1 main_v6 (addf : (⟨S_, .f32⟩ : BufTy).Contents (Elt F) → (⟨S_, .f32⟩ : BufTy).Contents (Elt F) → (⟨S_, .f32⟩ : BufTy).Contents (Elt F)),
    unary main_v6 main_v7 (broadcastInDim S8x3x65536 ![] bcast_S_S8x3x65536 : (⟨S_, .f32⟩ : BufTy).Contents (Elt F) → (⟨S8x3x65536, .f32⟩ : BufTy).Contents (Elt F)),
    binary main_v3 main_v7 main_v8 (Host.divf : (⟨S8x3x65536, .f32⟩ : BufTy).Contents (Elt F) → (⟨S8x3x65536, .f32⟩ : BufTy).Contents (Elt F) → (⟨S8x3x65536, .f32⟩ : BufTy).Contents (Elt F)),
    nullary main_cst_2 (constant S_ .f32 0x41F80000#32),
    unary main_cst_2 main_v9 (broadcastInDim S8x3x65536 ![] bcast_S_S8x3x65536 : (⟨S_, .f32⟩ : BufTy).Contents (Elt F) → (⟨S8x3x65536, .f32⟩ : BufTy).Contents (Elt F)),
    binary main_v8 main_v9 main_v10 (mulf : (⟨S8x3x65536, .f32⟩ : BufTy).Contents (Elt F) → (⟨S8x3x65536, .f32⟩ : BufTy).Contents (Elt F) → (⟨S8x3x65536, .f32⟩ : BufTy).Contents (Elt F)),
    nullary main_cst_3 (constant S_ .f32 0x3F800000#32),
    unary main_cst_3 main_v11 (broadcastInDim S8x3x65536 ![] bcast_S_S8x3x65536 : (⟨S_, .f32⟩ : BufTy).Contents (Elt F) → (⟨S8x3x65536, .f32⟩ : BufTy).Contents (Elt F)),
    binary main_v11 main_v10 main_v12 (subf : (⟨S8x3x65536, .f32⟩ : BufTy).Contents (Elt F) → (⟨S8x3x65536, .f32⟩ : BufTy).Contents (Elt F) → (⟨S8x3x65536, .f32⟩ : BufTy).Contents (Elt F)),
    unary main_v10 main_v13 (Host.floor : (⟨S8x3x65536, .f32⟩ : BufTy).Contents (Elt F) → (⟨S8x3x65536, .f32⟩ : BufTy).Contents (Elt F)),
    unary main_v13 main_v14 (fptosi 32 : (⟨S8x3x65536, .f32⟩ : BufTy).Contents (Elt F) → (⟨S8x3x65536, .i32⟩ : BufTy).Contents (Elt F)),
    unary main_v10 main_v15 (Host.ceil : (⟨S8x3x65536, .f32⟩ : BufTy).Contents (Elt F) → (⟨S8x3x65536, .f32⟩ : BufTy).Contents (Elt F)),
    unary main_v15 main_v16 (fptosi 32 : (⟨S8x3x65536, .f32⟩ : BufTy).Contents (Elt F) → (⟨S8x3x65536, .i32⟩ : BufTy).Contents (Elt F)),
    unary main_v14 main_v17 ((extractStridedSlice S8x1x65536 ![0, 0, 0] · slices_S8x3x65536_S8x1x65536_0_0_0) : (⟨S8x3x65536, .i32⟩ : BufTy).Contents (Elt F) → (⟨S8x1x65536, .i32⟩ : BufTy).Contents (Elt F)),
    reshape main_v17 main_v18 rfl shapeCasts_S8x1x65536_S8x65536,
    unary main_v14 main_v19 ((extractStridedSlice S8x1x65536 ![0, 1, 0] · slices_S8x3x65536_S8x1x65536_0_1_0) : (⟨S8x3x65536, .i32⟩ : BufTy).Contents (Elt F) → (⟨S8x1x65536, .i32⟩ : BufTy).Contents (Elt F)),
    reshape main_v19 main_v20 rfl shapeCasts_S8x1x65536_S8x65536,
    unary main_v14 main_v21 ((extractStridedSlice S8x1x65536 ![0, 2, 0] · slices_S8x3x65536_S8x1x65536_0_2_0) : (⟨S8x3x65536, .i32⟩ : BufTy).Contents (Elt F) → (⟨S8x1x65536, .i32⟩ : BufTy).Contents (Elt F)),
    reshape main_v21 main_v22 rfl shapeCasts_S8x1x65536_S8x65536,
    unary main_v16 main_v23 ((extractStridedSlice S8x1x65536 ![0, 0, 0] · slices_S8x3x65536_S8x1x65536_0_0_0) : (⟨S8x3x65536, .i32⟩ : BufTy).Contents (Elt F) → (⟨S8x1x65536, .i32⟩ : BufTy).Contents (Elt F)),
    reshape main_v23 main_v24 rfl shapeCasts_S8x1x65536_S8x65536,
    unary main_v16 main_v25 ((extractStridedSlice S8x1x65536 ![0, 1, 0] · slices_S8x3x65536_S8x1x65536_0_1_0) : (⟨S8x3x65536, .i32⟩ : BufTy).Contents (Elt F) → (⟨S8x1x65536, .i32⟩ : BufTy).Contents (Elt F)),
    reshape main_v25 main_v26 rfl shapeCasts_S8x1x65536_S8x65536,
    unary main_v16 main_v27 ((extractStridedSlice S8x1x65536 ![0, 2, 0] · slices_S8x3x65536_S8x1x65536_0_2_0) : (⟨S8x3x65536, .i32⟩ : BufTy).Contents (Elt F) → (⟨S8x1x65536, .i32⟩ : BufTy).Contents (Elt F)),
    reshape main_v27 main_v28 rfl shapeCasts_S8x1x65536_S8x65536,
    nullary main_c (constantI S_ 32 0#32),
    unary main_c main_v29 (broadcastInDim S8x65536 ![] bcast_S_S8x65536 : (⟨S_, .i32⟩ : BufTy).Contents (Elt F) → (⟨S8x65536, .i32⟩ : BufTy).Contents (Elt F)),
    binary main_v18 main_v29 main_v30 (cmpi .slt : (⟨S8x65536, .i32⟩ : BufTy).Contents (Elt F) → (⟨S8x65536, .i32⟩ : BufTy).Contents (Elt F) → (⟨S8x65536, .i1⟩ : BufTy).Contents (Elt F)),
    nullary main_c_4 (constantI S_ 32 32#32),
    unary main_c_4 main_v31 (broadcastInDim S8x65536 ![] bcast_S_S8x65536 : (⟨S_, .i32⟩ : BufTy).Contents (Elt F) → (⟨S8x65536, .i32⟩ : BufTy).Contents (Elt F)),
    binary main_v18 main_v31 main_v32 (addi : (⟨S8x65536, .i32⟩ : BufTy).Contents (Elt F) → (⟨S8x65536, .i32⟩ : BufTy).Contents (Elt F) → (⟨S8x65536, .i32⟩ : BufTy).Contents (Elt F)),
    ternary main_v30 main_v32 main_v18 main_v33 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    nullary main_c_5 (constantI S_ 32 0#32),
    unary main_c_5 main_v34 (broadcastInDim S8x65536 ![] bcast_S_S8x65536 : (⟨S_, .i32⟩ : BufTy).Contents (Elt F) → (⟨S8x65536, .i32⟩ : BufTy).Contents (Elt F)),
    binary main_v20 main_v34 main_v35 (cmpi .slt : (⟨S8x65536, .i32⟩ : BufTy).Contents (Elt F) → (⟨S8x65536, .i32⟩ : BufTy).Contents (Elt F) → (⟨S8x65536, .i1⟩ : BufTy).Contents (Elt F)),
    nullary main_c_6 (constantI S_ 32 32#32),
    unary main_c_6 main_v36 (broadcastInDim S8x65536 ![] bcast_S_S8x65536 : (⟨S_, .i32⟩ : BufTy).Contents (Elt F) → (⟨S8x65536, .i32⟩ : BufTy).Contents (Elt F)),
    binary main_v20 main_v36 main_v37 (addi : (⟨S8x65536, .i32⟩ : BufTy).Contents (Elt F) → (⟨S8x65536, .i32⟩ : BufTy).Contents (Elt F) → (⟨S8x65536, .i32⟩ : BufTy).Contents (Elt F)),
    ternary main_v35 main_v37 main_v20 main_v38 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    nullary main_c_7 (constantI S_ 32 0#32),
    unary main_c_7 main_v39 (broadcastInDim S8x65536 ![] bcast_S_S8x65536 : (⟨S_, .i32⟩ : BufTy).Contents (Elt F) → (⟨S8x65536, .i32⟩ : BufTy).Contents (Elt F)),
    binary main_v22 main_v39 main_v40 (cmpi .slt : (⟨S8x65536, .i32⟩ : BufTy).Contents (Elt F) → (⟨S8x65536, .i32⟩ : BufTy).Contents (Elt F) → (⟨S8x65536, .i1⟩ : BufTy).Contents (Elt F)),
    nullary main_c_8 (constantI S_ 32 32#32),
    unary main_c_8 main_v41 (broadcastInDim S8x65536 ![] bcast_S_S8x65536 : (⟨S_, .i32⟩ : BufTy).Contents (Elt F) → (⟨S8x65536, .i32⟩ : BufTy).Contents (Elt F)),
    binary main_v22 main_v41 main_v42 (addi : (⟨S8x65536, .i32⟩ : BufTy).Contents (Elt F) → (⟨S8x65536, .i32⟩ : BufTy).Contents (Elt F) → (⟨S8x65536, .i32⟩ : BufTy).Contents (Elt F)),
    ternary main_v40 main_v42 main_v22 main_v43 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    unary main_v33 main_v44 (broadcastInDim S8x65536x1 ![0, 1] bcast_S8x65536_S8x65536x1_0_1 : (⟨S8x65536, .i32⟩ : BufTy).Contents (Elt F) → (⟨S8x65536x1, .i32⟩ : BufTy).Contents (Elt F)),
    unary main_v38 main_v45 (broadcastInDim S8x65536x1 ![0, 1] bcast_S8x65536_S8x65536x1_0_1 : (⟨S8x65536, .i32⟩ : BufTy).Contents (Elt F) → (⟨S8x65536x1, .i32⟩ : BufTy).Contents (Elt F)),
    unary main_v43 main_v46 (broadcastInDim S8x65536x1 ![0, 1] bcast_S8x65536_S8x65536x1_0_1 : (⟨S8x65536, .i32⟩ : BufTy).Contents (Elt F) → (⟨S8x65536x1, .i32⟩ : BufTy).Contents (Elt F)),
    nary ![main_v44, main_v45, main_v46] main_v47 (fun u => concatenate S8x65536x3 2 [⟨S8x65536x1, u 0⟩, ⟨S8x65536x1, u 1⟩, ⟨S8x65536x1, u 2⟩] concatenates_S8x65536x1_S8x65536x1_S8x65536x1_S8x65536x3_d2),
    binary main_arg1 main_v47 main_v48 ((fun x i => Host.gather gather_S8x64x32x32x32_S8x65536x3_S8x64x65536_1_234_0_0_234_2_164111 x i) : (⟨S8x64x32x32x32, .f32⟩ : BufTy).Contents (Elt F) → (⟨S8x65536x3, .i32⟩ : BufTy).Contents (Elt F) → (⟨S8x64x65536, .f32⟩ : BufTy).Contents (Elt F)),
    unary main_v12 main_v49 ((extractStridedSlice S8x1x65536 ![0, 0, 0] · slices_S8x3x65536_S8x1x65536_0_0_0) : (⟨S8x3x65536, .f32⟩ : BufTy).Contents (Elt F) → (⟨S8x1x65536, .f32⟩ : BufTy).Contents (Elt F)),
    reshape main_v49 main_v50 rfl shapeCasts_S8x1x65536_S8x65536,
    unary main_v50 main_v51 (broadcastInDim S8x1x65536 ![0, 2] bcast_S8x65536_S8x1x65536_0_2 : (⟨S8x65536, .f32⟩ : BufTy).Contents (Elt F) → (⟨S8x1x65536, .f32⟩ : BufTy).Contents (Elt F)),
    unary main_v51 main_v52 (broadcastInDim S8x64x65536 ![0, 1, 2] bcast_S8x1x65536_S8x64x65536_0_1_2 : (⟨S8x1x65536, .f32⟩ : BufTy).Contents (Elt F) → (⟨S8x64x65536, .f32⟩ : BufTy).Contents (Elt F)),
    binary main_v48 main_v52 main_v53 (mulf : (⟨S8x64x65536, .f32⟩ : BufTy).Contents (Elt F) → (⟨S8x64x65536, .f32⟩ : BufTy).Contents (Elt F) → (⟨S8x64x65536, .f32⟩ : BufTy).Contents (Elt F)),
    nullary main_c_9 (constantI S_ 32 0#32),
    unary main_c_9 main_v54 (broadcastInDim S8x65536 ![] bcast_S_S8x65536 : (⟨S_, .i32⟩ : BufTy).Contents (Elt F) → (⟨S8x65536, .i32⟩ : BufTy).Contents (Elt F)),
    binary main_v24 main_v54 main_v55 (cmpi .slt : (⟨S8x65536, .i32⟩ : BufTy).Contents (Elt F) → (⟨S8x65536, .i32⟩ : BufTy).Contents (Elt F) → (⟨S8x65536, .i1⟩ : BufTy).Contents (Elt F)),
    nullary main_c_10 (constantI S_ 32 32#32),
    unary main_c_10 main_v56 (broadcastInDim S8x65536 ![] bcast_S_S8x65536 : (⟨S_, .i32⟩ : BufTy).Contents (Elt F) → (⟨S8x65536, .i32⟩ : BufTy).Contents (Elt F)),
    binary main_v24 main_v56 main_v57 (addi : (⟨S8x65536, .i32⟩ : BufTy).Contents (Elt F) → (⟨S8x65536, .i32⟩ : BufTy).Contents (Elt F) → (⟨S8x65536, .i32⟩ : BufTy).Contents (Elt F)),
    ternary main_v55 main_v57 main_v24 main_v58 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    nullary main_c_11 (constantI S_ 32 0#32),
    unary main_c_11 main_v59 (broadcastInDim S8x65536 ![] bcast_S_S8x65536 : (⟨S_, .i32⟩ : BufTy).Contents (Elt F) → (⟨S8x65536, .i32⟩ : BufTy).Contents (Elt F)),
    binary main_v20 main_v59 main_v60 (cmpi .slt : (⟨S8x65536, .i32⟩ : BufTy).Contents (Elt F) → (⟨S8x65536, .i32⟩ : BufTy).Contents (Elt F) → (⟨S8x65536, .i1⟩ : BufTy).Contents (Elt F)),
    nullary main_c_12 (constantI S_ 32 32#32),
    unary main_c_12 main_v61 (broadcastInDim S8x65536 ![] bcast_S_S8x65536 : (⟨S_, .i32⟩ : BufTy).Contents (Elt F) → (⟨S8x65536, .i32⟩ : BufTy).Contents (Elt F)),
    binary main_v20 main_v61 main_v62 (addi : (⟨S8x65536, .i32⟩ : BufTy).Contents (Elt F) → (⟨S8x65536, .i32⟩ : BufTy).Contents (Elt F) → (⟨S8x65536, .i32⟩ : BufTy).Contents (Elt F)),
    ternary main_v60 main_v62 main_v20 main_v63 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    nullary main_c_13 (constantI S_ 32 0#32),
    unary main_c_13 main_v64 (broadcastInDim S8x65536 ![] bcast_S_S8x65536 : (⟨S_, .i32⟩ : BufTy).Contents (Elt F) → (⟨S8x65536, .i32⟩ : BufTy).Contents (Elt F)),
    binary main_v22 main_v64 main_v65 (cmpi .slt : (⟨S8x65536, .i32⟩ : BufTy).Contents (Elt F) → (⟨S8x65536, .i32⟩ : BufTy).Contents (Elt F) → (⟨S8x65536, .i1⟩ : BufTy).Contents (Elt F)),
    nullary main_c_14 (constantI S_ 32 32#32),
    unary main_c_14 main_v66 (broadcastInDim S8x65536 ![] bcast_S_S8x65536 : (⟨S_, .i32⟩ : BufTy).Contents (Elt F) → (⟨S8x65536, .i32⟩ : BufTy).Contents (Elt F)),
    binary main_v22 main_v66 main_v67 (addi : (⟨S8x65536, .i32⟩ : BufTy).Contents (Elt F) → (⟨S8x65536, .i32⟩ : BufTy).Contents (Elt F) → (⟨S8x65536, .i32⟩ : BufTy).Contents (Elt F)),
    ternary main_v65 main_v67 main_v22 main_v68 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    unary main_v58 main_v69 (broadcastInDim S8x65536x1 ![0, 1] bcast_S8x65536_S8x65536x1_0_1 : (⟨S8x65536, .i32⟩ : BufTy).Contents (Elt F) → (⟨S8x65536x1, .i32⟩ : BufTy).Contents (Elt F)),
    unary main_v63 main_v70 (broadcastInDim S8x65536x1 ![0, 1] bcast_S8x65536_S8x65536x1_0_1 : (⟨S8x65536, .i32⟩ : BufTy).Contents (Elt F) → (⟨S8x65536x1, .i32⟩ : BufTy).Contents (Elt F)),
    unary main_v68 main_v71 (broadcastInDim S8x65536x1 ![0, 1] bcast_S8x65536_S8x65536x1_0_1 : (⟨S8x65536, .i32⟩ : BufTy).Contents (Elt F) → (⟨S8x65536x1, .i32⟩ : BufTy).Contents (Elt F)),
    nary ![main_v69, main_v70, main_v71] main_v72 (fun u => concatenate S8x65536x3 2 [⟨S8x65536x1, u 0⟩, ⟨S8x65536x1, u 1⟩, ⟨S8x65536x1, u 2⟩] concatenates_S8x65536x1_S8x65536x1_S8x65536x1_S8x65536x3_d2),
    binary main_arg1 main_v72 main_v73 ((fun x i => Host.gather gather_S8x64x32x32x32_S8x65536x3_S8x64x65536_1_234_0_0_234_2_164111 x i) : (⟨S8x64x32x32x32, .f32⟩ : BufTy).Contents (Elt F) → (⟨S8x65536x3, .i32⟩ : BufTy).Contents (Elt F) → (⟨S8x64x65536, .f32⟩ : BufTy).Contents (Elt F)),
    unary main_v10 main_v74 ((extractStridedSlice S8x1x65536 ![0, 0, 0] · slices_S8x3x65536_S8x1x65536_0_0_0) : (⟨S8x3x65536, .f32⟩ : BufTy).Contents (Elt F) → (⟨S8x1x65536, .f32⟩ : BufTy).Contents (Elt F)),
    reshape main_v74 main_v75 rfl shapeCasts_S8x1x65536_S8x65536,
    unary main_v75 main_v76 (broadcastInDim S8x1x65536 ![0, 2] bcast_S8x65536_S8x1x65536_0_2 : (⟨S8x65536, .f32⟩ : BufTy).Contents (Elt F) → (⟨S8x1x65536, .f32⟩ : BufTy).Contents (Elt F)),
    unary main_v76 main_v77 (broadcastInDim S8x64x65536 ![0, 1, 2] bcast_S8x1x65536_S8x64x65536_0_1_2 : (⟨S8x1x65536, .f32⟩ : BufTy).Contents (Elt F) → (⟨S8x64x65536, .f32⟩ : BufTy).Contents (Elt F)),
    binary main_v73 main_v77 main_v78 (mulf : (⟨S8x64x65536, .f32⟩ : BufTy).Contents (Elt F) → (⟨S8x64x65536, .f32⟩ : BufTy).Contents (Elt F) → (⟨S8x64x65536, .f32⟩ : BufTy).Contents (Elt F)),
    binary main_v53 main_v78 main_v79 (addf : (⟨S8x64x65536, .f32⟩ : BufTy).Contents (Elt F) → (⟨S8x64x65536, .f32⟩ : BufTy).Contents (Elt F) → (⟨S8x64x65536, .f32⟩ : BufTy).Contents (Elt F)),
    nullary main_c_15 (constantI S_ 32 0#32),
    unary main_c_15 main_v80 (broadcastInDim S8x65536 ![] bcast_S_S8x65536 : (⟨S_, .i32⟩ : BufTy).Contents (Elt F) → (⟨S8x65536, .i32⟩ : BufTy).Contents (Elt F)),
    binary main_v18 main_v80 main_v81 (cmpi .slt : (⟨S8x65536, .i32⟩ : BufTy).Contents (Elt F) → (⟨S8x65536, .i32⟩ : BufTy).Contents (Elt F) → (⟨S8x65536, .i1⟩ : BufTy).Contents (Elt F)),
    nullary main_c_16 (constantI S_ 32 32#32),
    unary main_c_16 main_v82 (broadcastInDim S8x65536 ![] bcast_S_S8x65536 : (⟨S_, .i32⟩ : BufTy).Contents (Elt F) → (⟨S8x65536, .i32⟩ : BufTy).Contents (Elt F)),
    binary main_v18 main_v82 main_v83 (addi : (⟨S8x65536, .i32⟩ : BufTy).Contents (Elt F) → (⟨S8x65536, .i32⟩ : BufTy).Contents (Elt F) → (⟨S8x65536, .i32⟩ : BufTy).Contents (Elt F)),
    ternary main_v81 main_v83 main_v18 main_v84 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    nullary main_c_17 (constantI S_ 32 0#32),
    unary main_c_17 main_v85 (broadcastInDim S8x65536 ![] bcast_S_S8x65536 : (⟨S_, .i32⟩ : BufTy).Contents (Elt F) → (⟨S8x65536, .i32⟩ : BufTy).Contents (Elt F)),
    binary main_v26 main_v85 main_v86 (cmpi .slt : (⟨S8x65536, .i32⟩ : BufTy).Contents (Elt F) → (⟨S8x65536, .i32⟩ : BufTy).Contents (Elt F) → (⟨S8x65536, .i1⟩ : BufTy).Contents (Elt F)),
    nullary main_c_18 (constantI S_ 32 32#32),
    unary main_c_18 main_v87 (broadcastInDim S8x65536 ![] bcast_S_S8x65536 : (⟨S_, .i32⟩ : BufTy).Contents (Elt F) → (⟨S8x65536, .i32⟩ : BufTy).Contents (Elt F)),
    binary main_v26 main_v87 main_v88 (addi : (⟨S8x65536, .i32⟩ : BufTy).Contents (Elt F) → (⟨S8x65536, .i32⟩ : BufTy).Contents (Elt F) → (⟨S8x65536, .i32⟩ : BufTy).Contents (Elt F)),
    ternary main_v86 main_v88 main_v26 main_v89 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    nullary main_c_19 (constantI S_ 32 0#32),
    unary main_c_19 main_v90 (broadcastInDim S8x65536 ![] bcast_S_S8x65536 : (⟨S_, .i32⟩ : BufTy).Contents (Elt F) → (⟨S8x65536, .i32⟩ : BufTy).Contents (Elt F)),
    binary main_v22 main_v90 main_v91 (cmpi .slt : (⟨S8x65536, .i32⟩ : BufTy).Contents (Elt F) → (⟨S8x65536, .i32⟩ : BufTy).Contents (Elt F) → (⟨S8x65536, .i1⟩ : BufTy).Contents (Elt F)),
    nullary main_c_20 (constantI S_ 32 32#32),
    unary main_c_20 main_v92 (broadcastInDim S8x65536 ![] bcast_S_S8x65536 : (⟨S_, .i32⟩ : BufTy).Contents (Elt F) → (⟨S8x65536, .i32⟩ : BufTy).Contents (Elt F)),
    binary main_v22 main_v92 main_v93 (addi : (⟨S8x65536, .i32⟩ : BufTy).Contents (Elt F) → (⟨S8x65536, .i32⟩ : BufTy).Contents (Elt F) → (⟨S8x65536, .i32⟩ : BufTy).Contents (Elt F)),
    ternary main_v91 main_v93 main_v22 main_v94 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    unary main_v84 main_v95 (broadcastInDim S8x65536x1 ![0, 1] bcast_S8x65536_S8x65536x1_0_1 : (⟨S8x65536, .i32⟩ : BufTy).Contents (Elt F) → (⟨S8x65536x1, .i32⟩ : BufTy).Contents (Elt F)),
    unary main_v89 main_v96 (broadcastInDim S8x65536x1 ![0, 1] bcast_S8x65536_S8x65536x1_0_1 : (⟨S8x65536, .i32⟩ : BufTy).Contents (Elt F) → (⟨S8x65536x1, .i32⟩ : BufTy).Contents (Elt F)),
    unary main_v94 main_v97 (broadcastInDim S8x65536x1 ![0, 1] bcast_S8x65536_S8x65536x1_0_1 : (⟨S8x65536, .i32⟩ : BufTy).Contents (Elt F) → (⟨S8x65536x1, .i32⟩ : BufTy).Contents (Elt F)),
    nary ![main_v95, main_v96, main_v97] main_v98 (fun u => concatenate S8x65536x3 2 [⟨S8x65536x1, u 0⟩, ⟨S8x65536x1, u 1⟩, ⟨S8x65536x1, u 2⟩] concatenates_S8x65536x1_S8x65536x1_S8x65536x1_S8x65536x3_d2),
    binary main_arg1 main_v98 main_v99 ((fun x i => Host.gather gather_S8x64x32x32x32_S8x65536x3_S8x64x65536_1_234_0_0_234_2_164111 x i) : (⟨S8x64x32x32x32, .f32⟩ : BufTy).Contents (Elt F) → (⟨S8x65536x3, .i32⟩ : BufTy).Contents (Elt F) → (⟨S8x64x65536, .f32⟩ : BufTy).Contents (Elt F)),
    unary main_v12 main_v100 ((extractStridedSlice S8x1x65536 ![0, 0, 0] · slices_S8x3x65536_S8x1x65536_0_0_0) : (⟨S8x3x65536, .f32⟩ : BufTy).Contents (Elt F) → (⟨S8x1x65536, .f32⟩ : BufTy).Contents (Elt F)),
    reshape main_v100 main_v101 rfl shapeCasts_S8x1x65536_S8x65536,
    unary main_v101 main_v102 (broadcastInDim S8x1x65536 ![0, 2] bcast_S8x65536_S8x1x65536_0_2 : (⟨S8x65536, .f32⟩ : BufTy).Contents (Elt F) → (⟨S8x1x65536, .f32⟩ : BufTy).Contents (Elt F)),
    unary main_v102 main_v103 (broadcastInDim S8x64x65536 ![0, 1, 2] bcast_S8x1x65536_S8x64x65536_0_1_2 : (⟨S8x1x65536, .f32⟩ : BufTy).Contents (Elt F) → (⟨S8x64x65536, .f32⟩ : BufTy).Contents (Elt F)),
    binary main_v99 main_v103 main_v104 (mulf : (⟨S8x64x65536, .f32⟩ : BufTy).Contents (Elt F) → (⟨S8x64x65536, .f32⟩ : BufTy).Contents (Elt F) → (⟨S8x64x65536, .f32⟩ : BufTy).Contents (Elt F)),
    nullary main_c_21 (constantI S_ 32 0#32),
    unary main_c_21 main_v105 (broadcastInDim S8x65536 ![] bcast_S_S8x65536 : (⟨S_, .i32⟩ : BufTy).Contents (Elt F) → (⟨S8x65536, .i32⟩ : BufTy).Contents (Elt F)),
    binary main_v24 main_v105 main_v106 (cmpi .slt : (⟨S8x65536, .i32⟩ : BufTy).Contents (Elt F) → (⟨S8x65536, .i32⟩ : BufTy).Contents (Elt F) → (⟨S8x65536, .i1⟩ : BufTy).Contents (Elt F)),
    nullary main_c_22 (constantI S_ 32 32#32),
    unary main_c_22 main_v107 (broadcastInDim S8x65536 ![] bcast_S_S8x65536 : (⟨S_, .i32⟩ : BufTy).Contents (Elt F) → (⟨S8x65536, .i32⟩ : BufTy).Contents (Elt F)),
    binary main_v24 main_v107 main_v108 (addi : (⟨S8x65536, .i32⟩ : BufTy).Contents (Elt F) → (⟨S8x65536, .i32⟩ : BufTy).Contents (Elt F) → (⟨S8x65536, .i32⟩ : BufTy).Contents (Elt F)),
    ternary main_v106 main_v108 main_v24 main_v109 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    nullary main_c_23 (constantI S_ 32 0#32),
    unary main_c_23 main_v110 (broadcastInDim S8x65536 ![] bcast_S_S8x65536 : (⟨S_, .i32⟩ : BufTy).Contents (Elt F) → (⟨S8x65536, .i32⟩ : BufTy).Contents (Elt F)),
    binary main_v26 main_v110 main_v111 (cmpi .slt : (⟨S8x65536, .i32⟩ : BufTy).Contents (Elt F) → (⟨S8x65536, .i32⟩ : BufTy).Contents (Elt F) → (⟨S8x65536, .i1⟩ : BufTy).Contents (Elt F)),
    nullary main_c_24 (constantI S_ 32 32#32),
    unary main_c_24 main_v112 (broadcastInDim S8x65536 ![] bcast_S_S8x65536 : (⟨S_, .i32⟩ : BufTy).Contents (Elt F) → (⟨S8x65536, .i32⟩ : BufTy).Contents (Elt F)),
    binary main_v26 main_v112 main_v113 (addi : (⟨S8x65536, .i32⟩ : BufTy).Contents (Elt F) → (⟨S8x65536, .i32⟩ : BufTy).Contents (Elt F) → (⟨S8x65536, .i32⟩ : BufTy).Contents (Elt F)),
    ternary main_v111 main_v113 main_v26 main_v114 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    nullary main_c_25 (constantI S_ 32 0#32),
    unary main_c_25 main_v115 (broadcastInDim S8x65536 ![] bcast_S_S8x65536 : (⟨S_, .i32⟩ : BufTy).Contents (Elt F) → (⟨S8x65536, .i32⟩ : BufTy).Contents (Elt F)),
    binary main_v22 main_v115 main_v116 (cmpi .slt : (⟨S8x65536, .i32⟩ : BufTy).Contents (Elt F) → (⟨S8x65536, .i32⟩ : BufTy).Contents (Elt F) → (⟨S8x65536, .i1⟩ : BufTy).Contents (Elt F)),
    nullary main_c_26 (constantI S_ 32 32#32),
    unary main_c_26 main_v117 (broadcastInDim S8x65536 ![] bcast_S_S8x65536 : (⟨S_, .i32⟩ : BufTy).Contents (Elt F) → (⟨S8x65536, .i32⟩ : BufTy).Contents (Elt F)),
    binary main_v22 main_v117 main_v118 (addi : (⟨S8x65536, .i32⟩ : BufTy).Contents (Elt F) → (⟨S8x65536, .i32⟩ : BufTy).Contents (Elt F) → (⟨S8x65536, .i32⟩ : BufTy).Contents (Elt F)),
    ternary main_v116 main_v118 main_v22 main_v119 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    unary main_v109 main_v120 (broadcastInDim S8x65536x1 ![0, 1] bcast_S8x65536_S8x65536x1_0_1 : (⟨S8x65536, .i32⟩ : BufTy).Contents (Elt F) → (⟨S8x65536x1, .i32⟩ : BufTy).Contents (Elt F)),
    unary main_v114 main_v121 (broadcastInDim S8x65536x1 ![0, 1] bcast_S8x65536_S8x65536x1_0_1 : (⟨S8x65536, .i32⟩ : BufTy).Contents (Elt F) → (⟨S8x65536x1, .i32⟩ : BufTy).Contents (Elt F)),
    unary main_v119 main_v122 (broadcastInDim S8x65536x1 ![0, 1] bcast_S8x65536_S8x65536x1_0_1 : (⟨S8x65536, .i32⟩ : BufTy).Contents (Elt F) → (⟨S8x65536x1, .i32⟩ : BufTy).Contents (Elt F)),
    nary ![main_v120, main_v121, main_v122] main_v123 (fun u => concatenate S8x65536x3 2 [⟨S8x65536x1, u 0⟩, ⟨S8x65536x1, u 1⟩, ⟨S8x65536x1, u 2⟩] concatenates_S8x65536x1_S8x65536x1_S8x65536x1_S8x65536x3_d2),
    binary main_arg1 main_v123 main_v124 ((fun x i => Host.gather gather_S8x64x32x32x32_S8x65536x3_S8x64x65536_1_234_0_0_234_2_164111 x i) : (⟨S8x64x32x32x32, .f32⟩ : BufTy).Contents (Elt F) → (⟨S8x65536x3, .i32⟩ : BufTy).Contents (Elt F) → (⟨S8x64x65536, .f32⟩ : BufTy).Contents (Elt F)),
    unary main_v10 main_v125 ((extractStridedSlice S8x1x65536 ![0, 0, 0] · slices_S8x3x65536_S8x1x65536_0_0_0) : (⟨S8x3x65536, .f32⟩ : BufTy).Contents (Elt F) → (⟨S8x1x65536, .f32⟩ : BufTy).Contents (Elt F)),
    reshape main_v125 main_v126 rfl shapeCasts_S8x1x65536_S8x65536,
    unary main_v126 main_v127 (broadcastInDim S8x1x65536 ![0, 2] bcast_S8x65536_S8x1x65536_0_2 : (⟨S8x65536, .f32⟩ : BufTy).Contents (Elt F) → (⟨S8x1x65536, .f32⟩ : BufTy).Contents (Elt F)),
    unary main_v127 main_v128 (broadcastInDim S8x64x65536 ![0, 1, 2] bcast_S8x1x65536_S8x64x65536_0_1_2 : (⟨S8x1x65536, .f32⟩ : BufTy).Contents (Elt F) → (⟨S8x64x65536, .f32⟩ : BufTy).Contents (Elt F)),
    binary main_v124 main_v128 main_v129 (mulf : (⟨S8x64x65536, .f32⟩ : BufTy).Contents (Elt F) → (⟨S8x64x65536, .f32⟩ : BufTy).Contents (Elt F) → (⟨S8x64x65536, .f32⟩ : BufTy).Contents (Elt F)),
    binary main_v104 main_v129 main_v130 (addf : (⟨S8x64x65536, .f32⟩ : BufTy).Contents (Elt F) → (⟨S8x64x65536, .f32⟩ : BufTy).Contents (Elt F) → (⟨S8x64x65536, .f32⟩ : BufTy).Contents (Elt F)),
    nullary main_c_27 (constantI S_ 32 0#32),
    unary main_c_27 main_v131 (broadcastInDim S8x65536 ![] bcast_S_S8x65536 : (⟨S_, .i32⟩ : BufTy).Contents (Elt F) → (⟨S8x65536, .i32⟩ : BufTy).Contents (Elt F)),
    binary main_v18 main_v131 main_v132 (cmpi .slt : (⟨S8x65536, .i32⟩ : BufTy).Contents (Elt F) → (⟨S8x65536, .i32⟩ : BufTy).Contents (Elt F) → (⟨S8x65536, .i1⟩ : BufTy).Contents (Elt F)),
    nullary main_c_28 (constantI S_ 32 32#32),
    unary main_c_28 main_v133 (broadcastInDim S8x65536 ![] bcast_S_S8x65536 : (⟨S_, .i32⟩ : BufTy).Contents (Elt F) → (⟨S8x65536, .i32⟩ : BufTy).Contents (Elt F)),
    binary main_v18 main_v133 main_v134 (addi : (⟨S8x65536, .i32⟩ : BufTy).Contents (Elt F) → (⟨S8x65536, .i32⟩ : BufTy).Contents (Elt F) → (⟨S8x65536, .i32⟩ : BufTy).Contents (Elt F)),
    ternary main_v132 main_v134 main_v18 main_v135 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    nullary main_c_29 (constantI S_ 32 0#32),
    unary main_c_29 main_v136 (broadcastInDim S8x65536 ![] bcast_S_S8x65536 : (⟨S_, .i32⟩ : BufTy).Contents (Elt F) → (⟨S8x65536, .i32⟩ : BufTy).Contents (Elt F)),
    binary main_v20 main_v136 main_v137 (cmpi .slt : (⟨S8x65536, .i32⟩ : BufTy).Contents (Elt F) → (⟨S8x65536, .i32⟩ : BufTy).Contents (Elt F) → (⟨S8x65536, .i1⟩ : BufTy).Contents (Elt F)),
    nullary main_c_30 (constantI S_ 32 32#32),
    unary main_c_30 main_v138 (broadcastInDim S8x65536 ![] bcast_S_S8x65536 : (⟨S_, .i32⟩ : BufTy).Contents (Elt F) → (⟨S8x65536, .i32⟩ : BufTy).Contents (Elt F)),
    binary main_v20 main_v138 main_v139 (addi : (⟨S8x65536, .i32⟩ : BufTy).Contents (Elt F) → (⟨S8x65536, .i32⟩ : BufTy).Contents (Elt F) → (⟨S8x65536, .i32⟩ : BufTy).Contents (Elt F)),
    ternary main_v137 main_v139 main_v20 main_v140 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    nullary main_c_31 (constantI S_ 32 0#32),
    unary main_c_31 main_v141 (broadcastInDim S8x65536 ![] bcast_S_S8x65536 : (⟨S_, .i32⟩ : BufTy).Contents (Elt F) → (⟨S8x65536, .i32⟩ : BufTy).Contents (Elt F)),
    binary main_v28 main_v141 main_v142 (cmpi .slt : (⟨S8x65536, .i32⟩ : BufTy).Contents (Elt F) → (⟨S8x65536, .i32⟩ : BufTy).Contents (Elt F) → (⟨S8x65536, .i1⟩ : BufTy).Contents (Elt F)),
    nullary main_c_32 (constantI S_ 32 32#32),
    unary main_c_32 main_v143 (broadcastInDim S8x65536 ![] bcast_S_S8x65536 : (⟨S_, .i32⟩ : BufTy).Contents (Elt F) → (⟨S8x65536, .i32⟩ : BufTy).Contents (Elt F)),
    binary main_v28 main_v143 main_v144 (addi : (⟨S8x65536, .i32⟩ : BufTy).Contents (Elt F) → (⟨S8x65536, .i32⟩ : BufTy).Contents (Elt F) → (⟨S8x65536, .i32⟩ : BufTy).Contents (Elt F)),
    ternary main_v142 main_v144 main_v28 main_v145 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    unary main_v135 main_v146 (broadcastInDim S8x65536x1 ![0, 1] bcast_S8x65536_S8x65536x1_0_1 : (⟨S8x65536, .i32⟩ : BufTy).Contents (Elt F) → (⟨S8x65536x1, .i32⟩ : BufTy).Contents (Elt F)),
    unary main_v140 main_v147 (broadcastInDim S8x65536x1 ![0, 1] bcast_S8x65536_S8x65536x1_0_1 : (⟨S8x65536, .i32⟩ : BufTy).Contents (Elt F) → (⟨S8x65536x1, .i32⟩ : BufTy).Contents (Elt F)),
    unary main_v145 main_v148 (broadcastInDim S8x65536x1 ![0, 1] bcast_S8x65536_S8x65536x1_0_1 : (⟨S8x65536, .i32⟩ : BufTy).Contents (Elt F) → (⟨S8x65536x1, .i32⟩ : BufTy).Contents (Elt F)),
    nary ![main_v146, main_v147, main_v148] main_v149 (fun u => concatenate S8x65536x3 2 [⟨S8x65536x1, u 0⟩, ⟨S8x65536x1, u 1⟩, ⟨S8x65536x1, u 2⟩] concatenates_S8x65536x1_S8x65536x1_S8x65536x1_S8x65536x3_d2),
    binary main_arg1 main_v149 main_v150 ((fun x i => Host.gather gather_S8x64x32x32x32_S8x65536x3_S8x64x65536_1_234_0_0_234_2_164111 x i) : (⟨S8x64x32x32x32, .f32⟩ : BufTy).Contents (Elt F) → (⟨S8x65536x3, .i32⟩ : BufTy).Contents (Elt F) → (⟨S8x64x65536, .f32⟩ : BufTy).Contents (Elt F)),
    unary main_v12 main_v151 ((extractStridedSlice S8x1x65536 ![0, 0, 0] · slices_S8x3x65536_S8x1x65536_0_0_0) : (⟨S8x3x65536, .f32⟩ : BufTy).Contents (Elt F) → (⟨S8x1x65536, .f32⟩ : BufTy).Contents (Elt F)),
    reshape main_v151 main_v152 rfl shapeCasts_S8x1x65536_S8x65536,
    unary main_v152 main_v153 (broadcastInDim S8x1x65536 ![0, 2] bcast_S8x65536_S8x1x65536_0_2 : (⟨S8x65536, .f32⟩ : BufTy).Contents (Elt F) → (⟨S8x1x65536, .f32⟩ : BufTy).Contents (Elt F)),
    unary main_v153 main_v154 (broadcastInDim S8x64x65536 ![0, 1, 2] bcast_S8x1x65536_S8x64x65536_0_1_2 : (⟨S8x1x65536, .f32⟩ : BufTy).Contents (Elt F) → (⟨S8x64x65536, .f32⟩ : BufTy).Contents (Elt F)),
    binary main_v150 main_v154 main_v155 (mulf : (⟨S8x64x65536, .f32⟩ : BufTy).Contents (Elt F) → (⟨S8x64x65536, .f32⟩ : BufTy).Contents (Elt F) → (⟨S8x64x65536, .f32⟩ : BufTy).Contents (Elt F)),
    nullary main_c_33 (constantI S_ 32 0#32),
    unary main_c_33 main_v156 (broadcastInDim S8x65536 ![] bcast_S_S8x65536 : (⟨S_, .i32⟩ : BufTy).Contents (Elt F) → (⟨S8x65536, .i32⟩ : BufTy).Contents (Elt F)),
    binary main_v24 main_v156 main_v157 (cmpi .slt : (⟨S8x65536, .i32⟩ : BufTy).Contents (Elt F) → (⟨S8x65536, .i32⟩ : BufTy).Contents (Elt F) → (⟨S8x65536, .i1⟩ : BufTy).Contents (Elt F)),
    nullary main_c_34 (constantI S_ 32 32#32),
    unary main_c_34 main_v158 (broadcastInDim S8x65536 ![] bcast_S_S8x65536 : (⟨S_, .i32⟩ : BufTy).Contents (Elt F) → (⟨S8x65536, .i32⟩ : BufTy).Contents (Elt F)),
    binary main_v24 main_v158 main_v159 (addi : (⟨S8x65536, .i32⟩ : BufTy).Contents (Elt F) → (⟨S8x65536, .i32⟩ : BufTy).Contents (Elt F) → (⟨S8x65536, .i32⟩ : BufTy).Contents (Elt F)),
    ternary main_v157 main_v159 main_v24 main_v160 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    nullary main_c_35 (constantI S_ 32 0#32),
    unary main_c_35 main_v161 (broadcastInDim S8x65536 ![] bcast_S_S8x65536 : (⟨S_, .i32⟩ : BufTy).Contents (Elt F) → (⟨S8x65536, .i32⟩ : BufTy).Contents (Elt F)),
    binary main_v20 main_v161 main_v162 (cmpi .slt : (⟨S8x65536, .i32⟩ : BufTy).Contents (Elt F) → (⟨S8x65536, .i32⟩ : BufTy).Contents (Elt F) → (⟨S8x65536, .i1⟩ : BufTy).Contents (Elt F)),
    nullary main_c_36 (constantI S_ 32 32#32),
    unary main_c_36 main_v163 (broadcastInDim S8x65536 ![] bcast_S_S8x65536 : (⟨S_, .i32⟩ : BufTy).Contents (Elt F) → (⟨S8x65536, .i32⟩ : BufTy).Contents (Elt F)),
    binary main_v20 main_v163 main_v164 (addi : (⟨S8x65536, .i32⟩ : BufTy).Contents (Elt F) → (⟨S8x65536, .i32⟩ : BufTy).Contents (Elt F) → (⟨S8x65536, .i32⟩ : BufTy).Contents (Elt F)),
    ternary main_v162 main_v164 main_v20 main_v165 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    nullary main_c_37 (constantI S_ 32 0#32),
    unary main_c_37 main_v166 (broadcastInDim S8x65536 ![] bcast_S_S8x65536 : (⟨S_, .i32⟩ : BufTy).Contents (Elt F) → (⟨S8x65536, .i32⟩ : BufTy).Contents (Elt F)),
    binary main_v28 main_v166 main_v167 (cmpi .slt : (⟨S8x65536, .i32⟩ : BufTy).Contents (Elt F) → (⟨S8x65536, .i32⟩ : BufTy).Contents (Elt F) → (⟨S8x65536, .i1⟩ : BufTy).Contents (Elt F)),
    nullary main_c_38 (constantI S_ 32 32#32),
    unary main_c_38 main_v168 (broadcastInDim S8x65536 ![] bcast_S_S8x65536 : (⟨S_, .i32⟩ : BufTy).Contents (Elt F) → (⟨S8x65536, .i32⟩ : BufTy).Contents (Elt F)),
    binary main_v28 main_v168 main_v169 (addi : (⟨S8x65536, .i32⟩ : BufTy).Contents (Elt F) → (⟨S8x65536, .i32⟩ : BufTy).Contents (Elt F) → (⟨S8x65536, .i32⟩ : BufTy).Contents (Elt F)),
    ternary main_v167 main_v169 main_v28 main_v170 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    unary main_v160 main_v171 (broadcastInDim S8x65536x1 ![0, 1] bcast_S8x65536_S8x65536x1_0_1 : (⟨S8x65536, .i32⟩ : BufTy).Contents (Elt F) → (⟨S8x65536x1, .i32⟩ : BufTy).Contents (Elt F)),
    unary main_v165 main_v172 (broadcastInDim S8x65536x1 ![0, 1] bcast_S8x65536_S8x65536x1_0_1 : (⟨S8x65536, .i32⟩ : BufTy).Contents (Elt F) → (⟨S8x65536x1, .i32⟩ : BufTy).Contents (Elt F)),
    unary main_v170 main_v173 (broadcastInDim S8x65536x1 ![0, 1] bcast_S8x65536_S8x65536x1_0_1 : (⟨S8x65536, .i32⟩ : BufTy).Contents (Elt F) → (⟨S8x65536x1, .i32⟩ : BufTy).Contents (Elt F)),
    nary ![main_v171, main_v172, main_v173] main_v174 (fun u => concatenate S8x65536x3 2 [⟨S8x65536x1, u 0⟩, ⟨S8x65536x1, u 1⟩, ⟨S8x65536x1, u 2⟩] concatenates_S8x65536x1_S8x65536x1_S8x65536x1_S8x65536x3_d2),
    binary main_arg1 main_v174 main_v175 ((fun x i => Host.gather gather_S8x64x32x32x32_S8x65536x3_S8x64x65536_1_234_0_0_234_2_164111 x i) : (⟨S8x64x32x32x32, .f32⟩ : BufTy).Contents (Elt F) → (⟨S8x65536x3, .i32⟩ : BufTy).Contents (Elt F) → (⟨S8x64x65536, .f32⟩ : BufTy).Contents (Elt F)),
    unary main_v10 main_v176 ((extractStridedSlice S8x1x65536 ![0, 0, 0] · slices_S8x3x65536_S8x1x65536_0_0_0) : (⟨S8x3x65536, .f32⟩ : BufTy).Contents (Elt F) → (⟨S8x1x65536, .f32⟩ : BufTy).Contents (Elt F)),
    reshape main_v176 main_v177 rfl shapeCasts_S8x1x65536_S8x65536,
    unary main_v177 main_v178 (broadcastInDim S8x1x65536 ![0, 2] bcast_S8x65536_S8x1x65536_0_2 : (⟨S8x65536, .f32⟩ : BufTy).Contents (Elt F) → (⟨S8x1x65536, .f32⟩ : BufTy).Contents (Elt F)),
    unary main_v178 main_v179 (broadcastInDim S8x64x65536 ![0, 1, 2] bcast_S8x1x65536_S8x64x65536_0_1_2 : (⟨S8x1x65536, .f32⟩ : BufTy).Contents (Elt F) → (⟨S8x64x65536, .f32⟩ : BufTy).Contents (Elt F)),
    binary main_v175 main_v179 main_v180 (mulf : (⟨S8x64x65536, .f32⟩ : BufTy).Contents (Elt F) → (⟨S8x64x65536, .f32⟩ : BufTy).Contents (Elt F) → (⟨S8x64x65536, .f32⟩ : BufTy).Contents (Elt F)),
    binary main_v155 main_v180 main_v181 (addf : (⟨S8x64x65536, .f32⟩ : BufTy).Contents (Elt F) → (⟨S8x64x65536, .f32⟩ : BufTy).Contents (Elt F) → (⟨S8x64x65536, .f32⟩ : BufTy).Contents (Elt F)),
    nullary main_c_39 (constantI S_ 32 0#32),
    unary main_c_39 main_v182 (broadcastInDim S8x65536 ![] bcast_S_S8x65536 : (⟨S_, .i32⟩ : BufTy).Contents (Elt F) → (⟨S8x65536, .i32⟩ : BufTy).Contents (Elt F)),
    binary main_v18 main_v182 main_v183 (cmpi .slt : (⟨S8x65536, .i32⟩ : BufTy).Contents (Elt F) → (⟨S8x65536, .i32⟩ : BufTy).Contents (Elt F) → (⟨S8x65536, .i1⟩ : BufTy).Contents (Elt F)),
    nullary main_c_40 (constantI S_ 32 32#32),
    unary main_c_40 main_v184 (broadcastInDim S8x65536 ![] bcast_S_S8x65536 : (⟨S_, .i32⟩ : BufTy).Contents (Elt F) → (⟨S8x65536, .i32⟩ : BufTy).Contents (Elt F)),
    binary main_v18 main_v184 main_v185 (addi : (⟨S8x65536, .i32⟩ : BufTy).Contents (Elt F) → (⟨S8x65536, .i32⟩ : BufTy).Contents (Elt F) → (⟨S8x65536, .i32⟩ : BufTy).Contents (Elt F)),
    ternary main_v183 main_v185 main_v18 main_v186 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    nullary main_c_41 (constantI S_ 32 0#32),
    unary main_c_41 main_v187 (broadcastInDim S8x65536 ![] bcast_S_S8x65536 : (⟨S_, .i32⟩ : BufTy).Contents (Elt F) → (⟨S8x65536, .i32⟩ : BufTy).Contents (Elt F)),
    binary main_v26 main_v187 main_v188 (cmpi .slt : (⟨S8x65536, .i32⟩ : BufTy).Contents (Elt F) → (⟨S8x65536, .i32⟩ : BufTy).Contents (Elt F) → (⟨S8x65536, .i1⟩ : BufTy).Contents (Elt F)),
    nullary main_c_42 (constantI S_ 32 32#32),
    unary main_c_42 main_v189 (broadcastInDim S8x65536 ![] bcast_S_S8x65536 : (⟨S_, .i32⟩ : BufTy).Contents (Elt F) → (⟨S8x65536, .i32⟩ : BufTy).Contents (Elt F)),
    binary main_v26 main_v189 main_v190 (addi : (⟨S8x65536, .i32⟩ : BufTy).Contents (Elt F) → (⟨S8x65536, .i32⟩ : BufTy).Contents (Elt F) → (⟨S8x65536, .i32⟩ : BufTy).Contents (Elt F)),
    ternary main_v188 main_v190 main_v26 main_v191 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    nullary main_c_43 (constantI S_ 32 0#32),
    unary main_c_43 main_v192 (broadcastInDim S8x65536 ![] bcast_S_S8x65536 : (⟨S_, .i32⟩ : BufTy).Contents (Elt F) → (⟨S8x65536, .i32⟩ : BufTy).Contents (Elt F)),
    binary main_v28 main_v192 main_v193 (cmpi .slt : (⟨S8x65536, .i32⟩ : BufTy).Contents (Elt F) → (⟨S8x65536, .i32⟩ : BufTy).Contents (Elt F) → (⟨S8x65536, .i1⟩ : BufTy).Contents (Elt F)),
    nullary main_c_44 (constantI S_ 32 32#32),
    unary main_c_44 main_v194 (broadcastInDim S8x65536 ![] bcast_S_S8x65536 : (⟨S_, .i32⟩ : BufTy).Contents (Elt F) → (⟨S8x65536, .i32⟩ : BufTy).Contents (Elt F)),
    binary main_v28 main_v194 main_v195 (addi : (⟨S8x65536, .i32⟩ : BufTy).Contents (Elt F) → (⟨S8x65536, .i32⟩ : BufTy).Contents (Elt F) → (⟨S8x65536, .i32⟩ : BufTy).Contents (Elt F)),
    ternary main_v193 main_v195 main_v28 main_v196 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    unary main_v186 main_v197 (broadcastInDim S8x65536x1 ![0, 1] bcast_S8x65536_S8x65536x1_0_1 : (⟨S8x65536, .i32⟩ : BufTy).Contents (Elt F) → (⟨S8x65536x1, .i32⟩ : BufTy).Contents (Elt F)),
    unary main_v191 main_v198 (broadcastInDim S8x65536x1 ![0, 1] bcast_S8x65536_S8x65536x1_0_1 : (⟨S8x65536, .i32⟩ : BufTy).Contents (Elt F) → (⟨S8x65536x1, .i32⟩ : BufTy).Contents (Elt F)),
    unary main_v196 main_v199 (broadcastInDim S8x65536x1 ![0, 1] bcast_S8x65536_S8x65536x1_0_1 : (⟨S8x65536, .i32⟩ : BufTy).Contents (Elt F) → (⟨S8x65536x1, .i32⟩ : BufTy).Contents (Elt F)),
    nary ![main_v197, main_v198, main_v199] main_v200 (fun u => concatenate S8x65536x3 2 [⟨S8x65536x1, u 0⟩, ⟨S8x65536x1, u 1⟩, ⟨S8x65536x1, u 2⟩] concatenates_S8x65536x1_S8x65536x1_S8x65536x1_S8x65536x3_d2),
    binary main_arg1 main_v200 main_v201 ((fun x i => Host.gather gather_S8x64x32x32x32_S8x65536x3_S8x64x65536_1_234_0_0_234_2_164111 x i) : (⟨S8x64x32x32x32, .f32⟩ : BufTy).Contents (Elt F) → (⟨S8x65536x3, .i32⟩ : BufTy).Contents (Elt F) → (⟨S8x64x65536, .f32⟩ : BufTy).Contents (Elt F)),
    unary main_v12 main_v202 ((extractStridedSlice S8x1x65536 ![0, 0, 0] · slices_S8x3x65536_S8x1x65536_0_0_0) : (⟨S8x3x65536, .f32⟩ : BufTy).Contents (Elt F) → (⟨S8x1x65536, .f32⟩ : BufTy).Contents (Elt F)),
    reshape main_v202 main_v203 rfl shapeCasts_S8x1x65536_S8x65536,
    unary main_v203 main_v204 (broadcastInDim S8x1x65536 ![0, 2] bcast_S8x65536_S8x1x65536_0_2 : (⟨S8x65536, .f32⟩ : BufTy).Contents (Elt F) → (⟨S8x1x65536, .f32⟩ : BufTy).Contents (Elt F)),
    unary main_v204 main_v205 (broadcastInDim S8x64x65536 ![0, 1, 2] bcast_S8x1x65536_S8x64x65536_0_1_2 : (⟨S8x1x65536, .f32⟩ : BufTy).Contents (Elt F) → (⟨S8x64x65536, .f32⟩ : BufTy).Contents (Elt F)),
    binary main_v201 main_v205 main_v206 (mulf : (⟨S8x64x65536, .f32⟩ : BufTy).Contents (Elt F) → (⟨S8x64x65536, .f32⟩ : BufTy).Contents (Elt F) → (⟨S8x64x65536, .f32⟩ : BufTy).Contents (Elt F)),
    nullary main_c_45 (constantI S_ 32 0#32),
    unary main_c_45 main_v207 (broadcastInDim S8x65536 ![] bcast_S_S8x65536 : (⟨S_, .i32⟩ : BufTy).Contents (Elt F) → (⟨S8x65536, .i32⟩ : BufTy).Contents (Elt F)),
    binary main_v24 main_v207 main_v208 (cmpi .slt : (⟨S8x65536, .i32⟩ : BufTy).Contents (Elt F) → (⟨S8x65536, .i32⟩ : BufTy).Contents (Elt F) → (⟨S8x65536, .i1⟩ : BufTy).Contents (Elt F)),
    nullary main_c_46 (constantI S_ 32 32#32),
    unary main_c_46 main_v209 (broadcastInDim S8x65536 ![] bcast_S_S8x65536 : (⟨S_, .i32⟩ : BufTy).Contents (Elt F) → (⟨S8x65536, .i32⟩ : BufTy).Contents (Elt F)),
    binary main_v24 main_v209 main_v210 (addi : (⟨S8x65536, .i32⟩ : BufTy).Contents (Elt F) → (⟨S8x65536, .i32⟩ : BufTy).Contents (Elt F) → (⟨S8x65536, .i32⟩ : BufTy).Contents (Elt F)),
    ternary main_v208 main_v210 main_v24 main_v211 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    nullary main_c_47 (constantI S_ 32 0#32),
    unary main_c_47 main_v212 (broadcastInDim S8x65536 ![] bcast_S_S8x65536 : (⟨S_, .i32⟩ : BufTy).Contents (Elt F) → (⟨S8x65536, .i32⟩ : BufTy).Contents (Elt F)),
    binary main_v26 main_v212 main_v213 (cmpi .slt : (⟨S8x65536, .i32⟩ : BufTy).Contents (Elt F) → (⟨S8x65536, .i32⟩ : BufTy).Contents (Elt F) → (⟨S8x65536, .i1⟩ : BufTy).Contents (Elt F)),
    nullary main_c_48 (constantI S_ 32 32#32),
    unary main_c_48 main_v214 (broadcastInDim S8x65536 ![] bcast_S_S8x65536 : (⟨S_, .i32⟩ : BufTy).Contents (Elt F) → (⟨S8x65536, .i32⟩ : BufTy).Contents (Elt F)),
    binary main_v26 main_v214 main_v215 (addi : (⟨S8x65536, .i32⟩ : BufTy).Contents (Elt F) → (⟨S8x65536, .i32⟩ : BufTy).Contents (Elt F) → (⟨S8x65536, .i32⟩ : BufTy).Contents (Elt F)),
    ternary main_v213 main_v215 main_v26 main_v216 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    nullary main_c_49 (constantI S_ 32 0#32),
    unary main_c_49 main_v217 (broadcastInDim S8x65536 ![] bcast_S_S8x65536 : (⟨S_, .i32⟩ : BufTy).Contents (Elt F) → (⟨S8x65536, .i32⟩ : BufTy).Contents (Elt F)),
    binary main_v28 main_v217 main_v218 (cmpi .slt : (⟨S8x65536, .i32⟩ : BufTy).Contents (Elt F) → (⟨S8x65536, .i32⟩ : BufTy).Contents (Elt F) → (⟨S8x65536, .i1⟩ : BufTy).Contents (Elt F)),
    nullary main_c_50 (constantI S_ 32 32#32),
    unary main_c_50 main_v219 (broadcastInDim S8x65536 ![] bcast_S_S8x65536 : (⟨S_, .i32⟩ : BufTy).Contents (Elt F) → (⟨S8x65536, .i32⟩ : BufTy).Contents (Elt F)),
    binary main_v28 main_v219 main_v220 (addi : (⟨S8x65536, .i32⟩ : BufTy).Contents (Elt F) → (⟨S8x65536, .i32⟩ : BufTy).Contents (Elt F) → (⟨S8x65536, .i32⟩ : BufTy).Contents (Elt F)),
    ternary main_v218 main_v220 main_v28 main_v221 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    unary main_v211 main_v222 (broadcastInDim S8x65536x1 ![0, 1] bcast_S8x65536_S8x65536x1_0_1 : (⟨S8x65536, .i32⟩ : BufTy).Contents (Elt F) → (⟨S8x65536x1, .i32⟩ : BufTy).Contents (Elt F)),
    unary main_v216 main_v223 (broadcastInDim S8x65536x1 ![0, 1] bcast_S8x65536_S8x65536x1_0_1 : (⟨S8x65536, .i32⟩ : BufTy).Contents (Elt F) → (⟨S8x65536x1, .i32⟩ : BufTy).Contents (Elt F)),
    unary main_v221 main_v224 (broadcastInDim S8x65536x1 ![0, 1] bcast_S8x65536_S8x65536x1_0_1 : (⟨S8x65536, .i32⟩ : BufTy).Contents (Elt F) → (⟨S8x65536x1, .i32⟩ : BufTy).Contents (Elt F)),
    nary ![main_v222, main_v223, main_v224] main_v225 (fun u => concatenate S8x65536x3 2 [⟨S8x65536x1, u 0⟩, ⟨S8x65536x1, u 1⟩, ⟨S8x65536x1, u 2⟩] concatenates_S8x65536x1_S8x65536x1_S8x65536x1_S8x65536x3_d2),
    binary main_arg1 main_v225 main_v226 ((fun x i => Host.gather gather_S8x64x32x32x32_S8x65536x3_S8x64x65536_1_234_0_0_234_2_164111 x i) : (⟨S8x64x32x32x32, .f32⟩ : BufTy).Contents (Elt F) → (⟨S8x65536x3, .i32⟩ : BufTy).Contents (Elt F) → (⟨S8x64x65536, .f32⟩ : BufTy).Contents (Elt F)),
    unary main_v10 main_v227 ((extractStridedSlice S8x1x65536 ![0, 0, 0] · slices_S8x3x65536_S8x1x65536_0_0_0) : (⟨S8x3x65536, .f32⟩ : BufTy).Contents (Elt F) → (⟨S8x1x65536, .f32⟩ : BufTy).Contents (Elt F)),
    reshape main_v227 main_v228 rfl shapeCasts_S8x1x65536_S8x65536,
    unary main_v228 main_v229 (broadcastInDim S8x1x65536 ![0, 2] bcast_S8x65536_S8x1x65536_0_2 : (⟨S8x65536, .f32⟩ : BufTy).Contents (Elt F) → (⟨S8x1x65536, .f32⟩ : BufTy).Contents (Elt F)),
    unary main_v229 main_v230 (broadcastInDim S8x64x65536 ![0, 1, 2] bcast_S8x1x65536_S8x64x65536_0_1_2 : (⟨S8x1x65536, .f32⟩ : BufTy).Contents (Elt F) → (⟨S8x64x65536, .f32⟩ : BufTy).Contents (Elt F)),
    binary main_v226 main_v230 main_v231 (mulf : (⟨S8x64x65536, .f32⟩ : BufTy).Contents (Elt F) → (⟨S8x64x65536, .f32⟩ : BufTy).Contents (Elt F) → (⟨S8x64x65536, .f32⟩ : BufTy).Contents (Elt F)),
    binary main_v206 main_v231 main_v232 (addf : (⟨S8x64x65536, .f32⟩ : BufTy).Contents (Elt F) → (⟨S8x64x65536, .f32⟩ : BufTy).Contents (Elt F) → (⟨S8x64x65536, .f32⟩ : BufTy).Contents (Elt F)),
    unary main_v12 main_v233 ((extractStridedSlice S8x1x65536 ![0, 1, 0] · slices_S8x3x65536_S8x1x65536_0_1_0) : (⟨S8x3x65536, .f32⟩ : BufTy).Contents (Elt F) → (⟨S8x1x65536, .f32⟩ : BufTy).Contents (Elt F)),
    reshape main_v233 main_v234 rfl shapeCasts_S8x1x65536_S8x65536,
    unary main_v234 main_v235 (broadcastInDim S8x1x65536 ![0, 2] bcast_S8x65536_S8x1x65536_0_2 : (⟨S8x65536, .f32⟩ : BufTy).Contents (Elt F) → (⟨S8x1x65536, .f32⟩ : BufTy).Contents (Elt F)),
    unary main_v235 main_v236 (broadcastInDim S8x64x65536 ![0, 1, 2] bcast_S8x1x65536_S8x64x65536_0_1_2 : (⟨S8x1x65536, .f32⟩ : BufTy).Contents (Elt F) → (⟨S8x64x65536, .f32⟩ : BufTy).Contents (Elt F)),
    binary main_v79 main_v236 main_v237 (mulf : (⟨S8x64x65536, .f32⟩ : BufTy).Contents (Elt F) → (⟨S8x64x65536, .f32⟩ : BufTy).Contents (Elt F) → (⟨S8x64x65536, .f32⟩ : BufTy).Contents (Elt F)),
    unary main_v10 main_v238 ((extractStridedSlice S8x1x65536 ![0, 1, 0] · slices_S8x3x65536_S8x1x65536_0_1_0) : (⟨S8x3x65536, .f32⟩ : BufTy).Contents (Elt F) → (⟨S8x1x65536, .f32⟩ : BufTy).Contents (Elt F)),
    reshape main_v238 main_v239 rfl shapeCasts_S8x1x65536_S8x65536,
    unary main_v239 main_v240 (broadcastInDim S8x1x65536 ![0, 2] bcast_S8x65536_S8x1x65536_0_2 : (⟨S8x65536, .f32⟩ : BufTy).Contents (Elt F) → (⟨S8x1x65536, .f32⟩ : BufTy).Contents (Elt F)),
    unary main_v240 main_v241 (broadcastInDim S8x64x65536 ![0, 1, 2] bcast_S8x1x65536_S8x64x65536_0_1_2 : (⟨S8x1x65536, .f32⟩ : BufTy).Contents (Elt F) → (⟨S8x64x65536, .f32⟩ : BufTy).Contents (Elt F)),
    binary main_v130 main_v241 main_v242 (mulf : (⟨S8x64x65536, .f32⟩ : BufTy).Contents (Elt F) → (⟨S8x64x65536, .f32⟩ : BufTy).Contents (Elt F) → (⟨S8x64x65536, .f32⟩ : BufTy).Contents (Elt F)),
    binary main_v237 main_v242 main_v243 (addf : (⟨S8x64x65536, .f32⟩ : BufTy).Contents (Elt F) → (⟨S8x64x65536, .f32⟩ : BufTy).Contents (Elt F) → (⟨S8x64x65536, .f32⟩ : BufTy).Contents (Elt F)),
    unary main_v12 main_v244 ((extractStridedSlice S8x1x65536 ![0, 1, 0] · slices_S8x3x65536_S8x1x65536_0_1_0) : (⟨S8x3x65536, .f32⟩ : BufTy).Contents (Elt F) → (⟨S8x1x65536, .f32⟩ : BufTy).Contents (Elt F)),
    reshape main_v244 main_v245 rfl shapeCasts_S8x1x65536_S8x65536,
    unary main_v245 main_v246 (broadcastInDim S8x1x65536 ![0, 2] bcast_S8x65536_S8x1x65536_0_2 : (⟨S8x65536, .f32⟩ : BufTy).Contents (Elt F) → (⟨S8x1x65536, .f32⟩ : BufTy).Contents (Elt F)),
    unary main_v246 main_v247 (broadcastInDim S8x64x65536 ![0, 1, 2] bcast_S8x1x65536_S8x64x65536_0_1_2 : (⟨S8x1x65536, .f32⟩ : BufTy).Contents (Elt F) → (⟨S8x64x65536, .f32⟩ : BufTy).Contents (Elt F)),
    binary main_v181 main_v247 main_v248 (mulf : (⟨S8x64x65536, .f32⟩ : BufTy).Contents (Elt F) → (⟨S8x64x65536, .f32⟩ : BufTy).Contents (Elt F) → (⟨S8x64x65536, .f32⟩ : BufTy).Contents (Elt F)),
    unary main_v10 main_v249 ((extractStridedSlice S8x1x65536 ![0, 1, 0] · slices_S8x3x65536_S8x1x65536_0_1_0) : (⟨S8x3x65536, .f32⟩ : BufTy).Contents (Elt F) → (⟨S8x1x65536, .f32⟩ : BufTy).Contents (Elt F)),
    reshape main_v249 main_v250 rfl shapeCasts_S8x1x65536_S8x65536,
    unary main_v250 main_v251 (broadcastInDim S8x1x65536 ![0, 2] bcast_S8x65536_S8x1x65536_0_2 : (⟨S8x65536, .f32⟩ : BufTy).Contents (Elt F) → (⟨S8x1x65536, .f32⟩ : BufTy).Contents (Elt F)),
    unary main_v251 main_v252 (broadcastInDim S8x64x65536 ![0, 1, 2] bcast_S8x1x65536_S8x64x65536_0_1_2 : (⟨S8x1x65536, .f32⟩ : BufTy).Contents (Elt F) → (⟨S8x64x65536, .f32⟩ : BufTy).Contents (Elt F)),
    binary main_v232 main_v252 main_v253 (mulf : (⟨S8x64x65536, .f32⟩ : BufTy).Contents (Elt F) → (⟨S8x64x65536, .f32⟩ : BufTy).Contents (Elt F) → (⟨S8x64x65536, .f32⟩ : BufTy).Contents (Elt F)),
    binary main_v248 main_v253 main_v254 (addf : (⟨S8x64x65536, .f32⟩ : BufTy).Contents (Elt F) → (⟨S8x64x65536, .f32⟩ : BufTy).Contents (Elt F) → (⟨S8x64x65536, .f32⟩ : BufTy).Contents (Elt F)),
    unary main_v12 main_v255 ((extractStridedSlice S8x1x65536 ![0, 2, 0] · slices_S8x3x65536_S8x1x65536_0_2_0) : (⟨S8x3x65536, .f32⟩ : BufTy).Contents (Elt F) → (⟨S8x1x65536, .f32⟩ : BufTy).Contents (Elt F)),
    reshape main_v255 main_v256 rfl shapeCasts_S8x1x65536_S8x65536,
    unary main_v256 main_v257 (broadcastInDim S8x1x65536 ![0, 2] bcast_S8x65536_S8x1x65536_0_2 : (⟨S8x65536, .f32⟩ : BufTy).Contents (Elt F) → (⟨S8x1x65536, .f32⟩ : BufTy).Contents (Elt F)),
    unary main_v257 main_v258 (broadcastInDim S8x64x65536 ![0, 1, 2] bcast_S8x1x65536_S8x64x65536_0_1_2 : (⟨S8x1x65536, .f32⟩ : BufTy).Contents (Elt F) → (⟨S8x64x65536, .f32⟩ : BufTy).Contents (Elt F)),
    binary main_v243 main_v258 main_v259 (mulf : (⟨S8x64x65536, .f32⟩ : BufTy).Contents (Elt F) → (⟨S8x64x65536, .f32⟩ : BufTy).Contents (Elt F) → (⟨S8x64x65536, .f32⟩ : BufTy).Contents (Elt F)),
    unary main_v10 main_v260 ((extractStridedSlice S8x1x65536 ![0, 2, 0] · slices_S8x3x65536_S8x1x65536_0_2_0) : (⟨S8x3x65536, .f32⟩ : BufTy).Contents (Elt F) → (⟨S8x1x65536, .f32⟩ : BufTy).Contents (Elt F)),
    reshape main_v260 main_v261 rfl shapeCasts_S8x1x65536_S8x65536,
    unary main_v261 main_v262 (broadcastInDim S8x1x65536 ![0, 2] bcast_S8x65536_S8x1x65536_0_2 : (⟨S8x65536, .f32⟩ : BufTy).Contents (Elt F) → (⟨S8x1x65536, .f32⟩ : BufTy).Contents (Elt F)),
    unary main_v262 main_v263 (broadcastInDim S8x64x65536 ![0, 1, 2] bcast_S8x1x65536_S8x64x65536_0_1_2 : (⟨S8x1x65536, .f32⟩ : BufTy).Contents (Elt F) → (⟨S8x64x65536, .f32⟩ : BufTy).Contents (Elt F)),
    binary main_v254 main_v263 main_v264 (mulf : (⟨S8x64x65536, .f32⟩ : BufTy).Contents (Elt F) → (⟨S8x64x65536, .f32⟩ : BufTy).Contents (Elt F) → (⟨S8x64x65536, .f32⟩ : BufTy).Contents (Elt F)),
    binary main_v259 main_v264 main_v265 (addf : (⟨S8x64x65536, .f32⟩ : BufTy).Contents (Elt F) → (⟨S8x64x65536, .f32⟩ : BufTy).Contents (Elt F) → (⟨S8x64x65536, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
set_option maxHeartbeats 4000000 in
theorem ops_sub : (ops : List (HloOp τ sig (Elt F))).Forall fun op => op.bufs ⊆ tcRefs τ sig :=
  ⟨nullary_bufs_sub .., binary_bufs_sub .., unary_bufs_sub .., unary_bufs_sub .., binary_bufs_sub .., binary_bufs_sub .., nullary_bufs_sub .., binary_bufs_sub .., unary_bufs_sub .., nullary_bufs_sub .., binary_bufs_sub .., nullary_bufs_sub .., binary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., reshape_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., reshape_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., reshape_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., binary_bufs_sub ..⟩

end Cert.ReferenceIdeal.RefRun

end
-- ==== Proof.Spec.lean ====
/-
  Trilinear devoxelization, as ONE function of the voxel grid and of the per-point corner indices and weights.

  A point `n` of batch `b` carries, per axis `a ∈ {x, y, z}`, two signed index words `il[b,a,n]`, `ir[b,a,n]` (the
  lower and the upper corner) and two weights `wl[b,a,n]`, `wr[b,a,n]`. An index word names a voxel of the axis of 32
  voxels the way array indexing does: a negative word counts from the end (32 is added to it), and the word is then
  brought into `[0, 31]`. Channel `c` of the point's feature is the weighted sum of the eight corner voxels, combined
  axis by axis: first along x, then along y, then along z.
-/
import Idealize.ShloMosaic.PureOps.Ideal
import Idealize.ShloMosaic.Lib.ValueIdx

noncomputable section

namespace Cert.Devox

open Idealize.ShloMosaic Idealize.ShloMosaic.ValueIdx

/-- Per-point data: batch × axis × point. -/
abbrev SP : Shape := ⟨3, ![8, 3, 65536]⟩
/-- The voxel grid: batch × channel × x × y × z. -/
abbrev SF : Shape := ⟨5, ![8, 64, 32, 32, 32]⟩
/-- The result: batch × channel × point. -/
abbrev SO : Shape := ⟨3, ![8, 64, 65536]⟩

/-- The voxel an index word names on an axis of 32 voxels: 32 is added to a negative word, and the word, read as a
    signed integer, is brought into `[0, 31]`. -/
def voxel (v : BitVec 32) : Fin 32 :=
  ⟨min (Scalar.select (IntOp.cmpi .slt v 0#32) (IntOp.addi v 32#32) v).toInt.toNat 31, by omega⟩

/-- The devoxelized feature: at `(b, c, n)`, with `L a`, `R a` the lower and upper voxel of the point on axis `a` and
    `f x y z` the grid's channel-`c` value,
    `((f L L L · wl₀ + f R L L · wr₀) · wl₁ + (f L R L · wl₀ + f R R L · wr₀) · wr₁) · wl₂
      + ((f L L R · wl₀ + f R L R · wr₀) · wl₁ + (f L R R · wl₀ + f R R R · wr₀) · wr₁) · wr₂`. -/
def G (feat : SF.Idx → EReal) (il ir : SP.Idx → BitVec 32) (wl wr : SP.Idx → EReal) : SO.Idx → EReal := fun j =>
  let L : Fin 3 → Fin 32 := fun a => voxel (il (ix3 (j 0) a (j 2)))
  let R : Fin 3 → Fin 32 := fun a => voxel (ir (ix3 (j 0) a (j 2)))
  let l : Fin 3 → EReal := fun a => wl (ix3 (j 0) a (j 2))
  let r : Fin 3 → EReal := fun a => wr (ix3 (j 0) a (j 2))
  let f : Fin 32 → Fin 32 → Fin 32 → EReal := fun x y z => feat (ix5 (j 0) (j 1) x y z)
  ((f (L 0) (L 1) (L 2) * l 0 + f (R 0) (L 1) (L 2) * r 0) * l 1
      + (f (L 0) (R 1) (L 2) * l 0 + f (R 0) (R 1) (L 2) * r 0) * r 1) * l 2
    + ((f (L 0) (L 1) (R 2) * l 0 + f (R 0) (L 1) (R 2) * r 0) * l 1
      + (f (L 0) (R 1) (R 2) * l 0 + f (R 0) (R 1) (R 2) * r 0) * r 1) * r 2

end Cert.Devox

end
-- ==== Proof.Terms.lean ====
/-
  The two programs' shared first stage, and the reference's result, as terms of the host operations.

  First stage, from the points `x[b, a, n]`: each coordinate is shifted by its lowest value over the batch's points,
  `p = x − min_n x`; the scale is the largest Euclidean norm of a shifted point over all batches and points plus a small
  positive constant, `D = max_{b,n} √(Σ_a p²) + ε`; the voxel coordinate is `vox = p / D · 31`. The upper weight is
  `vox`, the lower weight `1 − vox`, the lower and upper index words `⌊vox⌋` and `⌈vox⌉` converted to integers.

  The reference then gathers the eight corner voxels (an index word per axis: 32 added when negative, then brought into
  range by the gather itself), multiplies each by its x-weight broadcast over the channels, and combines them axis by axis.
-/
import proofs.«112822_j57062935495024_2_alg».proof.Proof.Spec
import Idealize.ShloMosaic.PureOps.Ideal

noncomputable section

namespace Cert.Devox

open Idealize.ShloMosaic

abbrev S0 : Shape := ⟨0, ![]⟩
abbrev S83 : Shape := ⟨2, ![8, 3]⟩
abbrev S831 : Shape := ⟨3, ![8, 3, 1]⟩
abbrev S8N : Shape := ⟨2, ![8, 65536]⟩
abbrev S81N : Shape := ⟨3, ![8, 1, 65536]⟩
abbrev S8N1 : Shape := ⟨3, ![8, 65536, 1]⟩
abbrev S8N3 : Shape := ⟨3, ![8, 65536, 3]⟩

theorem h0 : 0 < S0.numel := by decide
theorem redMin : SP.ReducesTo [2] S83 := by decide
theorem redAdd : SP.ReducesTo [1] S8N := by decide
theorem redMax : S8N.ReducesTo [0, 1] S0 := by decide
theorem bc83 : S83.BroadcastsInDim S831 (![0, 1] : Fin 2 → Fin S831.rank) := by decide
theorem bc831 : S831.BroadcastsInDim SP (![0, 1, 2] : Fin 3 → Fin SP.rank) := by decide
theorem bc0P : S0.BroadcastsInDim SP (![] : Fin 0 → Fin SP.rank) := by decide
theorem bc0N : S0.BroadcastsInDim S8N (![] : Fin 0 → Fin S8N.rank) := by decide
theorem sl0 : SP.Slices ![0, 0, 0] S81N := by decide
theorem sl1 : SP.Slices ![0, 1, 0] S81N := by decide
theorem sl2 : SP.Slices ![0, 2, 0] S81N := by decide
theorem sc81N : S81N.ShapeCasts S8N := by decide
theorem bcN1 : S8N.BroadcastsInDim S8N1 (![0, 1] : Fin 2 → Fin S8N1.rank) := by decide
theorem cat3 : Shape.Concatenates [S8N1, S8N1, S8N1] S8N3 2 := by decide
theorem bcN81N : S8N.BroadcastsInDim S81N (![0, 2] : Fin 2 → Fin S81N.rank) := by decide
theorem bc81NO : S81N.BroadcastsInDim SO (![0, 1, 2] : Fin 3 → Fin SO.rank) := by decide
theorem gatherWf : GatherDims.WF SF S8N3 SO [1] [2, 3, 4] [0] [2, 3, 4] [0] 2 ![1, 64, 1, 1, 1] := by decide

/-! ## The first stage -/

/-- The lowest value of each coordinate over a batch's points. -/
def lo (x : FVec Ideal SP .f32) : FVec Ideal S83 .f32 :=
  Host.reduce FloatOps.minimumf x (constant S0 .f32 0x7F800000#32) redMin h0

/-- The points shifted so that each coordinate's lowest value is zero. -/
def shifted (x : FVec Ideal SP .f32) : FVec Ideal SP .f32 :=
  subf x (broadcastInDim SP ![0, 1, 2] bc831 (broadcastInDim S831 ![0, 1] bc83 (lo x)))

/-- The Euclidean norm of each shifted point. -/
def norms (x : FVec Ideal SP .f32) : FVec Ideal S8N .f32 :=
  Host.sqrt (Host.reduceAdd (mulf (shifted x) (shifted x)) (constant S0 .f32 0x00000000#32) redAdd h0)

/-- The scale: the largest norm over all batches and points, plus the small positive constant. -/
def scale (x : FVec Ideal SP .f32) : FVec Ideal S0 .f32 :=
  addf (Host.reduce FloatOps.maximumf (norms x) (constant S0 .f32 0xFF800000#32) redMax h0) (constant S0 .f32 0x322BCC77#32)

/-- The voxel coordinate `p / D · 31`; also the upper corner's weight. -/
def vox (x : FVec Ideal SP .f32) : FVec Ideal SP .f32 :=
  mulf (Host.divf (shifted x) (broadcastInDim SP ![] bc0P (scale x))) (broadcastInDim SP ![] bc0P (constant S0 .f32 0x41F80000#32))

/-- The lower corner's weight `1 − vox`. -/
def wlo (x : FVec Ideal SP .f32) : FVec Ideal SP .f32 :=
  subf (broadcastInDim SP ![] bc0P (constant S0 .f32 0x3F800000#32)) (vox x)

/-- The lower corner's index words `⌊vox⌋`. -/
def ilo (x : FVec Ideal SP .f32) : IVec SP 32 := fptosi 32 (Host.floor (vox x))

/-- The upper corner's index words `⌈vox⌉`. -/
def ihi (x : FVec Ideal SP .f32) : IVec SP 32 := fptosi 32 (Host.ceil (vox x))

/-! ## The reference's result -/

/-- The gather of one voxel per (batch, channel, point): the start index of point `n` of batch `b` is the triple of
    index words at `[b, n, ·]`, one per grid axis. -/
def cornerDims : GatherDims SF S8N3 SO where
  offsetDims := [1]
  collapsedSliceDims := [2, 3, 4]
  operandBatchingDims := [0]
  startIndicesBatchingDims := [0]
  startIndexMap := [2, 3, 4]
  indexVectorDim := 2
  sliceSizes := ![1, 64, 1, 1, 1]
  wf := gatherWf

/-- One axis' row of a per-point array, as a batch × point array. -/
def axisRow {α : Type} (w : SP.Idx → α) (o : Fin 3 → Nat) (h : SP.Slices o S81N) : S8N.Idx → α :=
  shapeCast _ (extractStridedSlice S81N o w h) sc81N

/-- Index words with 32 added to the negative ones. -/
def wrapNeg (v : IVec S8N 32) : IVec S8N 32 :=
  select (cmpi .slt v (broadcastInDim S8N ![] bc0N (constantI S0 32 0#32)))
    (addi v (broadcastInDim S8N ![] bc0N (constantI S0 32 32#32))) v

/-- The start indices `[b, n, ·]` from three batch × point arrays of index words. -/
def starts (vx vy vz : IVec S8N 32) : IVec S8N3 32 :=
  concatenate S8N3 2 [⟨S8N1, broadcastInDim S8N1 ![0, 1] bcN1 (wrapNeg vx)⟩, ⟨S8N1, broadcastInDim S8N1 ![0, 1] bcN1 (wrapNeg vy)⟩,
    ⟨S8N1, broadcastInDim S8N1 ![0, 1] bcN1 (wrapNeg vz)⟩] cat3

/-- The grid's voxel at the corner whose index words on the three axes are `vx`, `vy`, `vz`. -/
def corner (feat : FVec Ideal SF .f32) (vx vy vz : IVec S8N 32) : FVec Ideal SO .f32 :=
  Host.gather cornerDims feat (starts vx vy vz)

/-- One axis' weights, the same for every channel. -/
def lane (w : FVec Ideal SP .f32) (o : Fin 3 → Nat) (h : SP.Slices o S81N) : FVec Ideal SO .f32 :=
  broadcastInDim SO ![0, 1, 2] bc81NO (broadcastInDim S81N ![0, 2] bcN81N (axisRow w o h))

/-- The x-combination of the two corners at a fixed choice of y- and z-corner. -/
def alongX (feat : FVec Ideal SF .f32) (x : FVec Ideal SP .f32) (vy vz : IVec S8N 32) : FVec Ideal SO .f32 :=
  addf (mulf (corner feat (axisRow (ilo x) _ sl0) vy vz) (lane (wlo x) _ sl0))
    (mulf (corner feat (axisRow (ihi x) _ sl0) vy vz) (lane (vox x) _ sl0))

/-- The y-combination at a fixed z-corner. -/
def alongY (feat : FVec Ideal SF .f32) (x : FVec Ideal SP .f32) (vz : IVec S8N 32) : FVec Ideal SO .f32 :=
  addf (mulf (alongX feat x (axisRow (ilo x) _ sl1) vz) (lane (wlo x) _ sl1))
    (mulf (alongX feat x (axisRow (ihi x) _ sl1) vz) (lane (vox x) _ sl1))

/-- The reference's result: the z-combination. -/
def refTerm (x : FVec Ideal SP .f32) (feat : FVec Ideal SF .f32) : FVec Ideal SO .f32 :=
  addf (mulf (alongY feat x (axisRow (ilo x) _ sl2)) (lane (wlo x) _ sl2))
    (mulf (alongY feat x (axisRow (ihi x) _ sl2)) (lane (vox x) _ sl2))

end Cert.Devox

end
-- ==== Proof.RefRun.lean ====
/-
  The reference program's run, read back: every weakly fair execution terminates with the result buffer at the
  operations' composed value of the two arguments — the trilinear combination of the eight gathered corners, written
  as `Cert.Devox.refTerm` — and with the arguments unchanged.

  The operations are read in two stretches. The first 25 compute the voxel coordinates, the weights and the index
  words from the points; the remaining 297 gather and combine, and read of the first stretch only those four arrays and
  the grid. So the result is the second stretch's value (`tailTerm`) at the first stretch's four results.
-/
import proofs.«112822_j57062935495024_2_alg».proof.Proof.RefOps
import proofs.«112822_j57062935495024_2_alg».proof.Proof.Terms

noncomputable section

namespace Cert.Devox

open Idealize.ShloMosaic

/-- The reference's result from the grid and from the four arrays the first stage leaves: the trilinear combination
    of the eight gathered corners, first along x, then y, then z. -/
def tailTerm (feat : FVec Ideal SF .f32) (il ir : IVec SP 32) (wl wr : FVec Ideal SP .f32) : FVec Ideal SO .f32 :=
  let ax : IVec S8N 32 → IVec S8N 32 → FVec Ideal SO .f32 := fun vy vz =>
    addf (mulf (corner feat (axisRow il _ sl0) vy vz) (lane wl _ sl0)) (mulf (corner feat (axisRow ir _ sl0) vy vz) (lane wr _ sl0))
  let ay : IVec S8N 32 → FVec Ideal SO .f32 := fun vz =>
    addf (mulf (ax (axisRow il _ sl1) vz) (lane wl _ sl1)) (mulf (ax (axisRow ir _ sl1) vz) (lane wr _ sl1))
  addf (mulf (ay (axisRow il _ sl2)) (lane wl _ sl2)) (mulf (ay (axisRow ir _ sl2)) (lane wr _ sl2))

theorem tailTerm_eq (x : FVec Ideal SP .f32) (feat : FVec Ideal SF .f32) :
    tailTerm feat (ilo x) (ihi x) (wlo x) (vox x) = refTerm x feat := rfl

end Cert.Devox

namespace Cert.ReferenceIdeal.RefRun

open Cert.ReferenceIdeal Cert.ReferenceIdeal.Gen Idealize.ShloMosaic Idealize.ShloMosaic.TcCoe Idealize.SL.Sem Idealize.ShloMosaic.StableHlo

/-- The contents after two stretches of operations are the second's after the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

section
variable {F : FTy → Type} [FloatOps F]

/-- The first stage's operations. -/
abbrev opsA : List (HloOp τ sig (Elt F)) :=
  [ nullary main_cst (constant S_ .f32 0x7F800000#32),
    binary main_arg0 main_cst main_v0 ((fun x v => Host.reduce FloatOps.minimumf x v reducesTo_S8x3x65536_S8x3_d2 h_S_) : (⟨S8x3x65536, .f32⟩ : BufTy).Contents (Elt F) → (⟨S_, .f32⟩ : BufTy).Contents (Elt F) → (⟨S8x3, .f32⟩ : BufTy).Contents (Elt F)),
    unary main_v0 main_v1 (broadcastInDim S8x3x1 ![0, 1] bcast_S8x3_S8x3x1_0_1 : (⟨S8x3, .f32⟩ : BufTy).Contents (Elt F) → (⟨S8x3x1, .f32⟩ : BufTy).Contents (Elt F)),
    unary main_v1 main_v2 (broadcastInDim S8x3x65536 ![0, 1, 2] bcast_S8x3x1_S8x3x65536_0_1_2 : (⟨S8x3x1, .f32⟩ : BufTy).Contents (Elt F) → (⟨S8x3x65536, .f32⟩ : BufTy).Contents (Elt F)),
    binary main_arg0 main_v2 main_v3 (subf : (⟨S8x3x65536, .f32⟩ : BufTy).Contents (Elt F) → (⟨S8x3x65536, .f32⟩ : BufTy).Contents (Elt F) → (⟨S8x3x65536, .f32⟩ : BufTy).Contents (Elt F)),
    TRef.binary (TRef.of (T := ⟨S8x3x65536, .f32⟩) main_v3) (TRef.of (T := ⟨S8x3x65536, .f32⟩) main_v3) main_call0.v0 mulf,
    TRef.nullary main_call0.cst (constant S_ .f32 0x00000000#32),
    TRef.binary main_call0.v0 main_call0.cst main_call0.v1 (fun x v => Host.reduceAdd x v reducesTo_S8x3x65536_S8x65536_d1 h_S_),
    TRef.unary main_call0.v1 main_call0.v2 Host.sqrt,
    nullary main_cst_0 (constant S_ .f32 0xFF800000#32),
    binary main_v4 main_cst_0 main_v5 ((fun x v => Host.reduce FloatOps.maximumf x v reducesTo_S8x65536_S_d0_1 h_S_) : (⟨S8x65536, .f32⟩ : BufTy).Contents (Elt F) → (⟨S_, .f32⟩ : BufTy).Contents (Elt F) → (⟨S_, .f32⟩ : BufTy).Contents (Elt F)),
    nullary main_cst_1 (constant S_ .f32 0x322BCC77#32),
    binary main_v5 main_cst_1 main_v6 (addf : (⟨S_, .f32⟩ : BufTy).Contents (Elt F) → (⟨S_, .f32⟩ : BufTy).Contents (Elt F) → (⟨S_, .f32⟩ : BufTy).Contents (Elt F)),
    unary main_v6 main_v7 (broadcastInDim S8x3x65536 ![] bcast_S_S8x3x65536 : (⟨S_, .f32⟩ : BufTy).Contents (Elt F) → (⟨S8x3x65536, .f32⟩ : BufTy).Contents (Elt F)),
    binary main_v3 main_v7 main_v8 (Host.divf : (⟨S8x3x65536, .f32⟩ : BufTy).Contents (Elt F) → (⟨S8x3x65536, .f32⟩ : BufTy).Contents (Elt F) → (⟨S8x3x65536, .f32⟩ : BufTy).Contents (Elt F)),
    nullary main_cst_2 (constant S_ .f32 0x41F80000#32),
    unary main_cst_2 main_v9 (broadcastInDim S8x3x65536 ![] bcast_S_S8x3x65536 : (⟨S_, .f32⟩ : BufTy).Contents (Elt F) → (⟨S8x3x65536, .f32⟩ : BufTy).Contents (Elt F)),
    binary main_v8 main_v9 main_v10 (mulf : (⟨S8x3x65536, .f32⟩ : BufTy).Contents (Elt F) → (⟨S8x3x65536, .f32⟩ : BufTy).Contents (Elt F) → (⟨S8x3x65536, .f32⟩ : BufTy).Contents (Elt F)),
    nullary main_cst_3 (constant S_ .f32 0x3F800000#32),
    unary main_cst_3 main_v11 (broadcastInDim S8x3x65536 ![] bcast_S_S8x3x65536 : (⟨S_, .f32⟩ : BufTy).Contents (Elt F) → (⟨S8x3x65536, .f32⟩ : BufTy).Contents (Elt F)),
    binary main_v11 main_v10 main_v12 (subf : (⟨S8x3x65536, .f32⟩ : BufTy).Contents (Elt F) → (⟨S8x3x65536, .f32⟩ : BufTy).Contents (Elt F) → (⟨S8x3x65536, .f32⟩ : BufTy).Contents (Elt F)),
    unary main_v10 main_v13 (Host.floor : (⟨S8x3x65536, .f32⟩ : BufTy).Contents (Elt F) → (⟨S8x3x65536, .f32⟩ : BufTy).Contents (Elt F)),
    unary main_v13 main_v14 (fptosi 32 : (⟨S8x3x65536, .f32⟩ : BufTy).Contents (Elt F) → (⟨S8x3x65536, .i32⟩ : BufTy).Contents (Elt F)),
    unary main_v10 main_v15 (Host.ceil : (⟨S8x3x65536, .f32⟩ : BufTy).Contents (Elt F) → (⟨S8x3x65536, .f32⟩ : BufTy).Contents (Elt F)),
    unary main_v15 main_v16 (fptosi 32 : (⟨S8x3x65536, .f32⟩ : BufTy).Contents (Elt F) → (⟨S8x3x65536, .i32⟩ : BufTy).Contents (Elt F)) ]

set_option maxRecDepth 8192 in
set_option maxHeartbeats 4000000 in
/-- The gathers and their combination. -/
abbrev opsB : List (HloOp τ sig (Elt F)) :=
  [ unary main_v14 main_v17 ((extractStridedSlice S8x1x65536 ![0, 0, 0] · slices_S8x3x65536_S8x1x65536_0_0_0) : (⟨S8x3x65536, .i32⟩ : BufTy).Contents (Elt F) → (⟨S8x1x65536, .i32⟩ : BufTy).Contents (Elt F)),
    reshape main_v17 main_v18 rfl shapeCasts_S8x1x65536_S8x65536,
    unary main_v14 main_v19 ((extractStridedSlice S8x1x65536 ![0, 1, 0] · slices_S8x3x65536_S8x1x65536_0_1_0) : (⟨S8x3x65536, .i32⟩ : BufTy).Contents (Elt F) → (⟨S8x1x65536, .i32⟩ : BufTy).Contents (Elt F)),
    reshape main_v19 main_v20 rfl shapeCasts_S8x1x65536_S8x65536,
    unary main_v14 main_v21 ((extractStridedSlice S8x1x65536 ![0, 2, 0] · slices_S8x3x65536_S8x1x65536_0_2_0) : (⟨S8x3x65536, .i32⟩ : BufTy).Contents (Elt F) → (⟨S8x1x65536, .i32⟩ : BufTy).Contents (Elt F)),
    reshape main_v21 main_v22 rfl shapeCasts_S8x1x65536_S8x65536,
    unary main_v16 main_v23 ((extractStridedSlice S8x1x65536 ![0, 0, 0] · slices_S8x3x65536_S8x1x65536_0_0_0) : (⟨S8x3x65536, .i32⟩ : BufTy).Contents (Elt F) → (⟨S8x1x65536, .i32⟩ : BufTy).Contents (Elt F)),
    reshape main_v23 main_v24 rfl shapeCasts_S8x1x65536_S8x65536,
    unary main_v16 main_v25 ((extractStridedSlice S8x1x65536 ![0, 1, 0] · slices_S8x3x65536_S8x1x65536_0_1_0) : (⟨S8x3x65536, .i32⟩ : BufTy).Contents (Elt F) → (⟨S8x1x65536, .i32⟩ : BufTy).Contents (Elt F)),
    reshape main_v25 main_v26 rfl shapeCasts_S8x1x65536_S8x65536,
    unary main_v16 main_v27 ((extractStridedSlice S8x1x65536 ![0, 2, 0] · slices_S8x3x65536_S8x1x65536_0_2_0) : (⟨S8x3x65536, .i32⟩ : BufTy).Contents (Elt F) → (⟨S8x1x65536, .i32⟩ : BufTy).Contents (Elt F)),
    reshape main_v27 main_v28 rfl shapeCasts_S8x1x65536_S8x65536,
    nullary main_c (constantI S_ 32 0#32),
    unary main_c main_v29 (broadcastInDim S8x65536 ![] bcast_S_S8x65536 : (⟨S_, .i32⟩ : BufTy).Contents (Elt F) → (⟨S8x65536, .i32⟩ : BufTy).Contents (Elt F)),
    binary main_v18 main_v29 main_v30 (cmpi .slt : (⟨S8x65536, .i32⟩ : BufTy).Contents (Elt F) → (⟨S8x65536, .i32⟩ : BufTy).Contents (Elt F) → (⟨S8x65536, .i1⟩ : BufTy).Contents (Elt F)),
    nullary main_c_4 (constantI S_ 32 32#32),
    unary main_c_4 main_v31 (broadcastInDim S8x65536 ![] bcast_S_S8x65536 : (⟨S_, .i32⟩ : BufTy).Contents (Elt F) → (⟨S8x65536, .i32⟩ : BufTy).Contents (Elt F)),
    binary main_v18 main_v31 main_v32 (addi : (⟨S8x65536, .i32⟩ : BufTy).Contents (Elt F) → (⟨S8x65536, .i32⟩ : BufTy).Contents (Elt F) → (⟨S8x65536, .i32⟩ : BufTy).Contents (Elt F)),
    ternary main_v30 main_v32 main_v18 main_v33 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    nullary main_c_5 (constantI S_ 32 0#32),
    unary main_c_5 main_v34 (broadcastInDim S8x65536 ![] bcast_S_S8x65536 : (⟨S_, .i32⟩ : BufTy).Contents (Elt F) → (⟨S8x65536, .i32⟩ : BufTy).Contents (Elt F)),
    binary main_v20 main_v34 main_v35 (cmpi .slt : (⟨S8x65536, .i32⟩ : BufTy).Contents (Elt F) → (⟨S8x65536, .i32⟩ : BufTy).Contents (Elt F) → (⟨S8x65536, .i1⟩ : BufTy).Contents (Elt F)),
    nullary main_c_6 (constantI S_ 32 32#32),
    unary main_c_6 main_v36 (broadcastInDim S8x65536 ![] bcast_S_S8x65536 : (⟨S_, .i32⟩ : BufTy).Contents (Elt F) → (⟨S8x65536, .i32⟩ : BufTy).Contents (Elt F)),
    binary main_v20 main_v36 main_v37 (addi : (⟨S8x65536, .i32⟩ : BufTy).Contents (Elt F) → (⟨S8x65536, .i32⟩ : BufTy).Contents (Elt F) → (⟨S8x65536, .i32⟩ : BufTy).Contents (Elt F)),
    ternary main_v35 main_v37 main_v20 main_v38 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    nullary main_c_7 (constantI S_ 32 0#32),
    unary main_c_7 main_v39 (broadcastInDim S8x65536 ![] bcast_S_S8x65536 : (⟨S_, .i32⟩ : BufTy).Contents (Elt F) → (⟨S8x65536, .i32⟩ : BufTy).Contents (Elt F)),
    binary main_v22 main_v39 main_v40 (cmpi .slt : (⟨S8x65536, .i32⟩ : BufTy).Contents (Elt F) → (⟨S8x65536, .i32⟩ : BufTy).Contents (Elt F) → (⟨S8x65536, .i1⟩ : BufTy).Contents (Elt F)),
    nullary main_c_8 (constantI S_ 32 32#32),
    unary main_c_8 main_v41 (broadcastInDim S8x65536 ![] bcast_S_S8x65536 : (⟨S_, .i32⟩ : BufTy).Contents (Elt F) → (⟨S8x65536, .i32⟩ : BufTy).Contents (Elt F)),
    binary main_v22 main_v41 main_v42 (addi : (⟨S8x65536, .i32⟩ : BufTy).Contents (Elt F) → (⟨S8x65536, .i32⟩ : BufTy).Contents (Elt F) → (⟨S8x65536, .i32⟩ : BufTy).Contents (Elt F)),
    ternary main_v40 main_v42 main_v22 main_v43 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    unary main_v33 main_v44 (broadcastInDim S8x65536x1 ![0, 1] bcast_S8x65536_S8x65536x1_0_1 : (⟨S8x65536, .i32⟩ : BufTy).Contents (Elt F) → (⟨S8x65536x1, .i32⟩ : BufTy).Contents (Elt F)),
    unary main_v38 main_v45 (broadcastInDim S8x65536x1 ![0, 1] bcast_S8x65536_S8x65536x1_0_1 : (⟨S8x65536, .i32⟩ : BufTy).Contents (Elt F) → (⟨S8x65536x1, .i32⟩ : BufTy).Contents (Elt F)),
    unary main_v43 main_v46 (broadcastInDim S8x65536x1 ![0, 1] bcast_S8x65536_S8x65536x1_0_1 : (⟨S8x65536, .i32⟩ : BufTy).Contents (Elt F) → (⟨S8x65536x1, .i32⟩ : BufTy).Contents (Elt F)),
    nary ![main_v44, main_v45, main_v46] main_v47 (fun u => concatenate S8x65536x3 2 [⟨S8x65536x1, u 0⟩, ⟨S8x65536x1, u 1⟩, ⟨S8x65536x1, u 2⟩] concatenates_S8x65536x1_S8x65536x1_S8x65536x1_S8x65536x3_d2),
    binary main_arg1 main_v47 main_v48 ((fun x i => Host.gather gather_S8x64x32x32x32_S8x65536x3_S8x64x65536_1_234_0_0_234_2_164111 x i) : (⟨S8x64x32x32x32, .f32⟩ : BufTy).Contents (Elt F) → (⟨S8x65536x3, .i32⟩ : BufTy).Contents (Elt F) → (⟨S8x64x65536, .f32⟩ : BufTy).Contents (Elt F)),
    unary main_v12 main_v49 ((extractStridedSlice S8x1x65536 ![0, 0, 0] · slices_S8x3x65536_S8x1x65536_0_0_0) : (⟨S8x3x65536, .f32⟩ : BufTy).Contents (Elt F) → (⟨S8x1x65536, .f32⟩ : BufTy).Contents (Elt F)),
    reshape main_v49 main_v50 rfl shapeCasts_S8x1x65536_S8x65536,
    unary main_v50 main_v51 (broadcastInDim S8x1x65536 ![0, 2] bcast_S8x65536_S8x1x65536_0_2 : (⟨S8x65536, .f32⟩ : BufTy).Contents (Elt F) → (⟨S8x1x65536, .f32⟩ : BufTy).Contents (Elt F)),
    unary main_v51 main_v52 (broadcastInDim S8x64x65536 ![0, 1, 2] bcast_S8x1x65536_S8x64x65536_0_1_2 : (⟨S8x1x65536, .f32⟩ : BufTy).Contents (Elt F) → (⟨S8x64x65536, .f32⟩ : BufTy).Contents (Elt F)),
    binary main_v48 main_v52 main_v53 (mulf : (⟨S8x64x65536, .f32⟩ : BufTy).Contents (Elt F) → (⟨S8x64x65536, .f32⟩ : BufTy).Contents (Elt F) → (⟨S8x64x65536, .f32⟩ : BufTy).Contents (Elt F)),
    nullary main_c_9 (constantI S_ 32 0#32),
    unary main_c_9 main_v54 (broadcastInDim S8x65536 ![] bcast_S_S8x65536 : (⟨S_, .i32⟩ : BufTy).Contents (Elt F) → (⟨S8x65536, .i32⟩ : BufTy).Contents (Elt F)),
    binary main_v24 main_v54 main_v55 (cmpi .slt : (⟨S8x65536, .i32⟩ : BufTy).Contents (Elt F) → (⟨S8x65536, .i32⟩ : BufTy).Contents (Elt F) → (⟨S8x65536, .i1⟩ : BufTy).Contents (Elt F)),
    nullary main_c_10 (constantI S_ 32 32#32),
    unary main_c_10 main_v56 (broadcastInDim S8x65536 ![] bcast_S_S8x65536 : (⟨S_, .i32⟩ : BufTy).Contents (Elt F) → (⟨S8x65536, .i32⟩ : BufTy).Contents (Elt F)),
    binary main_v24 main_v56 main_v57 (addi : (⟨S8x65536, .i32⟩ : BufTy).Contents (Elt F) → (⟨S8x65536, .i32⟩ : BufTy).Contents (Elt F) → (⟨S8x65536, .i32⟩ : BufTy).Contents (Elt F)),
    ternary main_v55 main_v57 main_v24 main_v58 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    nullary main_c_11 (constantI S_ 32 0#32),
    unary main_c_11 main_v59 (broadcastInDim S8x65536 ![] bcast_S_S8x65536 : (⟨S_, .i32⟩ : BufTy).Contents (Elt F) → (⟨S8x65536, .i32⟩ : BufTy).Contents (Elt F)),
    binary main_v20 main_v59 main_v60 (cmpi .slt : (⟨S8x65536, .i32⟩ : BufTy).Contents (Elt F) → (⟨S8x65536, .i32⟩ : BufTy).Contents (Elt F) → (⟨S8x65536, .i1⟩ : BufTy).Contents (Elt F)),
    nullary main_c_12 (constantI S_ 32 32#32),
    unary main_c_12 main_v61 (broadcastInDim S8x65536 ![] bcast_S_S8x65536 : (⟨S_, .i32⟩ : BufTy).Contents (Elt F) → (⟨S8x65536, .i32⟩ : BufTy).Contents (Elt F)),
    binary main_v20 main_v61 main_v62 (addi : (⟨S8x65536, .i32⟩ : BufTy).Contents (Elt F) → (⟨S8x65536, .i32⟩ : BufTy).Contents (Elt F) → (⟨S8x65536, .i32⟩ : BufTy).Contents (Elt F)),
    ternary main_v60 main_v62 main_v20 main_v63 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    nullary main_c_13 (constantI S_ 32 0#32),
    unary main_c_13 main_v64 (broadcastInDim S8x65536 ![] bcast_S_S8x65536 : (⟨S_, .i32⟩ : BufTy).Contents (Elt F) → (⟨S8x65536, .i32⟩ : BufTy).Contents (Elt F)),
    binary main_v22 main_v64 main_v65 (cmpi .slt : (⟨S8x65536, .i32⟩ : BufTy).Contents (Elt F) → (⟨S8x65536, .i32⟩ : BufTy).Contents (Elt F) → (⟨S8x65536, .i1⟩ : BufTy).Contents (Elt F)),
    nullary main_c_14 (constantI S_ 32 32#32),
    unary main_c_14 main_v66 (broadcastInDim S8x65536 ![] bcast_S_S8x65536 : (⟨S_, .i32⟩ : BufTy).Contents (Elt F) → (⟨S8x65536, .i32⟩ : BufTy).Contents (Elt F)),
    binary main_v22 main_v66 main_v67 (addi : (⟨S8x65536, .i32⟩ : BufTy).Contents (Elt F) → (⟨S8x65536, .i32⟩ : BufTy).Contents (Elt F) → (⟨S8x65536, .i32⟩ : BufTy).Contents (Elt F)),
    ternary main_v65 main_v67 main_v22 main_v68 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    unary main_v58 main_v69 (broadcastInDim S8x65536x1 ![0, 1] bcast_S8x65536_S8x65536x1_0_1 : (⟨S8x65536, .i32⟩ : BufTy).Contents (Elt F) → (⟨S8x65536x1, .i32⟩ : BufTy).Contents (Elt F)),
    unary main_v63 main_v70 (broadcastInDim S8x65536x1 ![0, 1] bcast_S8x65536_S8x65536x1_0_1 : (⟨S8x65536, .i32⟩ : BufTy).Contents (Elt F) → (⟨S8x65536x1, .i32⟩ : BufTy).Contents (Elt F)),
    unary main_v68 main_v71 (broadcastInDim S8x65536x1 ![0, 1] bcast_S8x65536_S8x65536x1_0_1 : (⟨S8x65536, .i32⟩ : BufTy).Contents (Elt F) → (⟨S8x65536x1, .i32⟩ : BufTy).Contents (Elt F)),
    nary ![main_v69, main_v70, main_v71] main_v72 (fun u => concatenate S8x65536x3 2 [⟨S8x65536x1, u 0⟩, ⟨S8x65536x1, u 1⟩, ⟨S8x65536x1, u 2⟩] concatenates_S8x65536x1_S8x65536x1_S8x65536x1_S8x65536x3_d2),
    binary main_arg1 main_v72 main_v73 ((fun x i => Host.gather gather_S8x64x32x32x32_S8x65536x3_S8x64x65536_1_234_0_0_234_2_164111 x i) : (⟨S8x64x32x32x32, .f32⟩ : BufTy).Contents (Elt F) → (⟨S8x65536x3, .i32⟩ : BufTy).Contents (Elt F) → (⟨S8x64x65536, .f32⟩ : BufTy).Contents (Elt F)),
    unary main_v10 main_v74 ((extractStridedSlice S8x1x65536 ![0, 0, 0] · slices_S8x3x65536_S8x1x65536_0_0_0) : (⟨S8x3x65536, .f32⟩ : BufTy).Contents (Elt F) → (⟨S8x1x65536, .f32⟩ : BufTy).Contents (Elt F)),
    reshape main_v74 main_v75 rfl shapeCasts_S8x1x65536_S8x65536,
    unary main_v75 main_v76 (broadcastInDim S8x1x65536 ![0, 2] bcast_S8x65536_S8x1x65536_0_2 : (⟨S8x65536, .f32⟩ : BufTy).Contents (Elt F) → (⟨S8x1x65536, .f32⟩ : BufTy).Contents (Elt F)),
    unary main_v76 main_v77 (broadcastInDim S8x64x65536 ![0, 1, 2] bcast_S8x1x65536_S8x64x65536_0_1_2 : (⟨S8x1x65536, .f32⟩ : BufTy).Contents (Elt F) → (⟨S8x64x65536, .f32⟩ : BufTy).Contents (Elt F)),
    binary main_v73 main_v77 main_v78 (mulf : (⟨S8x64x65536, .f32⟩ : BufTy).Contents (Elt F) → (⟨S8x64x65536, .f32⟩ : BufTy).Contents (Elt F) → (⟨S8x64x65536, .f32⟩ : BufTy).Contents (Elt F)),
    binary main_v53 main_v78 main_v79 (addf : (⟨S8x64x65536, .f32⟩ : BufTy).Contents (Elt F) → (⟨S8x64x65536, .f32⟩ : BufTy).Contents (Elt F) → (⟨S8x64x65536, .f32⟩ : BufTy).Contents (Elt F)),
    nullary main_c_15 (constantI S_ 32 0#32),
    unary main_c_15 main_v80 (broadcastInDim S8x65536 ![] bcast_S_S8x65536 : (⟨S_, .i32⟩ : BufTy).Contents (Elt F) → (⟨S8x65536, .i32⟩ : BufTy).Contents (Elt F)),
    binary main_v18 main_v80 main_v81 (cmpi .slt : (⟨S8x65536, .i32⟩ : BufTy).Contents (Elt F) → (⟨S8x65536, .i32⟩ : BufTy).Contents (Elt F) → (⟨S8x65536, .i1⟩ : BufTy).Contents (Elt F)),
    nullary main_c_16 (constantI S_ 32 32#32),
    unary main_c_16 main_v82 (broadcastInDim S8x65536 ![] bcast_S_S8x65536 : (⟨S_, .i32⟩ : BufTy).Contents (Elt F) → (⟨S8x65536, .i32⟩ : BufTy).Contents (Elt F)),
    binary main_v18 main_v82 main_v83 (addi : (⟨S8x65536, .i32⟩ : BufTy).Contents (Elt F) → (⟨S8x65536, .i32⟩ : BufTy).Contents (Elt F) → (⟨S8x65536, .i32⟩ : BufTy).Contents (Elt F)),
    ternary main_v81 main_v83 main_v18 main_v84 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    nullary main_c_17 (constantI S_ 32 0#32),
    unary main_c_17 main_v85 (broadcastInDim S8x65536 ![] bcast_S_S8x65536 : (⟨S_, .i32⟩ : BufTy).Contents (Elt F) → (⟨S8x65536, .i32⟩ : BufTy).Contents (Elt F)),
    binary main_v26 main_v85 main_v86 (cmpi .slt : (⟨S8x65536, .i32⟩ : BufTy).Contents (Elt F) → (⟨S8x65536, .i32⟩ : BufTy).Contents (Elt F) → (⟨S8x65536, .i1⟩ : BufTy).Contents (Elt F)),
    nullary main_c_18 (constantI S_ 32 32#32),
    unary main_c_18 main_v87 (broadcastInDim S8x65536 ![] bcast_S_S8x65536 : (⟨S_, .i32⟩ : BufTy).Contents (Elt F) → (⟨S8x65536, .i32⟩ : BufTy).Contents (Elt F)),
    binary main_v26 main_v87 main_v88 (addi : (⟨S8x65536, .i32⟩ : BufTy).Contents (Elt F) → (⟨S8x65536, .i32⟩ : BufTy).Contents (Elt F) → (⟨S8x65536, .i32⟩ : BufTy).Contents (Elt F)),
    ternary main_v86 main_v88 main_v26 main_v89 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    nullary main_c_19 (constantI S_ 32 0#32),
    unary main_c_19 main_v90 (broadcastInDim S8x65536 ![] bcast_S_S8x65536 : (⟨S_, .i32⟩ : BufTy).Contents (Elt F) → (⟨S8x65536, .i32⟩ : BufTy).Contents (Elt F)),
    binary main_v22 main_v90 main_v91 (cmpi .slt : (⟨S8x65536, .i32⟩ : BufTy).Contents (Elt F) → (⟨S8x65536, .i32⟩ : BufTy).Contents (Elt F) → (⟨S8x65536, .i1⟩ : BufTy).Contents (Elt F)),
    nullary main_c_20 (constantI S_ 32 32#32),
    unary main_c_20 main_v92 (broadcastInDim S8x65536 ![] bcast_S_S8x65536 : (⟨S_, .i32⟩ : BufTy).Contents (Elt F) → (⟨S8x65536, .i32⟩ : BufTy).Contents (Elt F)),
    binary main_v22 main_v92 main_v93 (addi : (⟨S8x65536, .i32⟩ : BufTy).Contents (Elt F) → (⟨S8x65536, .i32⟩ : BufTy).Contents (Elt F) → (⟨S8x65536, .i32⟩ : BufTy).Contents (Elt F)),
    ternary main_v91 main_v93 main_v22 main_v94 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    unary main_v84 main_v95 (broadcastInDim S8x65536x1 ![0, 1] bcast_S8x65536_S8x65536x1_0_1 : (⟨S8x65536, .i32⟩ : BufTy).Contents (Elt F) → (⟨S8x65536x1, .i32⟩ : BufTy).Contents (Elt F)),
    unary main_v89 main_v96 (broadcastInDim S8x65536x1 ![0, 1] bcast_S8x65536_S8x65536x1_0_1 : (⟨S8x65536, .i32⟩ : BufTy).Contents (Elt F) → (⟨S8x65536x1, .i32⟩ : BufTy).Contents (Elt F)),
    unary main_v94 main_v97 (broadcastInDim S8x65536x1 ![0, 1] bcast_S8x65536_S8x65536x1_0_1 : (⟨S8x65536, .i32⟩ : BufTy).Contents (Elt F) → (⟨S8x65536x1, .i32⟩ : BufTy).Contents (Elt F)),
    nary ![main_v95, main_v96, main_v97] main_v98 (fun u => concatenate S8x65536x3 2 [⟨S8x65536x1, u 0⟩, ⟨S8x65536x1, u 1⟩, ⟨S8x65536x1, u 2⟩] concatenates_S8x65536x1_S8x65536x1_S8x65536x1_S8x65536x3_d2),
    binary main_arg1 main_v98 main_v99 ((fun x i => Host.gather gather_S8x64x32x32x32_S8x65536x3_S8x64x65536_1_234_0_0_234_2_164111 x i) : (⟨S8x64x32x32x32, .f32⟩ : BufTy).Contents (Elt F) → (⟨S8x65536x3, .i32⟩ : BufTy).Contents (Elt F) → (⟨S8x64x65536, .f32⟩ : BufTy).Contents (Elt F)),
    unary main_v12 main_v100 ((extractStridedSlice S8x1x65536 ![0, 0, 0] · slices_S8x3x65536_S8x1x65536_0_0_0) : (⟨S8x3x65536, .f32⟩ : BufTy).Contents (Elt F) → (⟨S8x1x65536, .f32⟩ : BufTy).Contents (Elt F)),
    reshape main_v100 main_v101 rfl shapeCasts_S8x1x65536_S8x65536,
    unary main_v101 main_v102 (broadcastInDim S8x1x65536 ![0, 2] bcast_S8x65536_S8x1x65536_0_2 : (⟨S8x65536, .f32⟩ : BufTy).Contents (Elt F) → (⟨S8x1x65536, .f32⟩ : BufTy).Contents (Elt F)),
    unary main_v102 main_v103 (broadcastInDim S8x64x65536 ![0, 1, 2] bcast_S8x1x65536_S8x64x65536_0_1_2 : (⟨S8x1x65536, .f32⟩ : BufTy).Contents (Elt F) → (⟨S8x64x65536, .f32⟩ : BufTy).Contents (Elt F)),
    binary main_v99 main_v103 main_v104 (mulf : (⟨S8x64x65536, .f32⟩ : BufTy).Contents (Elt F) → (⟨S8x64x65536, .f32⟩ : BufTy).Contents (Elt F) → (⟨S8x64x65536, .f32⟩ : BufTy).Contents (Elt F)),
    nullary main_c_21 (constantI S_ 32 0#32),
    unary main_c_21 main_v105 (broadcastInDim S8x65536 ![] bcast_S_S8x65536 : (⟨S_, .i32⟩ : BufTy).Contents (Elt F) → (⟨S8x65536, .i32⟩ : BufTy).Contents (Elt F)),
    binary main_v24 main_v105 main_v106 (cmpi .slt : (⟨S8x65536, .i32⟩ : BufTy).Contents (Elt F) → (⟨S8x65536, .i32⟩ : BufTy).Contents (Elt F) → (⟨S8x65536, .i1⟩ : BufTy).Contents (Elt F)),
    nullary main_c_22 (constantI S_ 32 32#32),
    unary main_c_22 main_v107 (broadcastInDim S8x65536 ![] bcast_S_S8x65536 : (⟨S_, .i32⟩ : BufTy).Contents (Elt F) → (⟨S8x65536, .i32⟩ : BufTy).Contents (Elt F)),
    binary main_v24 main_v107 main_v108 (addi : (⟨S8x65536, .i32⟩ : BufTy).Contents (Elt F) → (⟨S8x65536, .i32⟩ : BufTy).Contents (Elt F) → (⟨S8x65536, .i32⟩ : BufTy).Contents (Elt F)),
    ternary main_v106 main_v108 main_v24 main_v109 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    nullary main_c_23 (constantI S_ 32 0#32),
    unary main_c_23 main_v110 (broadcastInDim S8x65536 ![] bcast_S_S8x65536 : (⟨S_, .i32⟩ : BufTy).Contents (Elt F) → (⟨S8x65536, .i32⟩ : BufTy).Contents (Elt F)),
    binary main_v26 main_v110 main_v111 (cmpi .slt : (⟨S8x65536, .i32⟩ : BufTy).Contents (Elt F) → (⟨S8x65536, .i32⟩ : BufTy).Contents (Elt F) → (⟨S8x65536, .i1⟩ : BufTy).Contents (Elt F)),
    nullary main_c_24 (constantI S_ 32 32#32),
    unary main_c_24 main_v112 (broadcastInDim S8x65536 ![] bcast_S_S8x65536 : (⟨S_, .i32⟩ : BufTy).Contents (Elt F) → (⟨S8x65536, .i32⟩ : BufTy).Contents (Elt F)),
    binary main_v26 main_v112 main_v113 (addi : (⟨S8x65536, .i32⟩ : BufTy).Contents (Elt F) → (⟨S8x65536, .i32⟩ : BufTy).Contents (Elt F) → (⟨S8x65536, .i32⟩ : BufTy).Contents (Elt F)),
    ternary main_v111 main_v113 main_v26 main_v114 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    nullary main_c_25 (constantI S_ 32 0#32),
    unary main_c_25 main_v115 (broadcastInDim S8x65536 ![] bcast_S_S8x65536 : (⟨S_, .i32⟩ : BufTy).Contents (Elt F) → (⟨S8x65536, .i32⟩ : BufTy).Contents (Elt F)),
    binary main_v22 main_v115 main_v116 (cmpi .slt : (⟨S8x65536, .i32⟩ : BufTy).Contents (Elt F) → (⟨S8x65536, .i32⟩ : BufTy).Contents (Elt F) → (⟨S8x65536, .i1⟩ : BufTy).Contents (Elt F)),
    nullary main_c_26 (constantI S_ 32 32#32),
    unary main_c_26 main_v117 (broadcastInDim S8x65536 ![] bcast_S_S8x65536 : (⟨S_, .i32⟩ : BufTy).Contents (Elt F) → (⟨S8x65536, .i32⟩ : BufTy).Contents (Elt F)),
    binary main_v22 main_v117 main_v118 (addi : (⟨S8x65536, .i32⟩ : BufTy).Contents (Elt F) → (⟨S8x65536, .i32⟩ : BufTy).Contents (Elt F) → (⟨S8x65536, .i32⟩ : BufTy).Contents (Elt F)),
    ternary main_v116 main_v118 main_v22 main_v119 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    unary main_v109 main_v120 (broadcastInDim S8x65536x1 ![0, 1] bcast_S8x65536_S8x65536x1_0_1 : (⟨S8x65536, .i32⟩ : BufTy).Contents (Elt F) → (⟨S8x65536x1, .i32⟩ : BufTy).Contents (Elt F)),
    unary main_v114 main_v121 (broadcastInDim S8x65536x1 ![0, 1] bcast_S8x65536_S8x65536x1_0_1 : (⟨S8x65536, .i32⟩ : BufTy).Contents (Elt F) → (⟨S8x65536x1, .i32⟩ : BufTy).Contents (Elt F)),
    unary main_v119 main_v122 (broadcastInDim S8x65536x1 ![0, 1] bcast_S8x65536_S8x65536x1_0_1 : (⟨S8x65536, .i32⟩ : BufTy).Contents (Elt F) → (⟨S8x65536x1, .i32⟩ : BufTy).Contents (Elt F)),
    nary ![main_v120, main_v121, main_v122] main_v123 (fun u => concatenate S8x65536x3 2 [⟨S8x65536x1, u 0⟩, ⟨S8x65536x1, u 1⟩, ⟨S8x65536x1, u 2⟩] concatenates_S8x65536x1_S8x65536x1_S8x65536x1_S8x65536x3_d2),
    binary main_arg1 main_v123 main_v124 ((fun x i => Host.gather gather_S8x64x32x32x32_S8x65536x3_S8x64x65536_1_234_0_0_234_2_164111 x i) : (⟨S8x64x32x32x32, .f32⟩ : BufTy).Contents (Elt F) → (⟨S8x65536x3, .i32⟩ : BufTy).Contents (Elt F) → (⟨S8x64x65536, .f32⟩ : BufTy).Contents (Elt F)),
    unary main_v10 main_v125 ((extractStridedSlice S8x1x65536 ![0, 0, 0] · slices_S8x3x65536_S8x1x65536_0_0_0) : (⟨S8x3x65536, .f32⟩ : BufTy).Contents (Elt F) → (⟨S8x1x65536, .f32⟩ : BufTy).Contents (Elt F)),
    reshape main_v125 main_v126 rfl shapeCasts_S8x1x65536_S8x65536,
    unary main_v126 main_v127 (broadcastInDim S8x1x65536 ![0, 2] bcast_S8x65536_S8x1x65536_0_2 : (⟨S8x65536, .f32⟩ : BufTy).Contents (Elt F) → (⟨S8x1x65536, .f32⟩ : BufTy).Contents (Elt F)),
    unary main_v127 main_v128 (broadcastInDim S8x64x65536 ![0, 1, 2] bcast_S8x1x65536_S8x64x65536_0_1_2 : (⟨S8x1x65536, .f32⟩ : BufTy).Contents (Elt F) → (⟨S8x64x65536, .f32⟩ : BufTy).Contents (Elt F)),
    binary main_v124 main_v128 main_v129 (mulf : (⟨S8x64x65536, .f32⟩ : BufTy).Contents (Elt F) → (⟨S8x64x65536, .f32⟩ : BufTy).Contents (Elt F) → (⟨S8x64x65536, .f32⟩ : BufTy).Contents (Elt F)),
    binary main_v104 main_v129 main_v130 (addf : (⟨S8x64x65536, .f32⟩ : BufTy).Contents (Elt F) → (⟨S8x64x65536, .f32⟩ : BufTy).Contents (Elt F) → (⟨S8x64x65536, .f32⟩ : BufTy).Contents (Elt F)),
    nullary main_c_27 (constantI S_ 32 0#32),
    unary main_c_27 main_v131 (broadcastInDim S8x65536 ![] bcast_S_S8x65536 : (⟨S_, .i32⟩ : BufTy).Contents (Elt F) → (⟨S8x65536, .i32⟩ : BufTy).Contents (Elt F)),
    binary main_v18 main_v131 main_v132 (cmpi .slt : (⟨S8x65536, .i32⟩ : BufTy).Contents (Elt F) → (⟨S8x65536, .i32⟩ : BufTy).Contents (Elt F) → (⟨S8x65536, .i1⟩ : BufTy).Contents (Elt F)),
    nullary main_c_28 (constantI S_ 32 32#32),
    unary main_c_28 main_v133 (broadcastInDim S8x65536 ![] bcast_S_S8x65536 : (⟨S_, .i32⟩ : BufTy).Contents (Elt F) → (⟨S8x65536, .i32⟩ : BufTy).Contents (Elt F)),
    binary main_v18 main_v133 main_v134 (addi : (⟨S8x65536, .i32⟩ : BufTy).Contents (Elt F) → (⟨S8x65536, .i32⟩ : BufTy).Contents (Elt F) → (⟨S8x65536, .i32⟩ : BufTy).Contents (Elt F)),
    ternary main_v132 main_v134 main_v18 main_v135 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    nullary main_c_29 (constantI S_ 32 0#32),
    unary main_c_29 main_v136 (broadcastInDim S8x65536 ![] bcast_S_S8x65536 : (⟨S_, .i32⟩ : BufTy).Contents (Elt F) → (⟨S8x65536, .i32⟩ : BufTy).Contents (Elt F)),
    binary main_v20 main_v136 main_v137 (cmpi .slt : (⟨S8x65536, .i32⟩ : BufTy).Contents (Elt F) → (⟨S8x65536, .i32⟩ : BufTy).Contents (Elt F) → (⟨S8x65536, .i1⟩ : BufTy).Contents (Elt F)),
    nullary main_c_30 (constantI S_ 32 32#32),
    unary main_c_30 main_v138 (broadcastInDim S8x65536 ![] bcast_S_S8x65536 : (⟨S_, .i32⟩ : BufTy).Contents (Elt F) → (⟨S8x65536, .i32⟩ : BufTy).Contents (Elt F)),
    binary main_v20 main_v138 main_v139 (addi : (⟨S8x65536, .i32⟩ : BufTy).Contents (Elt F) → (⟨S8x65536, .i32⟩ : BufTy).Contents (Elt F) → (⟨S8x65536, .i32⟩ : BufTy).Contents (Elt F)),
    ternary main_v137 main_v139 main_v20 main_v140 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    nullary main_c_31 (constantI S_ 32 0#32),
    unary main_c_31 main_v141 (broadcastInDim S8x65536 ![] bcast_S_S8x65536 : (⟨S_, .i32⟩ : BufTy).Contents (Elt F) → (⟨S8x65536, .i32⟩ : BufTy).Contents (Elt F)),
    binary main_v28 main_v141 main_v142 (cmpi .slt : (⟨S8x65536, .i32⟩ : BufTy).Contents (Elt F) → (⟨S8x65536, .i32⟩ : BufTy).Contents (Elt F) → (⟨S8x65536, .i1⟩ : BufTy).Contents (Elt F)),
    nullary main_c_32 (constantI S_ 32 32#32),
    unary main_c_32 main_v143 (broadcastInDim S8x65536 ![] bcast_S_S8x65536 : (⟨S_, .i32⟩ : BufTy).Contents (Elt F) → (⟨S8x65536, .i32⟩ : BufTy).Contents (Elt F)),
    binary main_v28 main_v143 main_v144 (addi : (⟨S8x65536, .i32⟩ : BufTy).Contents (Elt F) → (⟨S8x65536, .i32⟩ : BufTy).Contents (Elt F) → (⟨S8x65536, .i32⟩ : BufTy).Contents (Elt F)),
    ternary main_v142 main_v144 main_v28 main_v145 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    unary main_v135 main_v146 (broadcastInDim S8x65536x1 ![0, 1] bcast_S8x65536_S8x65536x1_0_1 : (⟨S8x65536, .i32⟩ : BufTy).Contents (Elt F) → (⟨S8x65536x1, .i32⟩ : BufTy).Contents (Elt F)),
    unary main_v140 main_v147 (broadcastInDim S8x65536x1 ![0, 1] bcast_S8x65536_S8x65536x1_0_1 : (⟨S8x65536, .i32⟩ : BufTy).Contents (Elt F) → (⟨S8x65536x1, .i32⟩ : BufTy).Contents (Elt F)),
    unary main_v145 main_v148 (broadcastInDim S8x65536x1 ![0, 1] bcast_S8x65536_S8x65536x1_0_1 : (⟨S8x65536, .i32⟩ : BufTy).Contents (Elt F) → (⟨S8x65536x1, .i32⟩ : BufTy).Contents (Elt F)),
    nary ![main_v146, main_v147, main_v148] main_v149 (fun u => concatenate S8x65536x3 2 [⟨S8x65536x1, u 0⟩, ⟨S8x65536x1, u 1⟩, ⟨S8x65536x1, u 2⟩] concatenates_S8x65536x1_S8x65536x1_S8x65536x1_S8x65536x3_d2),
    binary main_arg1 main_v149 main_v150 ((fun x i => Host.gather gather_S8x64x32x32x32_S8x65536x3_S8x64x65536_1_234_0_0_234_2_164111 x i) : (⟨S8x64x32x32x32, .f32⟩ : BufTy).Contents (Elt F) → (⟨S8x65536x3, .i32⟩ : BufTy).Contents (Elt F) → (⟨S8x64x65536, .f32⟩ : BufTy).Contents (Elt F)),
    unary main_v12 main_v151 ((extractStridedSlice S8x1x65536 ![0, 0, 0] · slices_S8x3x65536_S8x1x65536_0_0_0) : (⟨S8x3x65536, .f32⟩ : BufTy).Contents (Elt F) → (⟨S8x1x65536, .f32⟩ : BufTy).Contents (Elt F)),
    reshape main_v151 main_v152 rfl shapeCasts_S8x1x65536_S8x65536,
    unary main_v152 main_v153 (broadcastInDim S8x1x65536 ![0, 2] bcast_S8x65536_S8x1x65536_0_2 : (⟨S8x65536, .f32⟩ : BufTy).Contents (Elt F) → (⟨S8x1x65536, .f32⟩ : BufTy).Contents (Elt F)),
    unary main_v153 main_v154 (broadcastInDim S8x64x65536 ![0, 1, 2] bcast_S8x1x65536_S8x64x65536_0_1_2 : (⟨S8x1x65536, .f32⟩ : BufTy).Contents (Elt F) → (⟨S8x64x65536, .f32⟩ : BufTy).Contents (Elt F)),
    binary main_v150 main_v154 main_v155 (mulf : (⟨S8x64x65536, .f32⟩ : BufTy).Contents (Elt F) → (⟨S8x64x65536, .f32⟩ : BufTy).Contents (Elt F) → (⟨S8x64x65536, .f32⟩ : BufTy).Contents (Elt F)),
    nullary main_c_33 (constantI S_ 32 0#32),
    unary main_c_33 main_v156 (broadcastInDim S8x65536 ![] bcast_S_S8x65536 : (⟨S_, .i32⟩ : BufTy).Contents (Elt F) → (⟨S8x65536, .i32⟩ : BufTy).Contents (Elt F)),
    binary main_v24 main_v156 main_v157 (cmpi .slt : (⟨S8x65536, .i32⟩ : BufTy).Contents (Elt F) → (⟨S8x65536, .i32⟩ : BufTy).Contents (Elt F) → (⟨S8x65536, .i1⟩ : BufTy).Contents (Elt F)),
    nullary main_c_34 (constantI S_ 32 32#32),
    unary main_c_34 main_v158 (broadcastInDim S8x65536 ![] bcast_S_S8x65536 : (⟨S_, .i32⟩ : BufTy).Contents (Elt F) → (⟨S8x65536, .i32⟩ : BufTy).Contents (Elt F)),
    binary main_v24 main_v158 main_v159 (addi : (⟨S8x65536, .i32⟩ : BufTy).Contents (Elt F) → (⟨S8x65536, .i32⟩ : BufTy).Contents (Elt F) → (⟨S8x65536, .i32⟩ : BufTy).Contents (Elt F)),
    ternary main_v157 main_v159 main_v24 main_v160 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    nullary main_c_35 (constantI S_ 32 0#32),
    unary main_c_35 main_v161 (broadcastInDim S8x65536 ![] bcast_S_S8x65536 : (⟨S_, .i32⟩ : BufTy).Contents (Elt F) → (⟨S8x65536, .i32⟩ : BufTy).Contents (Elt F)),
    binary main_v20 main_v161 main_v162 (cmpi .slt : (⟨S8x65536, .i32⟩ : BufTy).Contents (Elt F) → (⟨S8x65536, .i32⟩ : BufTy).Contents (Elt F) → (⟨S8x65536, .i1⟩ : BufTy).Contents (Elt F)),
    nullary main_c_36 (constantI S_ 32 32#32),
    unary main_c_36 main_v163 (broadcastInDim S8x65536 ![] bcast_S_S8x65536 : (⟨S_, .i32⟩ : BufTy).Contents (Elt F) → (⟨S8x65536, .i32⟩ : BufTy).Contents (Elt F)),
    binary main_v20 main_v163 main_v164 (addi : (⟨S8x65536, .i32⟩ : BufTy).Contents (Elt F) → (⟨S8x65536, .i32⟩ : BufTy).Contents (Elt F) → (⟨S8x65536, .i32⟩ : BufTy).Contents (Elt F)),
    ternary main_v162 main_v164 main_v20 main_v165 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    nullary main_c_37 (constantI S_ 32 0#32),
    unary main_c_37 main_v166 (broadcastInDim S8x65536 ![] bcast_S_S8x65536 : (⟨S_, .i32⟩ : BufTy).Contents (Elt F) → (⟨S8x65536, .i32⟩ : BufTy).Contents (Elt F)),
    binary main_v28 main_v166 main_v167 (cmpi .slt : (⟨S8x65536, .i32⟩ : BufTy).Contents (Elt F) → (⟨S8x65536, .i32⟩ : BufTy).Contents (Elt F) → (⟨S8x65536, .i1⟩ : BufTy).Contents (Elt F)),
    nullary main_c_38 (constantI S_ 32 32#32),
    unary main_c_38 main_v168 (broadcastInDim S8x65536 ![] bcast_S_S8x65536 : (⟨S_, .i32⟩ : BufTy).Contents (Elt F) → (⟨S8x65536, .i32⟩ : BufTy).Contents (Elt F)),
    binary main_v28 main_v168 main_v169 (addi : (⟨S8x65536, .i32⟩ : BufTy).Contents (Elt F) → (⟨S8x65536, .i32⟩ : BufTy).Contents (Elt F) → (⟨S8x65536, .i32⟩ : BufTy).Contents (Elt F)),
    ternary main_v167 main_v169 main_v28 main_v170 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    unary main_v160 main_v171 (broadcastInDim S8x65536x1 ![0, 1] bcast_S8x65536_S8x65536x1_0_1 : (⟨S8x65536, .i32⟩ : BufTy).Contents (Elt F) → (⟨S8x65536x1, .i32⟩ : BufTy).Contents (Elt F)),
    unary main_v165 main_v172 (broadcastInDim S8x65536x1 ![0, 1] bcast_S8x65536_S8x65536x1_0_1 : (⟨S8x65536, .i32⟩ : BufTy).Contents (Elt F) → (⟨S8x65536x1, .i32⟩ : BufTy).Contents (Elt F)),
    unary main_v170 main_v173 (broadcastInDim S8x65536x1 ![0, 1] bcast_S8x65536_S8x65536x1_0_1 : (⟨S8x65536, .i32⟩ : BufTy).Contents (Elt F) → (⟨S8x65536x1, .i32⟩ : BufTy).Contents (Elt F)),
    nary ![main_v171, main_v172, main_v173] main_v174 (fun u => concatenate S8x65536x3 2 [⟨S8x65536x1, u 0⟩, ⟨S8x65536x1, u 1⟩, ⟨S8x65536x1, u 2⟩] concatenates_S8x65536x1_S8x65536x1_S8x65536x1_S8x65536x3_d2),
    binary main_arg1 main_v174 main_v175 ((fun x i => Host.gather gather_S8x64x32x32x32_S8x65536x3_S8x64x65536_1_234_0_0_234_2_164111 x i) : (⟨S8x64x32x32x32, .f32⟩ : BufTy).Contents (Elt F) → (⟨S8x65536x3, .i32⟩ : BufTy).Contents (Elt F) → (⟨S8x64x65536, .f32⟩ : BufTy).Contents (Elt F)),
    unary main_v10 main_v176 ((extractStridedSlice S8x1x65536 ![0, 0, 0] · slices_S8x3x65536_S8x1x65536_0_0_0) : (⟨S8x3x65536, .f32⟩ : BufTy).Contents (Elt F) → (⟨S8x1x65536, .f32⟩ : BufTy).Contents (Elt F)),
    reshape main_v176 main_v177 rfl shapeCasts_S8x1x65536_S8x65536,
    unary main_v177 main_v178 (broadcastInDim S8x1x65536 ![0, 2] bcast_S8x65536_S8x1x65536_0_2 : (⟨S8x65536, .f32⟩ : BufTy).Contents (Elt F) → (⟨S8x1x65536, .f32⟩ : BufTy).Contents (Elt F)),
    unary main_v178 main_v179 (broadcastInDim S8x64x65536 ![0, 1, 2] bcast_S8x1x65536_S8x64x65536_0_1_2 : (⟨S8x1x65536, .f32⟩ : BufTy).Contents (Elt F) → (⟨S8x64x65536, .f32⟩ : BufTy).Contents (Elt F)),
    binary main_v175 main_v179 main_v180 (mulf : (⟨S8x64x65536, .f32⟩ : BufTy).Contents (Elt F) → (⟨S8x64x65536, .f32⟩ : BufTy).Contents (Elt F) → (⟨S8x64x65536, .f32⟩ : BufTy).Contents (Elt F)),
    binary main_v155 main_v180 main_v181 (addf : (⟨S8x64x65536, .f32⟩ : BufTy).Contents (Elt F) → (⟨S8x64x65536, .f32⟩ : BufTy).Contents (Elt F) → (⟨S8x64x65536, .f32⟩ : BufTy).Contents (Elt F)),
    nullary main_c_39 (constantI S_ 32 0#32),
    unary main_c_39 main_v182 (broadcastInDim S8x65536 ![] bcast_S_S8x65536 : (⟨S_, .i32⟩ : BufTy).Contents (Elt F) → (⟨S8x65536, .i32⟩ : BufTy).Contents (Elt F)),
    binary main_v18 main_v182 main_v183 (cmpi .slt : (⟨S8x65536, .i32⟩ : BufTy).Contents (Elt F) → (⟨S8x65536, .i32⟩ : BufTy).Contents (Elt F) → (⟨S8x65536, .i1⟩ : BufTy).Contents (Elt F)),
    nullary main_c_40 (constantI S_ 32 32#32),
    unary main_c_40 main_v184 (broadcastInDim S8x65536 ![] bcast_S_S8x65536 : (⟨S_, .i32⟩ : BufTy).Contents (Elt F) → (⟨S8x65536, .i32⟩ : BufTy).Contents (Elt F)),
    binary main_v18 main_v184 main_v185 (addi : (⟨S8x65536, .i32⟩ : BufTy).Contents (Elt F) → (⟨S8x65536, .i32⟩ : BufTy).Contents (Elt F) → (⟨S8x65536, .i32⟩ : BufTy).Contents (Elt F)),
    ternary main_v183 main_v185 main_v18 main_v186 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    nullary main_c_41 (constantI S_ 32 0#32),
    unary main_c_41 main_v187 (broadcastInDim S8x65536 ![] bcast_S_S8x65536 : (⟨S_, .i32⟩ : BufTy).Contents (Elt F) → (⟨S8x65536, .i32⟩ : BufTy).Contents (Elt F)),
    binary main_v26 main_v187 main_v188 (cmpi .slt : (⟨S8x65536, .i32⟩ : BufTy).Contents (Elt F) → (⟨S8x65536, .i32⟩ : BufTy).Contents (Elt F) → (⟨S8x65536, .i1⟩ : BufTy).Contents (Elt F)),
    nullary main_c_42 (constantI S_ 32 32#32),
    unary main_c_42 main_v189 (broadcastInDim S8x65536 ![] bcast_S_S8x65536 : (⟨S_, .i32⟩ : BufTy).Contents (Elt F) → (⟨S8x65536, .i32⟩ : BufTy).Contents (Elt F)),
    binary main_v26 main_v189 main_v190 (addi : (⟨S8x65536, .i32⟩ : BufTy).Contents (Elt F) → (⟨S8x65536, .i32⟩ : BufTy).Contents (Elt F) → (⟨S8x65536, .i32⟩ : BufTy).Contents (Elt F)),
    ternary main_v188 main_v190 main_v26 main_v191 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    nullary main_c_43 (constantI S_ 32 0#32),
    unary main_c_43 main_v192 (broadcastInDim S8x65536 ![] bcast_S_S8x65536 : (⟨S_, .i32⟩ : BufTy).Contents (Elt F) → (⟨S8x65536, .i32⟩ : BufTy).Contents (Elt F)),
    binary main_v28 main_v192 main_v193 (cmpi .slt : (⟨S8x65536, .i32⟩ : BufTy).Contents (Elt F) → (⟨S8x65536, .i32⟩ : BufTy).Contents (Elt F) → (⟨S8x65536, .i1⟩ : BufTy).Contents (Elt F)),
    nullary main_c_44 (constantI S_ 32 32#32),
    unary main_c_44 main_v194 (broadcastInDim S8x65536 ![] bcast_S_S8x65536 : (⟨S_, .i32⟩ : BufTy).Contents (Elt F) → (⟨S8x65536, .i32⟩ : BufTy).Contents (Elt F)),
    binary main_v28 main_v194 main_v195 (addi : (⟨S8x65536, .i32⟩ : BufTy).Contents (Elt F) → (⟨S8x65536, .i32⟩ : BufTy).Contents (Elt F) → (⟨S8x65536, .i32⟩ : BufTy).Contents (Elt F)),
    ternary main_v193 main_v195 main_v28 main_v196 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    unary main_v186 main_v197 (broadcastInDim S8x65536x1 ![0, 1] bcast_S8x65536_S8x65536x1_0_1 : (⟨S8x65536, .i32⟩ : BufTy).Contents (Elt F) → (⟨S8x65536x1, .i32⟩ : BufTy).Contents (Elt F)),
    unary main_v191 main_v198 (broadcastInDim S8x65536x1 ![0, 1] bcast_S8x65536_S8x65536x1_0_1 : (⟨S8x65536, .i32⟩ : BufTy).Contents (Elt F) → (⟨S8x65536x1, .i32⟩ : BufTy).Contents (Elt F)),
    unary main_v196 main_v199 (broadcastInDim S8x65536x1 ![0, 1] bcast_S8x65536_S8x65536x1_0_1 : (⟨S8x65536, .i32⟩ : BufTy).Contents (Elt F) → (⟨S8x65536x1, .i32⟩ : BufTy).Contents (Elt F)),
    nary ![main_v197, main_v198, main_v199] main_v200 (fun u => concatenate S8x65536x3 2 [⟨S8x65536x1, u 0⟩, ⟨S8x65536x1, u 1⟩, ⟨S8x65536x1, u 2⟩] concatenates_S8x65536x1_S8x65536x1_S8x65536x1_S8x65536x3_d2),
    binary main_arg1 main_v200 main_v201 ((fun x i => Host.gather gather_S8x64x32x32x32_S8x65536x3_S8x64x65536_1_234_0_0_234_2_164111 x i) : (⟨S8x64x32x32x32, .f32⟩ : BufTy).Contents (Elt F) → (⟨S8x65536x3, .i32⟩ : BufTy).Contents (Elt F) → (⟨S8x64x65536, .f32⟩ : BufTy).Contents (Elt F)),
    unary main_v12 main_v202 ((extractStridedSlice S8x1x65536 ![0, 0, 0] · slices_S8x3x65536_S8x1x65536_0_0_0) : (⟨S8x3x65536, .f32⟩ : BufTy).Contents (Elt F) → (⟨S8x1x65536, .f32⟩ : BufTy).Contents (Elt F)),
    reshape main_v202 main_v203 rfl shapeCasts_S8x1x65536_S8x65536,
    unary main_v203 main_v204 (broadcastInDim S8x1x65536 ![0, 2] bcast_S8x65536_S8x1x65536_0_2 : (⟨S8x65536, .f32⟩ : BufTy).Contents (Elt F) → (⟨S8x1x65536, .f32⟩ : BufTy).Contents (Elt F)),
    unary main_v204 main_v205 (broadcastInDim S8x64x65536 ![0, 1, 2] bcast_S8x1x65536_S8x64x65536_0_1_2 : (⟨S8x1x65536, .f32⟩ : BufTy).Contents (Elt F) → (⟨S8x64x65536, .f32⟩ : BufTy).Contents (Elt F)),
    binary main_v201 main_v205 main_v206 (mulf : (⟨S8x64x65536, .f32⟩ : BufTy).Contents (Elt F) → (⟨S8x64x65536, .f32⟩ : BufTy).Contents (Elt F) → (⟨S8x64x65536, .f32⟩ : BufTy).Contents (Elt F)),
    nullary main_c_45 (constantI S_ 32 0#32),
    unary main_c_45 main_v207 (broadcastInDim S8x65536 ![] bcast_S_S8x65536 : (⟨S_, .i32⟩ : BufTy).Contents (Elt F) → (⟨S8x65536, .i32⟩ : BufTy).Contents (Elt F)),
    binary main_v24 main_v207 main_v208 (cmpi .slt : (⟨S8x65536, .i32⟩ : BufTy).Contents (Elt F) → (⟨S8x65536, .i32⟩ : BufTy).Contents (Elt F) → (⟨S8x65536, .i1⟩ : BufTy).Contents (Elt F)),
    nullary main_c_46 (constantI S_ 32 32#32),
    unary main_c_46 main_v209 (broadcastInDim S8x65536 ![] bcast_S_S8x65536 : (⟨S_, .i32⟩ : BufTy).Contents (Elt F) → (⟨S8x65536, .i32⟩ : BufTy).Contents (Elt F)),
    binary main_v24 main_v209 main_v210 (addi : (⟨S8x65536, .i32⟩ : BufTy).Contents (Elt F) → (⟨S8x65536, .i32⟩ : BufTy).Contents (Elt F) → (⟨S8x65536, .i32⟩ : BufTy).Contents (Elt F)),
    ternary main_v208 main_v210 main_v24 main_v211 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    nullary main_c_47 (constantI S_ 32 0#32),
    unary main_c_47 main_v212 (broadcastInDim S8x65536 ![] bcast_S_S8x65536 : (⟨S_, .i32⟩ : BufTy).Contents (Elt F) → (⟨S8x65536, .i32⟩ : BufTy).Contents (Elt F)),
    binary main_v26 main_v212 main_v213 (cmpi .slt : (⟨S8x65536, .i32⟩ : BufTy).Contents (Elt F) → (⟨S8x65536, .i32⟩ : BufTy).Contents (Elt F) → (⟨S8x65536, .i1⟩ : BufTy).Contents (Elt F)),
    nullary main_c_48 (constantI S_ 32 32#32),
    unary main_c_48 main_v214 (broadcastInDim S8x65536 ![] bcast_S_S8x65536 : (⟨S_, .i32⟩ : BufTy).Contents (Elt F) → (⟨S8x65536, .i32⟩ : BufTy).Contents (Elt F)),
    binary main_v26 main_v214 main_v215 (addi : (⟨S8x65536, .i32⟩ : BufTy).Contents (Elt F) → (⟨S8x65536, .i32⟩ : BufTy).Contents (Elt F) → (⟨S8x65536, .i32⟩ : BufTy).Contents (Elt F)),
    ternary main_v213 main_v215 main_v26 main_v216 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    nullary main_c_49 (constantI S_ 32 0#32),
    unary main_c_49 main_v217 (broadcastInDim S8x65536 ![] bcast_S_S8x65536 : (⟨S_, .i32⟩ : BufTy).Contents (Elt F) → (⟨S8x65536, .i32⟩ : BufTy).Contents (Elt F)),
    binary main_v28 main_v217 main_v218 (cmpi .slt : (⟨S8x65536, .i32⟩ : BufTy).Contents (Elt F) → (⟨S8x65536, .i32⟩ : BufTy).Contents (Elt F) → (⟨S8x65536, .i1⟩ : BufTy).Contents (Elt F)),
    nullary main_c_50 (constantI S_ 32 32#32),
    unary main_c_50 main_v219 (broadcastInDim S8x65536 ![] bcast_S_S8x65536 : (⟨S_, .i32⟩ : BufTy).Contents (Elt F) → (⟨S8x65536, .i32⟩ : BufTy).Contents (Elt F)),
    binary main_v28 main_v219 main_v220 (addi : (⟨S8x65536, .i32⟩ : BufTy).Contents (Elt F) → (⟨S8x65536, .i32⟩ : BufTy).Contents (Elt F) → (⟨S8x65536, .i32⟩ : BufTy).Contents (Elt F)),
    ternary main_v218 main_v220 main_v28 main_v221 (select : (⟨S8x65536, .i1⟩ : BufTy).Contents (Elt F) → (⟨S8x65536, .i32⟩ : BufTy).Contents (Elt F) → (⟨S8x65536, .i32⟩ : BufTy).Contents (Elt F) → (⟨S8x65536, .i32⟩ : BufTy).Contents (Elt F)),
    unary main_v211 main_v222 (broadcastInDim S8x65536x1 ![0, 1] bcast_S8x65536_S8x65536x1_0_1 : (⟨S8x65536, .i32⟩ : BufTy).Contents (Elt F) → (⟨S8x65536x1, .i32⟩ : BufTy).Contents (Elt F)),
    unary main_v216 main_v223 (broadcastInDim S8x65536x1 ![0, 1] bcast_S8x65536_S8x65536x1_0_1 : (⟨S8x65536, .i32⟩ : BufTy).Contents (Elt F) → (⟨S8x65536x1, .i32⟩ : BufTy).Contents (Elt F)),
    unary main_v221 main_v224 (broadcastInDim S8x65536x1 ![0, 1] bcast_S8x65536_S8x65536x1_0_1 : (⟨S8x65536, .i32⟩ : BufTy).Contents (Elt F) → (⟨S8x65536x1, .i32⟩ : BufTy).Contents (Elt F)),
    nary ![main_v222, main_v223, main_v224] main_v225 (fun u => concatenate S8x65536x3 2 [⟨S8x65536x1, u 0⟩, ⟨S8x65536x1, u 1⟩, ⟨S8x65536x1, u 2⟩] concatenates_S8x65536x1_S8x65536x1_S8x65536x1_S8x65536x3_d2),
    binary main_arg1 main_v225 main_v226 ((fun x i => Host.gather gather_S8x64x32x32x32_S8x65536x3_S8x64x65536_1_234_0_0_234_2_164111 x i) : (⟨S8x64x32x32x32, .f32⟩ : BufTy).Contents (Elt F) → (⟨S8x65536x3, .i32⟩ : BufTy).Contents (Elt F) → (⟨S8x64x65536, .f32⟩ : BufTy).Contents (Elt F)),
    unary main_v10 main_v227 ((extractStridedSlice S8x1x65536 ![0, 0, 0] · slices_S8x3x65536_S8x1x65536_0_0_0) : (⟨S8x3x65536, .f32⟩ : BufTy).Contents (Elt F) → (⟨S8x1x65536, .f32⟩ : BufTy).Contents (Elt F)),
    reshape main_v227 main_v228 rfl shapeCasts_S8x1x65536_S8x65536,
    unary main_v228 main_v229 (broadcastInDim S8x1x65536 ![0, 2] bcast_S8x65536_S8x1x65536_0_2 : (⟨S8x65536, .f32⟩ : BufTy).Contents (Elt F) → (⟨S8x1x65536, .f32⟩ : BufTy).Contents (Elt F)),
    unary main_v229 main_v230 (broadcastInDim S8x64x65536 ![0, 1, 2] bcast_S8x1x65536_S8x64x65536_0_1_2 : (⟨S8x1x65536, .f32⟩ : BufTy).Contents (Elt F) → (⟨S8x64x65536, .f32⟩ : BufTy).Contents (Elt F)),
    binary main_v226 main_v230 main_v231 (mulf : (⟨S8x64x65536, .f32⟩ : BufTy).Contents (Elt F) → (⟨S8x64x65536, .f32⟩ : BufTy).Contents (Elt F) → (⟨S8x64x65536, .f32⟩ : BufTy).Contents (Elt F)),
    binary main_v206 main_v231 main_v232 (addf : (⟨S8x64x65536, .f32⟩ : BufTy).Contents (Elt F) → (⟨S8x64x65536, .f32⟩ : BufTy).Contents (Elt F) → (⟨S8x64x65536, .f32⟩ : BufTy).Contents (Elt F)),
    unary main_v12 main_v233 ((extractStridedSlice S8x1x65536 ![0, 1, 0] · slices_S8x3x65536_S8x1x65536_0_1_0) : (⟨S8x3x65536, .f32⟩ : BufTy).Contents (Elt F) → (⟨S8x1x65536, .f32⟩ : BufTy).Contents (Elt F)),
    reshape main_v233 main_v234 rfl shapeCasts_S8x1x65536_S8x65536,
    unary main_v234 main_v235 (broadcastInDim S8x1x65536 ![0, 2] bcast_S8x65536_S8x1x65536_0_2 : (⟨S8x65536, .f32⟩ : BufTy).Contents (Elt F) → (⟨S8x1x65536, .f32⟩ : BufTy).Contents (Elt F)),
    unary main_v235 main_v236 (broadcastInDim S8x64x65536 ![0, 1, 2] bcast_S8x1x65536_S8x64x65536_0_1_2 : (⟨S8x1x65536, .f32⟩ : BufTy).Contents (Elt F) → (⟨S8x64x65536, .f32⟩ : BufTy).Contents (Elt F)),
    binary main_v79 main_v236 main_v237 (mulf : (⟨S8x64x65536, .f32⟩ : BufTy).Contents (Elt F) → (⟨S8x64x65536, .f32⟩ : BufTy).Contents (Elt F) → (⟨S8x64x65536, .f32⟩ : BufTy).Contents (Elt F)),
    unary main_v10 main_v238 ((extractStridedSlice S8x1x65536 ![0, 1, 0] · slices_S8x3x65536_S8x1x65536_0_1_0) : (⟨S8x3x65536, .f32⟩ : BufTy).Contents (Elt F) → (⟨S8x1x65536, .f32⟩ : BufTy).Contents (Elt F)),
    reshape main_v238 main_v239 rfl shapeCasts_S8x1x65536_S8x65536,
    unary main_v239 main_v240 (broadcastInDim S8x1x65536 ![0, 2] bcast_S8x65536_S8x1x65536_0_2 : (⟨S8x65536, .f32⟩ : BufTy).Contents (Elt F) → (⟨S8x1x65536, .f32⟩ : BufTy).Contents (Elt F)),
    unary main_v240 main_v241 (broadcastInDim S8x64x65536 ![0, 1, 2] bcast_S8x1x65536_S8x64x65536_0_1_2 : (⟨S8x1x65536, .f32⟩ : BufTy).Contents (Elt F) → (⟨S8x64x65536, .f32⟩ : BufTy).Contents (Elt F)),
    binary main_v130 main_v241 main_v242 (mulf : (⟨S8x64x65536, .f32⟩ : BufTy).Contents (Elt F) → (⟨S8x64x65536, .f32⟩ : BufTy).Contents (Elt F) → (⟨S8x64x65536, .f32⟩ : BufTy).Contents (Elt F)),
    binary main_v237 main_v242 main_v243 (addf : (⟨S8x64x65536, .f32⟩ : BufTy).Contents (Elt F) → (⟨S8x64x65536, .f32⟩ : BufTy).Contents (Elt F) → (⟨S8x64x65536, .f32⟩ : BufTy).Contents (Elt F)),
    unary main_v12 main_v244 ((extractStridedSlice S8x1x65536 ![0, 1, 0] · slices_S8x3x65536_S8x1x65536_0_1_0) : (⟨S8x3x65536, .f32⟩ : BufTy).Contents (Elt F) → (⟨S8x1x65536, .f32⟩ : BufTy).Contents (Elt F)),
    reshape main_v244 main_v245 rfl shapeCasts_S8x1x65536_S8x65536,
    unary main_v245 main_v246 (broadcastInDim S8x1x65536 ![0, 2] bcast_S8x65536_S8x1x65536_0_2 : (⟨S8x65536, .f32⟩ : BufTy).Contents (Elt F) → (⟨S8x1x65536, .f32⟩ : BufTy).Contents (Elt F)),
    unary main_v246 main_v247 (broadcastInDim S8x64x65536 ![0, 1, 2] bcast_S8x1x65536_S8x64x65536_0_1_2 : (⟨S8x1x65536, .f32⟩ : BufTy).Contents (Elt F) → (⟨S8x64x65536, .f32⟩ : BufTy).Contents (Elt F)),
    binary main_v181 main_v247 main_v248 (mulf : (⟨S8x64x65536, .f32⟩ : BufTy).Contents (Elt F) → (⟨S8x64x65536, .f32⟩ : BufTy).Contents (Elt F) → (⟨S8x64x65536, .f32⟩ : BufTy).Contents (Elt F)),
    unary main_v10 main_v249 ((extractStridedSlice S8x1x65536 ![0, 1, 0] · slices_S8x3x65536_S8x1x65536_0_1_0) : (⟨S8x3x65536, .f32⟩ : BufTy).Contents (Elt F) → (⟨S8x1x65536, .f32⟩ : BufTy).Contents (Elt F)),
    reshape main_v249 main_v250 rfl shapeCasts_S8x1x65536_S8x65536,
    unary main_v250 main_v251 (broadcastInDim S8x1x65536 ![0, 2] bcast_S8x65536_S8x1x65536_0_2 : (⟨S8x65536, .f32⟩ : BufTy).Contents (Elt F) → (⟨S8x1x65536, .f32⟩ : BufTy).Contents (Elt F)),
    unary main_v251 main_v252 (broadcastInDim S8x64x65536 ![0, 1, 2] bcast_S8x1x65536_S8x64x65536_0_1_2 : (⟨S8x1x65536, .f32⟩ : BufTy).Contents (Elt F) → (⟨S8x64x65536, .f32⟩ : BufTy).Contents (Elt F)),
    binary main_v232 main_v252 main_v253 (mulf : (⟨S8x64x65536, .f32⟩ : BufTy).Contents (Elt F) → (⟨S8x64x65536, .f32⟩ : BufTy).Contents (Elt F) → (⟨S8x64x65536, .f32⟩ : BufTy).Contents (Elt F)),
    binary main_v248 main_v253 main_v254 (addf : (⟨S8x64x65536, .f32⟩ : BufTy).Contents (Elt F) → (⟨S8x64x65536, .f32⟩ : BufTy).Contents (Elt F) → (⟨S8x64x65536, .f32⟩ : BufTy).Contents (Elt F)),
    unary main_v12 main_v255 ((extractStridedSlice S8x1x65536 ![0, 2, 0] · slices_S8x3x65536_S8x1x65536_0_2_0) : (⟨S8x3x65536, .f32⟩ : BufTy).Contents (Elt F) → (⟨S8x1x65536, .f32⟩ : BufTy).Contents (Elt F)),
    reshape main_v255 main_v256 rfl shapeCasts_S8x1x65536_S8x65536,
    unary main_v256 main_v257 (broadcastInDim S8x1x65536 ![0, 2] bcast_S8x65536_S8x1x65536_0_2 : (⟨S8x65536, .f32⟩ : BufTy).Contents (Elt F) → (⟨S8x1x65536, .f32⟩ : BufTy).Contents (Elt F)),
    unary main_v257 main_v258 (broadcastInDim S8x64x65536 ![0, 1, 2] bcast_S8x1x65536_S8x64x65536_0_1_2 : (⟨S8x1x65536, .f32⟩ : BufTy).Contents (Elt F) → (⟨S8x64x65536, .f32⟩ : BufTy).Contents (Elt F)),
    binary main_v243 main_v258 main_v259 (mulf : (⟨S8x64x65536, .f32⟩ : BufTy).Contents (Elt F) → (⟨S8x64x65536, .f32⟩ : BufTy).Contents (Elt F) → (⟨S8x64x65536, .f32⟩ : BufTy).Contents (Elt F)),
    unary main_v10 main_v260 ((extractStridedSlice S8x1x65536 ![0, 2, 0] · slices_S8x3x65536_S8x1x65536_0_2_0) : (⟨S8x3x65536, .f32⟩ : BufTy).Contents (Elt F) → (⟨S8x1x65536, .f32⟩ : BufTy).Contents (Elt F)),
    reshape main_v260 main_v261 rfl shapeCasts_S8x1x65536_S8x65536,
    unary main_v261 main_v262 (broadcastInDim S8x1x65536 ![0, 2] bcast_S8x65536_S8x1x65536_0_2 : (⟨S8x65536, .f32⟩ : BufTy).Contents (Elt F) → (⟨S8x1x65536, .f32⟩ : BufTy).Contents (Elt F)),
    unary main_v262 main_v263 (broadcastInDim S8x64x65536 ![0, 1, 2] bcast_S8x1x65536_S8x64x65536_0_1_2 : (⟨S8x1x65536, .f32⟩ : BufTy).Contents (Elt F) → (⟨S8x64x65536, .f32⟩ : BufTy).Contents (Elt F)),
    binary main_v254 main_v263 main_v264 (mulf : (⟨S8x64x65536, .f32⟩ : BufTy).Contents (Elt F) → (⟨S8x64x65536, .f32⟩ : BufTy).Contents (Elt F) → (⟨S8x64x65536, .f32⟩ : BufTy).Contents (Elt F)),
    binary main_v259 main_v264 main_v265 (addf : (⟨S8x64x65536, .f32⟩ : BufTy).Contents (Elt F) → (⟨S8x64x65536, .f32⟩ : BufTy).Contents (Elt F) → (⟨S8x64x65536, .f32⟩ : BufTy).Contents (Elt F)) ]

set_option maxRecDepth 8192 in
set_option maxHeartbeats 4000000 in
theorem ops_split : (ops (F := F)) = opsA ++ opsB := rfl
end

set_option maxRecDepth 16384 in
set_option maxHeartbeats 64000000 in
/-- The second stretch's result, from any contents: `tailTerm` of the grid and the first stage's four arrays. -/
theorem tail_result (L : Valuation τ sig (Elt Ideal)) :
    after (opsB (F := Ideal)) L (Proc.devRef .tc main_v265)
      = Cert.Devox.tailTerm (L (Proc.devRef .tc main_arg1)) (L (Proc.devRef .tc main_v14)) (L (Proc.devRef .tc main_v16))
          (L (Proc.devRef .tc main_v12)) (L (Proc.devRef .tc main_v10)) := by
  after_results_simp
  rfl

variable (m : (ℓ : Loc nD τ sig) → Buf (Elt Ideal) ℓ) (c : Dev nD)

set_option maxHeartbeats 4000000 in
/-- The first stage leaves the grid as launched. -/
theorem head_arg1 : after (opsA (F := Ideal)) (launchContents m c) (Proc.devRef .tc main_arg1) = m ((c.tc : Thread nD τ).loc main_arg1) := by
  after_results_simp <;> rfl

set_option maxHeartbeats 16000000 in
/-- The first stage's voxel coordinates. -/
theorem head_v10 : after (opsA (F := Ideal)) (launchContents m c) (Proc.devRef .tc main_v10) = Cert.Devox.vox (m ((c.tc : Thread nD τ).loc main_arg0)) := by
  after_results_simp <;> rfl

set_option maxHeartbeats 16000000 in
/-- The first stage's lower weights. -/
theorem head_v12 : after (opsA (F := Ideal)) (launchContents m c) (Proc.devRef .tc main_v12) = Cert.Devox.wlo (m ((c.tc : Thread nD τ).loc main_arg0)) := by
  after_results_simp <;> rfl

set_option maxHeartbeats 16000000 in
/-- The first stage's lower index words. -/
theorem head_v14 : after (opsA (F := Ideal)) (launchContents m c) (Proc.devRef .tc main_v14) = Cert.Devox.ilo (m ((c.tc : Thread nD τ).loc main_arg0)) := by
  after_results_simp <;> rfl

set_option maxHeartbeats 16000000 in
/-- The first stage's upper index words. -/
theorem head_v16 : after (opsA (F := Ideal)) (launchContents m c) (Proc.devRef .tc main_v16) = Cert.Devox.ihi (m ((c.tc : Thread nD τ).loc main_arg0)) := by
  after_results_simp <;> rfl

set_option maxRecDepth 16384 in
set_option maxHeartbeats 128800000 in
/-- Every weakly fair execution of the reference terminates with its result at `refTerm` of the argument arrays, and
    the arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v265)
          = Cert.Devox.refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v265).trans (by
        show after (ops (F := Ideal)) (launchContents m c) (Proc.devRef .tc main_v265) = _
        rw [ops_split, after_append, tail_result, head_arg1, head_v14, head_v16, head_v12, head_v10]
        exact Cert.Devox.tailTerm_eq _ _),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.RefRun

end
-- ==== Proof.KernelForm.lean ====
/-
  What the kernel computes, as ONE function of the voxel grid and of the per-point corner indices and weights.

  Per axis the kernel builds a weight row over the 32 voxels of the axis: voxel `i` gets the lower weight where `i` is
  the lower index word, plus the upper weight where `i` is the upper index word (both when the two words coincide, zero
  elsewhere). The feature of a point is the full contraction of the grid with the three rows: over y and z first (one
  matrix product), then over x.
-/
import proofs.«112822_j57062935495024_2_alg».proof.Proof.Spec

noncomputable section

namespace Cert.Devox

open Idealize.ShloMosaic Idealize.ShloMosaic.ValueIdx

/-- The weight row of one axis at voxel `i`: `a` where `i` is the word `vl`, plus `b` where `i` is the word `vr`. -/
def hot (i : Fin 32) (vl vr : BitVec 32) (a b : EReal) : EReal :=
  Scalar.select (IntOp.cmpi .eq (BitVec.ofNat 32 i.val) vl) a 0 + Scalar.select (IntOp.cmpi .eq (BitVec.ofNat 32 i.val) vr) b 0

/-- The kernel's result at `(b, c, n)`: `Σ_x (Σ_y Σ_z f x y z · (W₁ y · W₂ z)) · W₀ x`, with `W a` the weight row of axis `a` at
    point `n` of batch `b` and `f` the grid's channel `c`. -/
def K (feat : SF.Idx → EReal) (il ir : SP.Idx → BitVec 32) (wl wr : SP.Idx → EReal) : SO.Idx → EReal := fun j =>
  let W : Fin 3 → Fin 32 → EReal := fun a i =>
    hot i (il (ix3 (j 0) a (j 2))) (ir (ix3 (j 0) a (j 2))) (wl (ix3 (j 0) a (j 2))) (wr (ix3 (j 0) a (j 2)))
  ∑ x : Fin 32, (∑ y : Fin 32, ∑ z : Fin 32, feat (ix5 (j 0) (j 1) x y z) * (W 1 y * W 2 z)) * W 0 x

/-- One grid point's blocks: the grid's rows of one batch as a 2048 × 1024 matrix (row `c·32 + x`, column `y·32 + z`), a
    3 × 1024 block of each per-point array, and the 64 × 1024 result block. -/
abbrev SB0 : Shape := ⟨3, ![1, 2048, 1024]⟩
abbrev SB1 : Shape := ⟨3, ![1, 3, 1024]⟩
abbrev SB5 : Shape := ⟨3, ![1, 64, 1024]⟩

/-- The kernel's result block from one grid point's input blocks: `K` with the grid read through its matrix layout. -/
def blockK (x0 : SB0.Idx → EReal) (x1 x2 : SB1.Idx → BitVec 32) (x3 x4 : SB1.Idx → EReal) : SB5.Idx → EReal := fun q =>
  let W : Fin 3 → Fin 32 → EReal := fun a i =>
    hot i (x1 (ix3 0 a (q 2))) (x2 (ix3 0 a (q 2))) (x3 (ix3 0 a (q 2))) (x4 (ix3 0 a (q 2)))
  ∑ x : Fin 32, (∑ y : Fin 32, ∑ z : Fin 32,
      x0 (ix3 0 ⟨(q 1).val * 32 + x.val, by have h1 : (q 1).val < 64 := (q 1).isLt; have := x.isLt; omega⟩ ⟨y.val * 32 + z.val, by have := y.isLt; have := z.isLt; omega⟩)
        * (W 1 y * W 2 z)) * W 0 x

end Cert.Devox

end
-- ==== Proof.Accumulate.lean ====
/-
  The contraction over the x axis, as the kernel runs it: 32 fused multiply-accumulate steps, step `j` adding to the
  running 64 × 1024 block the product of slab `j` of a 64 × 32 × 1024 array with row `j` of a 32 × 1024 array of
  weights, the row the same for all 64 channels. Read at an entry `(c, k)`, the running block after `n` steps is the
  sum over `j < n` of `A[c, j, k] · W[j, k]`.
-/
import Idealize.ShloMosaic.Lib.ValueIdx
import Idealize.ShloMosaic.Lib.Pipeline.Value
import Idealize.ShloMosaic.PureOps.Ideal.Laws

noncomputable section

namespace Cert.Devox

open Idealize.ShloMosaic Idealize.ShloMosaic.ValueIdx

abbrev T64x32xL : Shape := ⟨3, ![64, 32, 1024]⟩
abbrev T64x1xL : Shape := ⟨3, ![64, 1, 1024]⟩
abbrev T64xL : Shape := ⟨2, ![64, 1024]⟩
abbrev T32xL : Shape := ⟨2, ![32, 1024]⟩
abbrev T1xL : Shape := ⟨2, ![1, 1024]⟩
abbrev TL : Shape := ⟨1, ![1024]⟩

theorem sc64 : T64x1xL.ShapeCasts T64xL := by decide
theorem sc1L : T1xL.ShapeCasts TL := by decide
theorem scL1 : TL.ShapeCasts T1xL := by decide
theorem bc1L64 : T1xL.Broadcasts T64xL := by decide

/-- Slab `j` of the three-axis array, as a 64 × 1024 block. -/
def slab (A : FVec Ideal T64x32xL .f32) (j : Nat) (h : T64x32xL.Slices ![0, j, 0] T64x1xL) : FVec Ideal T64xL .f32 :=
  shapeCast T64xL (extractStridedSlice T64x1xL ![0, j, 0] A h) sc64

/-- Row `j` of the weights, repeated over the 64 channels. -/
def rowAll (W : FVec Ideal T32xL .f32) (j : Nat) (h : T32xL.Slices ![j, 0] T1xL) : FVec Ideal T64xL .f32 :=
  broadcastTo T64xL (shapeCast T1xL (shapeCast TL (extractStridedSlice T1xL ![j, 0] W h) sc1L) scL1) bc1L64

theorem slab_apply (A : FVec Ideal T64x32xL .f32) (j : Nat) (hj : j < 32) (h : T64x32xL.Slices ![0, j, 0] T64x1xL)
    (c : Fin 64) (k : Fin 1024) : slab A j h (ix2 c k) = A (ix3 c ⟨j, hj⟩ k) := by
  unfold slab
  rw [shapeCast_apply _ sc64 (ix2 c k) (ix3 c (0 : Fin 1) k) (by
    rw [Shape.rowMajor_val_three, Shape.rowMajor_val_two]
    show (c.val * 1 + 0) * 1024 + k.val = c.val * 1024 + k.val
    omega)]
  exact extractStridedSlice_apply _ A h _ _ (fun a => by
    match a with
    | ⟨0, _⟩ => simp
    | ⟨1, _⟩ => simp
    | ⟨2, _⟩ => simp)

theorem rowAll_apply (W : FVec Ideal T32xL .f32) (j : Nat) (hj : j < 32) (h : T32xL.Slices ![j, 0] T1xL)
    (c : Fin 64) (k : Fin 1024) : rowAll W j h (ix2 c k) = W (ix2 ⟨j, hj⟩ k) := by
  unfold rowAll
  rw [broadcastTo_apply _ bc1L64 (ix2 c k) (ix2 (0 : Fin 1) k) (fun a => by
    match a with
    | ⟨0, _⟩ => simp
    | ⟨1, _⟩ => simp)]
  rw [shapeCast_apply _ scL1 (ix2 (0 : Fin 1) k) (ix1 k) (by rw [Shape.rowMajor_val_one, Shape.rowMajor_val_two]; simp)]
  rw [shapeCast_apply _ sc1L (ix1 k) (ix2 (0 : Fin 1) k) (by rw [Shape.rowMajor_val_one, Shape.rowMajor_val_two]; simp)]
  exact extractStridedSlice_apply _ W h _ _ (fun a => by
    match a with
    | ⟨0, _⟩ => simp
    | ⟨1, _⟩ => simp)

/-! ## The 32 steps -/

theorem slabOk (j : Nat) (hj : j < 32) : T64x32xL.Slices ![0, j, 0] T64x1xL := ⟨rfl, fun a => by
  match a with
  | ⟨0, _⟩ => show 0 + 64 ≤ 64; omega
  | ⟨1, _⟩ => show j + 1 ≤ 32; omega
  | ⟨2, _⟩ => show 0 + 1024 ≤ 1024; omega⟩

theorem rowOk (j : Nat) (hj : j < 32) : T32xL.Slices ![j, 0] T1xL := ⟨rfl, fun a => by
  match a with
  | ⟨0, _⟩ => show j + 1 ≤ 32; omega
  | ⟨1, _⟩ => show 0 + 1024 ≤ 1024; omega⟩

/-- The running block after `n` steps, from the zero block. -/
def accTo (A : FVec Ideal T64x32xL .f32) (W : FVec Ideal T32xL .f32) : (n : Nat) → n ≤ 32 → FVec Ideal T64xL .f32
  | 0, _ => broadcast T64xL (Scalar.ofBits (F := Ideal) .f32 0x00000000#32)
  | n + 1, h => addf (accTo A W n (by omega)) (mulf (slab A n (slabOk n (by omega))) (rowAll W n (rowOk n (by omega))))

/-- After `n` steps the entry `(c, k)` is `Σ_{j<n} A[c, j, k] · W[j, k]`. -/
theorem accTo_apply (A : FVec Ideal T64x32xL .f32) (W : FVec Ideal T32xL .f32) (n : Nat) (h : n ≤ 32) (c : Fin 64) (k : Fin 1024) :
    accTo A W n h (ix2 c k) = ∑ j : Fin n, A (ix3 c ⟨j.val, by have := j.isLt; omega⟩ k) * W (ix2 ⟨j.val, by have := j.isLt; omega⟩ k) := by
  induction n with
  | zero =>
    show Ideal.ofBits .f32 0x00000000#32 = _
    rw [Ideal.ofBits_zero_f32]; simp
  | succ n ih =>
    rw [Fin.sum_univ_castSucc]
    show accTo A W n (by omega) (ix2 c k) + slab A n _ (ix2 c k) * rowAll W n _ (ix2 c k) = _
    rw [ih (by omega), slab_apply A n (by omega), rowAll_apply W n (by omega)]
    rfl

end Cert.Devox

end
-- ==== Proof.WeightRow.lean ====
/-
  A weight row as the kernel builds it: the row index is compared with the lower and with the upper index word of every
  point, the lower weight is taken where the first comparison holds and the upper weight where the second does (zero
  elsewhere), and the two are added. Read at `(i, k)` this is `hot i` of point `k`'s two words and two weights.
-/
import proofs.«112822_j57062935495024_2_alg».proof.Proof.KernelForm
import Idealize.ShloMosaic.Lib.Pipeline.Value
import Idealize.ShloMosaic.PureOps.Ideal.Laws

noncomputable section

namespace Cert.Devox

open Idealize.ShloMosaic Idealize.ShloMosaic.ValueIdx

abbrev R32xL : Shape := ⟨2, ![32, 1024]⟩
abbrev R1xL : Shape := ⟨2, ![1, 1024]⟩

/-- The row of one axis over all 1024 points of a block, from the words `vl`, `vr` and weights `a`, `b` of the points. -/
def weightRow (vl vr : IVec R1xL 32) (a b : FVec Ideal R1xL .f32) (hI : R32xL.Iotas .tc 32 [0]) (hB : R1xL.Broadcasts R32xL)
    (hS : R1xL.ShapeCasts R1xL) : FVec Ideal R32xL .f32 :=
  addf
    (select (cmpi .eq (iota .tc R32xL 32 [0] hI) (broadcastTo R32xL vl hB)) (broadcastTo R32xL (shapeCast R1xL a hS) hB)
      (broadcast R32xL (Scalar.ofBits (F := Ideal) .f32 0x00000000#32)))
    (select (cmpi .eq (iota .tc R32xL 32 [0] hI) (broadcastTo R32xL vr hB)) (broadcastTo R32xL (shapeCast R1xL b hS) hB)
      (broadcast R32xL (Scalar.ofBits (F := Ideal) .f32 0x00000000#32)))

theorem bcRow_apply {α : Type} (v : R1xL.Idx → α) (hB : R1xL.Broadcasts R32xL) (i : Fin 32) (k : Fin 1024) :
    broadcastTo R32xL v hB (ix2 i k) = v (ix2 (0 : Fin 1) k) :=
  broadcastTo_apply v hB (ix2 i k) (ix2 (0 : Fin 1) k) (fun a => by
    match a with
    | ⟨0, _⟩ => simp
    | ⟨1, _⟩ => simp)

theorem weightRow_apply (vl vr : IVec R1xL 32) (a b : FVec Ideal R1xL .f32) (hI : R32xL.Iotas .tc 32 [0])
    (hB : R1xL.Broadcasts R32xL) (hS : R1xL.ShapeCasts R1xL) (i : Fin 32) (k : Fin 1024) :
    weightRow vl vr a b hI hB hS (ix2 i k)
      = hot i (vl (ix2 (0 : Fin 1) k)) (vr (ix2 (0 : Fin 1) k)) (a (ix2 (0 : Fin 1) k)) (b (ix2 (0 : Fin 1) k)) := by
  unfold weightRow hot
  rw [shapeCast_self, shapeCast_self]
  simp only [addf_apply, select_apply, broadcast_apply, bcRow_apply]
  show Scalar.select (IntOp.cmpi .eq (iota .tc R32xL 32 [0] hI (ix2 i k)) _) _ (Ideal.ofBits .f32 0x00000000#32)
      + Scalar.select (IntOp.cmpi .eq (iota .tc R32xL 32 [0] hI (ix2 i k)) _) _ (Ideal.ofBits .f32 0x00000000#32) = _
  rw [iota_single_apply, bcRow_apply vl, bcRow_apply vr, Ideal.ofBits_zero_f32]

end Cert.Devox

end
-- ==== Proof.PayChain.lean ====
/-
  The kernel body's arithmetic, regrouped: the printed body runs the contraction over x as 32 fused multiply-accumulate
  steps (cut by the printer into six stretches), and builds the x-axis weight row by two compare-and-select passes. Here
  the six stretches are identified with the 32-step accumulation `accTo`, and the row with `weightRow`; both
  identifications hold by unfolding alone.
-/
import proofs.«112822_j57062935495024_2_alg».proof.Proof.Gen.KernelIdeal
import proofs.«112822_j57062935495024_2_alg».proof.Proof.Gen.KernelIdeal.Skeleton
import proofs.«112822_j57062935495024_2_alg».proof.Proof.Accumulate
import proofs.«112822_j57062935495024_2_alg».proof.Proof.WeightRow

noncomputable section

namespace Cert.KernelIdeal.Pay

open Cert.KernelIdeal Cert.KernelIdeal.Gen Idealize.ShloMosaic Idealize.ShloMosaic.ValueIdx Cert.Devox

/-- The x-axis weight row of the body is `weightRow` of the four loaded rows. -/
theorem pay15_eq (v4 v13 : IVec S1x1024 32) (v22 v31 : FVec Ideal S1x1024 .f32) :
    k0_pay15 (F := Ideal) v4 v13 v22 v31
      = weightRow v4 v13 v22 v31 iota_S32x1024_d0_w32 broadcasts_S1x1024_S32x1024 shapeCasts_S1x1024_S1x1024 := rfl

set_option maxRecDepth 65536 in
/-- The stored block is the 32-step accumulation over the matrix product's result viewed 64 × 32 × 1024 and the x-axis
    weight row, viewed 1 × 64 × 1024. -/
theorem chain_eq (v4 v13 : IVec S1x1024 32) (v22 v31 : FVec Ideal S1x1024 .f32) (P : FVec Ideal S2048x1024 .f32) :
    k0_pay1 (F := Ideal) (k0_pay14 P) (k0_pay15 v4 v13 v22 v31)
        (k0_pay23 (k0_pay14 P) (k0_pay15 v4 v13 v22 v31)
          (k0_pay21 (k0_pay14 P) (k0_pay15 v4 v13 v22 v31)
            (k0_pay18 (k0_pay14 P) (k0_pay15 v4 v13 v22 v31) (k0_pay16 v4 v13 v22 v31 P) (k0_pay17 P))
            (k0_pay19 (k0_pay14 P)) (k0_pay20 (k0_pay15 v4 v13 v22 v31)))
          (k0_pay22 (k0_pay14 P)))
        (k0_pay24 (k0_pay14 P)) (k0_pay25 (k0_pay15 v4 v13 v22 v31))
      = shapeCast S1x64x1024 (accTo (k0_pay14 P) (k0_pay15 v4 v13 v22 v31) 32 (Nat.le_refl 32)) shapeCasts_S64x1024_S1x64x1024 := rfl

end Cert.KernelIdeal.Pay

end
-- ==== Proof.LibDot.lean ====
/-
  A plain matrix product `[M, K] × [K, N]` on the host, read at an index over the extended reals: entry `(n, j)` is
  `∑ k, H[n,k] · W[k,j]` — no rounding and no order of summation left in it.
-/
import Idealize.ShloMosaic.Lib.ValueIdx
import Idealize.ShloMosaic.PureOps.Ideal.Laws

noncomputable section

namespace Cert.Dot

open Idealize.ShloMosaic Idealize.ShloMosaic.ValueIdx

variable {M K N : Nat}

theorem lhs0 (i : (⟨2, ![M, N]⟩ : Shape).Idx) (q : (DotDims.plain M K N).contr.Idx) : ((DotDims.plain M K N).lhsIdx i q 0).val = (i 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl
theorem lhs1 (i : (⟨2, ![M, N]⟩ : Shape).Idx) (q : (DotDims.plain M K N).contr.Idx) : ((DotDims.plain M K N).lhsIdx i q 1).val = (q ⟨0, Nat.one_pos⟩).val :=
  (DotDims.plain M K N).lhsIdx_val_of_single rfl i q
theorem rhs0 (i : (⟨2, ![M, N]⟩ : Shape).Idx) (q : (DotDims.plain M K N).contr.Idx) : ((DotDims.plain M K N).rhsIdx i q 0).val = (q ⟨0, Nat.one_pos⟩).val :=
  (DotDims.plain M K N).rhsIdx_val_of_single rfl i q
theorem rhs1 (i : (⟨2, ![M, N]⟩ : Shape).Idx) (q : (DotDims.plain M K N).contr.Idx) : ((DotDims.plain M K N).rhsIdx i q 1).val = (i 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

/-- THE PRODUCT AT `(n, j)`: row `n` of the left operand against column `j` of the right one. -/
theorem plainDot_apply {φ₁ φ₂ : FTy} (H : FVec Ideal ⟨2, ![M, K]⟩ φ₁) (W : FVec Ideal ⟨2, ![K, N]⟩ φ₂) (n : Fin M) (j : Fin N) :
    Host.dotGeneral (F := Ideal) (DotDims.plain M K N) none H W (ix2 n j) = ∑ k : Fin K, H (ix2 n k) * W (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 n j) ((contrEquiv1 (DotDims.plain M K N) K rfl rfl).symm k) = ix2 n k := funext fun a => Fin.ext (by
    match a with
    | ⟨0, _⟩ => exact lhs0 _ _
    | ⟨1, _⟩ => exact (lhs1 _ _).trans hk)
  have er : (DotDims.plain M K N).rhsIdx (ix2 n j) ((contrEquiv1 (DotDims.plain M K N) K rfl rfl).symm k) = ix2 k j := funext fun a => Fin.ext (by
    match a with
    | ⟨0, _⟩ => exact (rhs0 _ _).trans hk
    | ⟨1, _⟩ => exact rhs1 _ _)
  rw [el, er]

end Cert.Dot

end
-- ==== Proof.LibRegroup.lean ====
/-
  A sum over `m · n` consecutive indices, grouped into `m` blocks of `n`: the sum over the blocks of the sums inside
  each block, in any commutative additive monoid.
-/
import Mathlib.Algebra.BigOperators.Fin
import Mathlib.Logic.Equiv.Fin.Basic
import Mathlib.Tactic.Ring

namespace Cert.Regroup

variable {M : Type*} [AddCommMonoid M]

/-- The sum over `Fin (m * n)` is the sum over blocks `q` and offsets `r` of the term at `n · q + r`. -/
theorem sum_blocks (m n : ℕ) (f : Fin (m * n) → M) :
    (∑ q : Fin m, ∑ r : Fin n, f ⟨n * q.val + r.val, by
        have hq := q.isLt; have hr := r.isLt
        calc n * q.val + r.val < n * q.val + n := by omega
          _ = n * (q.val + 1) := by ring
          _ ≤ n * m := Nat.mul_le_mul_left _ hq
          _ = m * n := Nat.mul_comm _ _⟩) = ∑ i : Fin (m * n), f i := by
  rw [← Equiv.sum_comp finProdFinEquiv f, Fintype.sum_prod_type]
  refine Finset.sum_congr rfl fun q _ => Finset.sum_congr rfl fun r _ => congrArg f (Fin.ext ?_)
  show n * q.val + r.val = (finProdFinEquiv (q, r)).val
  simp [finProdFinEquiv]
  ring

end Cert.Regroup
-- ==== Proof.Contract.lean ====
/-
  The contraction over y and z as one matrix product.

  The grid's channel rows are laid out as a matrix `A[r, q]` with `q = y · 32 + z`. The right operand is the outer
  product of the y and z weight rows, `O[q, k] = Wy[q / 32, k] · Wz[q % 32, k]`: `Wy` is given a unit middle axis and
  repeated along it, `Wz` a unit leading axis and repeated along it, the two `32 × 32 × 1024` arrays are multiplied and
  the two leading axes are merged row-major. Over the extended reals the change of format before the product is the
  identity, and the product into a zero accumulator is the plain sum over the contraction index; grouping that index
  into 32 blocks of 32 gives `Σ_y Σ_z A[r, y·32+z] · (Wy[y,k] · Wz[z,k])`.
-/
import proofs.«112822_j57062935495024_2_alg».proof.Proof.LibDot
import proofs.«112822_j57062935495024_2_alg».proof.Proof.LibRegroup
import Idealize.ShloMosaic.Lib.Pipeline.Value
import Idealize.ShloMosaic.Lib.ValueIdx
import Idealize.ShloMosaic.PureOps.Ideal.Laws

noncomputable section

namespace Cert.Devox

open Idealize.ShloMosaic Idealize.ShloMosaic.ValueIdx

/-- The grid as a matrix: 2048 channel-and-x rows by 1024 (y, z) columns; also the product's shape. -/
abbrev M2048xK : Shape := ⟨2, ![2048, 1024]⟩
/-- The right operand: 1024 (y, z) rows by 1024 points. -/
abbrev K1024xL : Shape := ⟨2, ![1024, 1024]⟩
/-- One axis's weight rows: 32 voxels by 1024 points. -/
abbrev Y32xL : Shape := ⟨2, ![32, 1024]⟩
abbrev Y32x1xL : Shape := ⟨3, ![32, 1, 1024]⟩
abbrev Y1x32xL : Shape := ⟨3, ![1, 32, 1024]⟩
abbrev Y32x32xL : Shape := ⟨3, ![32, 32, 1024]⟩

/-- The outer product of the y and z weight rows, with (y, z) merged row-major into one axis of 1024. -/
def outerYZ (Wy Wz : FVec Ideal Y32xL .f32) (h1 : Y32xL.ShapeCasts Y32x1xL) (h2 : Y32x1xL.Broadcasts Y32x32xL)
    (h3 : Y32xL.ShapeCasts Y1x32xL) (h4 : Y1x32xL.Broadcasts Y32x32xL) (h5 : Y32x32xL.ShapeCasts K1024xL) :
    FVec Ideal K1024xL .f32 :=
  shapeCast K1024xL (mulf (broadcastTo Y32x32xL (shapeCast Y32x1xL Wy h1) h2) (broadcastTo Y32x32xL (shapeCast Y1x32xL Wz h3) h4)) h5

/-- Row `y · 32 + z` of the outer product, at point `k`, is `Wy[y, k] · Wz[z, k]`. -/
theorem outerYZ_apply (Wy Wz : FVec Ideal Y32xL .f32) (h1 : Y32xL.ShapeCasts Y32x1xL) (h2 : Y32x1xL.Broadcasts Y32x32xL)
    (h3 : Y32xL.ShapeCasts Y1x32xL) (h4 : Y1x32xL.Broadcasts Y32x32xL) (h5 : Y32x32xL.ShapeCasts K1024xL)
    (y z : Fin 32) (k : Fin 1024) :
    outerYZ Wy Wz h1 h2 h3 h4 h5 (ix2 ⟨y.val * 32 + z.val, by have := y.isLt; have := z.isLt; omega⟩ k)
      = Wy (ix2 y k) * Wz (ix2 z k) := by
  unfold outerYZ
  -- the merged index (y·32+z, k) has the row-major position of (y, z, k)
  refine (shapeCast_apply _ h5 _ (ix3 y z k) (by
    rw [Shape.rowMajor_val_three, Shape.rowMajor_val_two]
    show (y.val * 32 + z.val) * 1024 + k.val = (y.val * 32 + z.val) * 1024 + k.val
    rfl)).trans ?_
  rw [mulf_apply]
  -- the y rows: repeated along the middle axis, which was inserted with extent one
  have ey : broadcastTo Y32x32xL (shapeCast Y32x1xL Wy h1) h2 (ix3 y z k) = Wy (ix2 y k) := by
    refine (broadcastTo_apply _ h2 (ix3 y z k) (ix3 y (0 : Fin 1) k) fun a => ?_).trans ?_
    · match a with
      | ⟨0, _⟩ => rfl
      | ⟨1, _⟩ => rfl
      | ⟨2, _⟩ => rfl
    · exact shapeCast_apply Wy h1 _ (ix2 y k) (by
        rw [Shape.rowMajor_val_three, Shape.rowMajor_val_two]
        show y.val * 1024 + k.val = (y.val * 1 + 0) * 1024 + k.val
        omega)
  -- the z rows: repeated along the leading axis, which was inserted with extent one
  have ez : broadcastTo Y32x32xL (shapeCast Y1x32xL Wz h3) h4 (ix3 y z k) = Wz (ix2 z k) := by
    refine (broadcastTo_apply _ h4 (ix3 y z k) (ix3 (0 : Fin 1) z k) fun a => ?_).trans ?_
    · match a with
      | ⟨0, _⟩ => rfl
      | ⟨1, _⟩ => rfl
      | ⟨2, _⟩ => rfl
    · exact shapeCast_apply Wz h3 _ (ix2 z k) (by
        rw [Shape.rowMajor_val_three, Shape.rowMajor_val_two]
        show z.val * 1024 + k.val = (0 * 32 + z.val) * 1024 + k.val
        omega)
  rw [ey, ez]

/-- A sum over 1024 consecutive indices, as 32 blocks of 32: the index `y · 32 + z`. -/
theorem sum_yz {M : Type} [AddCommMonoid M] (F : Fin 1024 → M) :
    ∑ q : Fin 1024, F q = ∑ y : Fin 32, ∑ z : Fin 32, F ⟨y.val * 32 + z.val, by have := y.isLt; have := z.isLt; omega⟩ := by
  refine (Cert.Regroup.sum_blocks 32 32 F).symm.trans ?_
  refine Finset.sum_congr rfl fun y _ => Finset.sum_congr rfl fun z _ => congrArg F (Fin.ext ?_)
  show 32 * y.val + z.val = y.val * 32 + z.val
  omega

/-- **The product at `(r, k)`**: `Σ_y Σ_z A[r, y·32+z] · (Wy[y,k] · Wz[z,k])`. -/
theorem contract_apply (d : DotDims M2048xK K1024xL M2048xK) (hd : d = DotDims.plain 2048 1024 1024)
    (A : FVec Ideal M2048xK .bf16) (Wy Wz : FVec Ideal Y32xL .f32) (h1 : Y32xL.ShapeCasts Y32x1xL)
    (h2 : Y32x1xL.Broadcasts Y32x32xL) (h3 : Y32xL.ShapeCasts Y1x32xL) (h4 : Y1x32xL.Broadcasts Y32x32xL)
    (h5 : Y32x32xL.ShapeCasts K1024xL) (hb : FTy.bits .bf16 < FTy.bits .f32) (r : Fin 2048) (k : Fin 1024) :
    matmul d none A (truncf .bf16 (outerYZ Wy Wz h1 h2 h3 h4 h5) hb) (constant M2048xK .f32 0x00000000#32) (ix2 r k)
      = ∑ y : Fin 32, ∑ z : Fin 32,
          A (ix2 r ⟨y.val * 32 + z.val, by have := y.isLt; have := z.isLt; omega⟩) * (Wy (ix2 y k) * Wz (ix2 z k)) := by
  subst hd
  -- into a zero accumulator the product is the sum over the contraction index, the same sum as the host's product
  have hdot := Cert.Dot.plainDot_apply (M := 2048) (K := 1024) (N := 1024) A (truncf .bf16 (outerYZ Wy Wz h1 h2 h3 h4 h5) hb) r k
  simp only [Host.dotGeneral] at hdot
  rw [Ideal.dotGeneral_apply] at hdot
  simp only [matmul]
  rw [Ideal.matmul_constant_zero_apply]
  refine hdot.trans ?_
  rw [sum_yz]
  refine Finset.sum_congr rfl fun y _ => Finset.sum_congr rfl fun z _ => ?_
  rw [truncf_apply, outerYZ_apply]

end Cert.Devox

end
-- ==== Proof.KernelPay.lean ====
/-
  What the kernel body leaves in its result block, as a function of its five input blocks: at entry `(c, k)` of the
  64 × 1024 block, `Σ_x (Σ_y Σ_z A[c·32 + x, y·32 + z] · (Wy[y, k] · Wz[z, k])) · Wx[x, k]`, where `A` is the grid's
  2048 × 1024 matrix block and `Wx`, `Wy`, `Wz` are the three axes' weight rows of point `k`, built from row 0, 1, 2 of the
  index and weight blocks. The y–z contraction is the body's one matrix product; the x contraction its 32 accumulation
  steps.
-/
import proofs.«112822_j57062935495024_2_alg».proof.Proof.Gen.KernelIdeal.Frame
import proofs.«112822_j57062935495024_2_alg».proof.Proof.KernelForm
import proofs.«112822_j57062935495024_2_alg».proof.Proof.PayChain
import proofs.«112822_j57062935495024_2_alg».proof.Proof.Contract
import Idealize.ShloMosaic.Lib.Pipeline.Value

noncomputable section

namespace Cert.KernelIdeal.Pay

open Cert.KernelIdeal Cert.KernelIdeal.Gen Idealize.ShloMosaic Idealize.ShloMosaic.ValueIdx Cert.Devox

/-! ## The loads -/

/-- A 1 × 1 × 1024 row viewed as a vector and then as a 1 × 1024 row keeps its entries. -/
theorem castRow_apply {α : Type} (v : S1x1x1024.Idx → α) (k : Fin 1024) :
    shapeCast S1x1024 (shapeCast S1024 v shapeCasts_S1x1x1024_S1024) shapeCasts_S1024_S1x1024 (ix2 (0 : Fin 1) k)
      = v (ix3 (0 : Fin 1) (0 : Fin 1) k) := by
  rw [shapeCast_apply _ shapeCasts_S1024_S1x1024 (ix2 (0 : Fin 1) k) (ix1 k) (by
    rw [Shape.rowMajor_val_one, Shape.rowMajor_val_two]; show k.val = 0 * 1024 + k.val; omega)]
  exact shapeCast_apply _ shapeCasts_S1x1x1024_S1024 (ix1 k) (ix3 0 0 k) (by
    rw [Shape.rowMajor_val_three, Shape.rowMajor_val_one]; show (0 * 1 + 0) * 1024 + k.val = k.val; omega)

/-- Row 0, 1, 2 of a 1 × 3 × 1024 block, loaded through the row's rectangle. -/
theorem ld_row0 {e : EltTy} (x : Vec Ideal S1x3x1024 e) (k : Fin 1024) :
    View.ld x r0_1 (ix3 (0 : Fin 1) (0 : Fin 1) k) = x (ix3 (0 : Fin 1) (0 : Fin 3) k) := by
  show x _ = x _
  congr 1; funext a
  match a with
  | ⟨0, _⟩ => rfl
  | ⟨1, _⟩ => rfl
  | ⟨2, _⟩ => exact Fin.ext (by simp [ix3])
theorem ld_row1 {e : EltTy} (x : Vec Ideal S1x3x1024 e) (k : Fin 1024) :
    View.ld x r0_2 (ix3 (0 : Fin 1) (0 : Fin 1) k) = x (ix3 (0 : Fin 1) (1 : Fin 3) k) := by
  show x _ = x _
  congr 1; funext a
  match a with
  | ⟨0, _⟩ => rfl
  | ⟨1, _⟩ => rfl
  | ⟨2, _⟩ => exact Fin.ext (by simp [ix3])
theorem ld_row2 {e : EltTy} (x : Vec Ideal S1x3x1024 e) (k : Fin 1024) :
    View.ld x r0_3 (ix3 (0 : Fin 1) (0 : Fin 1) k) = x (ix3 (0 : Fin 1) (2 : Fin 3) k) := by
  show x _ = x _
  congr 1; funext a
  match a with
  | ⟨0, _⟩ => rfl
  | ⟨1, _⟩ => rfl
  | ⟨2, _⟩ => exact Fin.ext (by simp [ix3])

theorem zero3 : (![0, 0, 0] : Fin 3 → ℕ) = fun _ => 0 := by
  funext a
  match a with
  | ⟨0, _⟩ => rfl
  | ⟨1, _⟩ => rfl
  | ⟨2, _⟩ => rfl

/-- The grid's block, loaded whole and viewed 2048 × 1024. -/
theorem mat_apply (x0 : Vec Ideal S1x2048x1024 .bf16) (r : Fin 2048) (q : Fin 1024) :
    k0_pay2 (F := Ideal) (View.ld x0 r0_0) (ix2 r q) = x0 (ix3 (0 : Fin 1) r q) := by
  unfold k0_pay2
  rw [View.ld_unit_zero (S := S1x2048x1024) zero3]
  exact shapeCast_apply _ shapeCasts_S1x2048x1024_S2048x1024 (ix2 r q) (ix3 0 r q) (by
    rw [Shape.rowMajor_val_three, Shape.rowMajor_val_two]; show (0 * 2048 + r.val) * 1024 + q.val = r.val * 1024 + q.val; omega)

/-! ## The matrix product -/

/-- The body's matrix product is the contraction of the grid's matrix block with the outer product of the y and z
    weight rows. -/
theorem pay13_eq (v1 : FVec Ideal S2048x1024 .bf16) (v7 v10 v16 v19 : IVec S1x1024 32) (v25 : FVec Ideal S1x1024 .f32)
    (v27 : FVec Ideal S1024 .f32) (v32 v35 : Vec Ideal S1x1x1024 .f32) :
    k0_pay13 (F := Ideal) v1 v7 v10 v16 v19 v25 v27 v32 v35
      = matmul dot_S2048x1024_S1024x1024_S2048x1024_1_0_0_1_n_n none v1
          (truncf .bf16 (outerYZ
            (weightRow v7 v16 v25 (shapeCast S1x1024 (shapeCast S1024 v32 shapeCasts_S1x1x1024_S1024) shapeCasts_S1024_S1x1024)
              iota_S32x1024_d0_w32 broadcasts_S1x1024_S32x1024 shapeCasts_S1x1024_S1x1024)
            (weightRow v10 v19 (shapeCast S1x1024 v27 shapeCasts_S1024_S1x1024)
              (shapeCast S1x1024 (shapeCast S1024 v35 shapeCasts_S1x1x1024_S1024) shapeCasts_S1024_S1x1024)
              iota_S32x1024_d0_w32 broadcasts_S1x1024_S32x1024 shapeCasts_S1x1024_S1x1024)
            shapeCasts_S32x1024_S32x1x1024 broadcasts_S32x1x1024_S32x32x1024 shapeCasts_S32x1024_S1x32x1024
            broadcasts_S1x32x1024_S32x32x1024 shapeCasts_S32x32x1024_S1024x1024) bitsLt_bf16_f32)
          (constant S2048x1024 .f32 0x00000000#32) := rfl

/-- The matrix product's entry `(r, k)`, from the blocks. -/
theorem prod_apply (x0 : Vec Ideal S1x2048x1024 .bf16) (x1 x2 : Vec Ideal S1x3x1024 .i32) (x3 x4 : Vec Ideal S1x3x1024 .f32)
    (r : Fin 2048) (k : Fin 1024) :
    k0_pay13 (F := Ideal) (k0_pay2 (View.ld x0 r0_0)) (k0_pay4 (View.ld x1 r0_2)) (k0_pay5 (View.ld x1 r0_3))
        (k0_pay7 (View.ld x2 r0_2)) (k0_pay8 (View.ld x2 r0_3)) (k0_pay10 (View.ld x3 r0_2)) (k0_pay11 (View.ld x3 r0_3))
        (View.ld x4 r0_2) (View.ld x4 r0_3) (ix2 r k)
      = ∑ y : Fin 32, ∑ z : Fin 32,
          x0 (ix3 (0 : Fin 1) r ⟨y.val * 32 + z.val, by have := y.isLt; have := z.isLt; omega⟩)
            * (hot y (x1 (ix3 0 1 k)) (x2 (ix3 0 1 k)) (x3 (ix3 0 1 k)) (x4 (ix3 0 1 k))
                * hot z (x1 (ix3 0 2 k)) (x2 (ix3 0 2 k)) (x3 (ix3 0 2 k)) (x4 (ix3 0 2 k))) := by
  rw [pay13_eq, contract_apply dot_S2048x1024_S1024x1024_S2048x1024_1_0_0_1_n_n rfl]
  refine Finset.sum_congr rfl fun y _ => Finset.sum_congr rfl fun z _ => ?_
  rw [mat_apply, weightRow_apply, weightRow_apply]
  unfold k0_pay4 k0_pay5 k0_pay7 k0_pay8 k0_pay10 k0_pay11
  rw [castRow_apply, castRow_apply, castRow_apply, castRow_apply, castRow_apply, castRow_apply, castRow_apply, castRow_apply,
    ld_row1, ld_row1, ld_row1, ld_row1, ld_row2, ld_row2, ld_row2, ld_row2]

/-- The x-axis weight row's entry `(x, k)`, from the blocks. -/
theorem rowX_apply (x1 x2 : Vec Ideal S1x3x1024 .i32) (x3 x4 : Vec Ideal S1x3x1024 .f32) (x : Fin 32) (k : Fin 1024) :
    k0_pay15 (F := Ideal) (k0_pay3 (View.ld x1 r0_1)) (k0_pay6 (View.ld x2 r0_1)) (k0_pay9 (View.ld x3 r0_1))
        (k0_pay12 (View.ld x4 r0_1)) (ix2 x k)
      = hot x (x1 (ix3 0 0 k)) (x2 (ix3 0 0 k)) (x3 (ix3 0 0 k)) (x4 (ix3 0 0 k)) := by
  rw [pay15_eq, weightRow_apply]
  unfold k0_pay3 k0_pay6 k0_pay9 k0_pay12
  rw [castRow_apply, castRow_apply, castRow_apply, castRow_apply, ld_row0, ld_row0, ld_row0, ld_row0]

/-! ## The result block -/

/-- The body's result block is `blockK` of its input blocks. -/
theorem out_eq_blockK (x0 : Vec Ideal S1x2048x1024 .bf16) (x1 x2 : Vec Ideal S1x3x1024 .i32) (x3 x4 : Vec Ideal S1x3x1024 .f32) :
    out0_5 (F := Ideal) x0 x1 x2 x3 x4 = blockK x0 x1 x2 x3 x4 := by
  funext q
  obtain ⟨c, k, rfl⟩ : ∃ (c : Fin 64) (k : Fin 1024), q = ix3 (0 : Fin 1) c k := ⟨q 1, q 2, by
    funext a
    match a with
    | ⟨0, _⟩ => exact Fin.ext (by have h : (q 0).val < 1 := (q 0).isLt; show (q 0).val = 0; omega)
    | ⟨1, _⟩ => rfl
    | ⟨2, _⟩ => rfl⟩
  unfold out0_5
  rw [View.canon_unit_zero (S := S1x64x1024) zero3]
  refine (congrFun (chain_eq _ _ _ _ _) _).trans ?_
  rw [shapeCast_apply _ shapeCasts_S64x1024_S1x64x1024 (ix3 (0 : Fin 1) c k) (ix2 c k) (by
    rw [Shape.rowMajor_val_two, Shape.rowMajor_val_three]; show c.val * 1024 + k.val = (0 * 64 + c.val) * 1024 + k.val; omega)]
  rw [accTo_apply]
  unfold blockK
  refine Finset.sum_congr rfl fun x _ => ?_
  rw [rowX_apply]
  unfold k0_pay14
  rw [shapeCast_apply _ shapeCasts_S2048x1024_S64x32x1024 (ix3 c ⟨x.val, by have := x.isLt; omega⟩ k)
    (ix2 ⟨c.val * 32 + x.val, by have := c.isLt; have := x.isLt; omega⟩ k) (by
      rw [Shape.rowMajor_val_two, Shape.rowMajor_val_three]
      show (c.val * 32 + x.val) * 1024 + k.val = (c.val * 32 + x.val) * 1024 + k.val; rfl)]
  rw [prod_apply]

end Cert.KernelIdeal.Pay

end
-- ==== Proof.KernelArray.lean ====
/-
  The kernel's result array, as ONE function of the two argument arrays.

  Before its grid runs, the program computes from the points `x[b, a, n]` the per-point arrays of the first stage — the
  lower and upper index words, the lower weight `1 − vox` and the upper weight `vox` — and lays the voxel grid of each
  batch out as a 2048 × 1024 matrix (row `c·32 + x`, column `y·32 + z`). The grid has 8 × 64 points; point `(b, k)` reads
  batch `b`'s matrix and columns `1024·k … 1024·k + 1023` of the four per-point arrays of batch `b`, and writes the
  64 × 1024 block of the result at batch `b`, the same columns. Given that one point's block is `blockK` of its input
  blocks, every block written is the restriction of `K` of the whole arrays; the blocks tile the result array, so the
  array ends holding `K`.
-/
import proofs.«112822_j57062935495024_2_alg».proof.Proof.Gen.KernelIdeal.Frame
import proofs.«112822_j57062935495024_2_alg».proof.Proof.Terms
import proofs.«112822_j57062935495024_2_alg».proof.Proof.KernelForm
import Idealize.ShloMosaic.Lib.Pipeline.Value
import Idealize.ShloMosaic.Lib.StableHlo.Run
import Idealize.ShloMosaic.Lib.ValueIdx

noncomputable section

namespace Cert.KernelIdeal.Array

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the grid reads, as terms of the argument arrays -/

/-- The points core `c` is launched with. -/
abbrev pts (c : Dev nD) : FVec Ideal Cert.Devox.SP .f32 := m ((c : Thread nD τ).loc main_arg0)
/-- The voxel grid core `c` is launched with. -/
abbrev vgrid (c : Dev nD) : FVec Ideal Cert.Devox.SF .f32 := m ((c : Thread nD τ).loc main_arg1)

/-- The lower index words are the first stage's `⌊vox⌋`. -/
theorem V_ilo (c : Dev nD) : (V m c main_v14 : S8x3x65536.Idx → BitVec 32) = Cert.Devox.ilo (pts m c) := by
  dsimp only [Gen.V]
  simp only [Gen.hostOps0, Gen.hostOps0_1, Gen.hostOps0_2, List.flatten_cons, List.flatten_nil, List.append_nil,
    List.cons_append, List.nil_append]
  after_results
  rfl

/-- The upper index words are the first stage's `⌈vox⌉`. -/
theorem V_ihi (c : Dev nD) : (V m c main_v16 : S8x3x65536.Idx → BitVec 32) = Cert.Devox.ihi (pts m c) := by
  dsimp only [Gen.V]
  simp only [Gen.hostOps0, Gen.hostOps0_1, Gen.hostOps0_2, List.flatten_cons, List.flatten_nil, List.append_nil,
    List.cons_append, List.nil_append]
  after_results
  rfl

/-- The lower weights are the first stage's `1 − vox`. -/
theorem V_wlo (c : Dev nD) : (V m c main_v12 : S8x3x65536.Idx → EReal) = Cert.Devox.wlo (pts m c) := by
  dsimp only [Gen.V]
  simp only [Gen.hostOps0, Gen.hostOps0_1, Gen.hostOps0_2, List.flatten_cons, List.flatten_nil, List.append_nil,
    List.cons_append, List.nil_append]
  after_results
  rfl

/-- The upper weights are the first stage's `vox`. -/
theorem V_vox (c : Dev nD) : (V m c main_v10 : S8x3x65536.Idx → EReal) = Cert.Devox.vox (pts m c) := by
  dsimp only [Gen.V]
  simp only [Gen.hostOps0, Gen.hostOps0_1, Gen.hostOps0_2, List.flatten_cons, List.flatten_nil, List.append_nil,
    List.cons_append, List.nil_append]
  after_results
  rfl

/-- The matrices the grid reads are the voxel grid reshaped (the conversion to the narrower format is exact here). -/
theorem V_mat (c : Dev nD) : (V m c main_v18 : S8x2048x1024.Idx → EReal)
    = truncf .bf16 (shapeCast S8x2048x1024 (vgrid m c) shapeCasts_S8x64x32x32x32_S8x2048x1024) bitsLt_bf16_f32 := by
  dsimp only [Gen.V]
  simp only [Gen.hostOps0, Gen.hostOps0_1, Gen.hostOps0_2, List.flatten_cons, List.flatten_nil, List.append_nil,
    List.cons_append, List.nil_append]
  after_results
  rfl

/-- Row `ch·32 + x`, column `y·32 + z` of batch `b`'s matrix is the grid's voxel `(b, ch, x, y, z)`. -/
theorem V_mat_apply (c : Dev nD) (b : Fin 8) (ch : Fin 64) (x y z : Fin 32) (j : S8x2048x1024.Idx)
    (h0 : (j 0).val = b.val) (h1 : (j 1).val = ch.val * 32 + x.val) (h2 : (j 2).val = y.val * 32 + z.val) :
    (V m c main_v18 : S8x2048x1024.Idx → EReal) j = vgrid m c (ix5 b ch x y z) := by
  rw [V_mat, truncf_apply]
  refine shapeCast_apply _ _ j (ix5 b ch x y z) ?_
  rw [Shape.rowMajor_val_five, Shape.rowMajor_val_three]
  show ((((b.val * 64 + ch.val) * 32 + x.val) * 32 + y.val) * 32 + z.val) = ((j 0).val * 2048 + (j 1).val) * 1024 + (j 2).val
  rw [h0, h1, h2]
  have := x.isLt; have := y.isLt; have := z.isLt
  omega

/-! ## The blocks a grid point reads -/

/-- The printed index maps, decided once over the 512 grid points: point `t` is point `(t / 64, t % 64)`; the result's
    block index there is `(t / 64, 0, t % 64)`, each per-point array's is the same, and the matrix's is `(t / 64, 0, 0)`. -/
theorem idx_facts : ∀ t : Fin cfg0.N,
    win0_5.index t (0 : Fin 3) = t.val / 64 ∧ win0_5.index t (1 : Fin 3) = 0 ∧ win0_5.index t (2 : Fin 3) = t.val % 64
    ∧ win0_0.index t (0 : Fin 3) = win0_5.index t (0 : Fin 3) ∧ win0_0.index t (1 : Fin 3) = 0 ∧ win0_0.index t (2 : Fin 3) = 0
    ∧ win0_1.index t (0 : Fin 3) = win0_5.index t (0 : Fin 3) ∧ win0_1.index t (1 : Fin 3) = 0 ∧ win0_1.index t (2 : Fin 3) = win0_5.index t (2 : Fin 3)
    ∧ win0_2.index t (0 : Fin 3) = win0_5.index t (0 : Fin 3) ∧ win0_2.index t (1 : Fin 3) = 0 ∧ win0_2.index t (2 : Fin 3) = win0_5.index t (2 : Fin 3)
    ∧ win0_3.index t (0 : Fin 3) = win0_5.index t (0 : Fin 3) ∧ win0_3.index t (1 : Fin 3) = 0 ∧ win0_3.index t (2 : Fin 3) = win0_5.index t (2 : Fin 3)
    ∧ win0_4.index t (0 : Fin 3) = win0_5.index t (0 : Fin 3) ∧ win0_4.index t (1 : Fin 3) = 0 ∧ win0_4.index t (2 : Fin 3) = win0_5.index t (2 : Fin 3) :=
  (by decide +kernel : ∀ t : Fin grid0.N, _)

/-- An entry of window 0's block at point `t`, read off any array of the matrices' shape, is the array's entry at block index × block size + the entry's own coordinate, axis by axis. -/
theorem read0_apply (t : Fin cfg0.N) (A : S8x2048x1024.Idx → EReal) (y : S1x2048x1024.Idx) (k : S8x2048x1024.Idx)
    (h0 : (k 0).val = win0_0.index t (0 : Fin 3) * 1 + (y 0).val)
    (h1 : (k 1).val = win0_0.index t (1 : Fin 3) * 2048 + (y 1).val)
    (h2 : (k 2).val = win0_0.index t (2 : Fin 3) * 1024 + (y 2).val) :
    (((cfg0.win 0).blk t).view.read (Elt Ideal) A : S1x2048x1024.Idx → EReal) y = A k := by
  rw [View.read_apply]
  show A _ = A _
  refine congrArg A (funext fun a => Fin.ext ?_)
  match a with
  | ⟨0, _⟩ => show win0_0.index t (0 : Fin 3) * 1 + 1 * (y 0).val = (k 0).val; omega
  | ⟨1, _⟩ => show win0_0.index t (1 : Fin 3) * 2048 + 1 * (y 1).val = (k 1).val; omega
  | ⟨2, _⟩ => show win0_0.index t (2 : Fin 3) * 1024 + 1 * (y 2).val = (k 2).val; omega

/-- The same for window 1 (the lower index words), -/
theorem read1_apply (t : Fin cfg0.N) (A : S8x3x65536.Idx → BitVec 32) (y : S1x3x1024.Idx) (k : S8x3x65536.Idx)
    (h0 : (k 0).val = win0_1.index t (0 : Fin 3) * 1 + (y 0).val)
    (h1 : (k 1).val = win0_1.index t (1 : Fin 3) * 3 + (y 1).val)
    (h2 : (k 2).val = win0_1.index t (2 : Fin 3) * 1024 + (y 2).val) :
    (((cfg0.win 1).blk t).view.read (Elt Ideal) A : S1x3x1024.Idx → BitVec 32) y = A k := by
  rw [View.read_apply]
  show A _ = A _
  refine congrArg A (funext fun a => Fin.ext ?_)
  match a with
  | ⟨0, _⟩ => show win0_1.index t (0 : Fin 3) * 1 + 1 * (y 0).val = (k 0).val; omega
  | ⟨1, _⟩ => show win0_1.index t (1 : Fin 3) * 3 + 1 * (y 1).val = (k 1).val; omega
  | ⟨2, _⟩ => show win0_1.index t (2 : Fin 3) * 1024 + 1 * (y 2).val = (k 2).val; omega

/-- window 2 (the upper index words), -/
theorem read2_apply (t : Fin cfg0.N) (A : S8x3x65536.Idx → BitVec 32) (y : S1x3x1024.Idx) (k : S8x3x65536.Idx)
    (h0 : (k 0).val = win0_2.index t (0 : Fin 3) * 1 + (y 0).val)
    (h1 : (k 1).val = win0_2.index t (1 : Fin 3) * 3 + (y 1).val)
    (h2 : (k 2).val = win0_2.index t (2 : Fin 3) * 1024 + (y 2).val) :
    (((cfg0.win 2).blk t).view.read (Elt Ideal) A : S1x3x1024.Idx → BitVec 32) y = A k := by
  rw [View.read_apply]
  show A _ = A _
  refine congrArg A (funext fun a => Fin.ext ?_)
  match a with
  | ⟨0, _⟩ => show win0_2.index t (0 : Fin 3) * 1 + 1 * (y 0).val = (k 0).val; omega
  | ⟨1, _⟩ => show win0_2.index t (1 : Fin 3) * 3 + 1 * (y 1).val = (k 1).val; omega
  | ⟨2, _⟩ => show win0_2.index t (2 : Fin 3) * 1024 + 1 * (y 2).val = (k 2).val; omega

/-- window 3 (the lower weights), -/
theorem read3_apply (t : Fin cfg0.N) (A : S8x3x65536.Idx → EReal) (y : S1x3x1024.Idx) (k : S8x3x65536.Idx)
    (h0 : (k 0).val = win0_3.index t (0 : Fin 3) * 1 + (y 0).val)
    (h1 : (k 1).val = win0_3.index t (1 : Fin 3) * 3 + (y 1).val)
    (h2 : (k 2).val = win0_3.index t (2 : Fin 3) * 1024 + (y 2).val) :
    (((cfg0.win 3).blk t).view.read (Elt Ideal) A : S1x3x1024.Idx → EReal) y = A k := by
  rw [View.read_apply]
  show A _ = A _
  refine congrArg A (funext fun a => Fin.ext ?_)
  match a with
  | ⟨0, _⟩ => show win0_3.index t (0 : Fin 3) * 1 + 1 * (y 0).val = (k 0).val; omega
  | ⟨1, _⟩ => show win0_3.index t (1 : Fin 3) * 3 + 1 * (y 1).val = (k 1).val; omega
  | ⟨2, _⟩ => show win0_3.index t (2 : Fin 3) * 1024 + 1 * (y 2).val = (k 2).val; omega

/-- and window 4 (the upper weights). -/
theorem read4_apply (t : Fin cfg0.N) (A : S8x3x65536.Idx → EReal) (y : S1x3x1024.Idx) (k : S8x3x65536.Idx)
    (h0 : (k 0).val = win0_4.index t (0 : Fin 3) * 1 + (y 0).val)
    (h1 : (k 1).val = win0_4.index t (1 : Fin 3) * 3 + (y 1).val)
    (h2 : (k 2).val = win0_4.index t (2 : Fin 3) * 1024 + (y 2).val) :
    (((cfg0.win 4).blk t).view.read (Elt Ideal) A : S1x3x1024.Idx → EReal) y = A k := by
  rw [View.read_apply]
  show A _ = A _
  refine congrArg A (funext fun a => Fin.ext ?_)
  match a with
  | ⟨0, _⟩ => show win0_4.index t (0 : Fin 3) * 1 + 1 * (y 0).val = (k 0).val; omega
  | ⟨1, _⟩ => show win0_4.index t (1 : Fin 3) * 3 + 1 * (y 1).val = (k 1).val; omega
  | ⟨2, _⟩ => show win0_4.index t (2 : Fin 3) * 1024 + 1 * (y 2).val = (k 2).val; omega

/-! ## One point's block is a block of `K` -/

/-- The hypothesis on the kernel body: from one grid point's input blocks it leaves `blockK` of them in the result's block. -/
abbrev BodyIsBlockK : Prop :=
  ∀ (x0 : Vec Ideal S1x2048x1024 .bf16) (x1 x2 : Vec Ideal S1x3x1024 .i32) (x3 x4 : Vec Ideal S1x3x1024 .f32),
    out0_5 (F := Ideal) x0 x1 x2 x3 x4 = Cert.Devox.blockK x0 x1 x2 x3 x4

/-- The contraction `blockK` and `K` share: of a 32 × 32 × 32 array `f` with the three weight rows made from the index
    words `vl a`, `vr a` and the weights `wa a`, `wb a` of the axes `a = 0, 1, 2` — over y and z first, then over x. -/
def contract (f : Fin 32 → Fin 32 → Fin 32 → EReal) (vl vr : Fin 3 → BitVec 32) (wa wb : Fin 3 → EReal) : EReal :=
  ∑ x : Fin 32, (∑ y : Fin 32, ∑ z : Fin 32, f x y z
      * (Cert.Devox.hot y (vl 1) (vr 1) (wa 1) (wb 1) * Cert.Devox.hot z (vl 2) (vr 2) (wa 2) (wb 2)))
    * Cert.Devox.hot x (vl 0) (vr 0) (wa 0) (wb 0)

theorem blockK_eq_contract (x0 : Cert.Devox.SB0.Idx → EReal) (x1 x2 : Cert.Devox.SB1.Idx → BitVec 32)
    (x3 x4 : Cert.Devox.SB1.Idx → EReal) (q : Cert.Devox.SB5.Idx) :
    Cert.Devox.blockK x0 x1 x2 x3 x4 q
      = contract (fun x y z => x0 (ix3 0 ⟨(q 1).val * 32 + x.val, by have h1 : (q 1).val < 64 := (q 1).isLt; have := x.isLt; omega⟩
            ⟨y.val * 32 + z.val, by have := y.isLt; have := z.isLt; omega⟩))
          (fun a => x1 (ix3 0 a (q 2))) (fun a => x2 (ix3 0 a (q 2))) (fun a => x3 (ix3 0 a (q 2))) (fun a => x4 (ix3 0 a (q 2))) := rfl

theorem K_eq_contract (feat : Cert.Devox.SF.Idx → EReal) (il ir : Cert.Devox.SP.Idx → BitVec 32)
    (wl wr : Cert.Devox.SP.Idx → EReal) (j : Cert.Devox.SO.Idx) :
    Cert.Devox.K feat il ir wl wr j
      = contract (fun x y z => feat (ix5 (j 0) (j 1) x y z)) (fun a => il (ix3 (j 0) a (j 2))) (fun a => ir (ix3 (j 0) a (j 2)))
          (fun a => wl (ix3 (j 0) a (j 2))) (fun a => wr (ix3 (j 0) a (j 2))) := rfl

/-- `blockK` at an entry `q` of a block is `K` at an index `j` of the array, for any blocks and arrays such that the
    matrix block's row `(q 1)·32 + x`, column `y·32 + z` is the grid's voxel `(j 0, j 1, x, y, z)`, and column `q 2` of each
    per-point block is column `j 2` of batch `j 0` of its array: both are the same contraction. -/
theorem blockK_eq_K (feat : Cert.Devox.SF.Idx → EReal) (il ir : Cert.Devox.SP.Idx → BitVec 32) (wl wr : Cert.Devox.SP.Idx → EReal)
    (x0 : Cert.Devox.SB0.Idx → EReal) (x1 x2 : Cert.Devox.SB1.Idx → BitVec 32) (x3 x4 : Cert.Devox.SB1.Idx → EReal)
    (q : Cert.Devox.SB5.Idx) (j : Cert.Devox.SO.Idx)
    (h0 : ∀ x y z : Fin 32, x0 (ix3 0 ⟨(q 1).val * 32 + x.val, by have h1 : (q 1).val < 64 := (q 1).isLt; have := x.isLt; omega⟩
        ⟨y.val * 32 + z.val, by have := y.isLt; have := z.isLt; omega⟩) = feat (ix5 (j 0) (j 1) x y z))
    (h1 : ∀ a : Fin 3, x1 (ix3 0 a (q 2)) = il (ix3 (j 0) a (j 2)))
    (h2 : ∀ a : Fin 3, x2 (ix3 0 a (q 2)) = ir (ix3 (j 0) a (j 2)))
    (h3 : ∀ a : Fin 3, x3 (ix3 0 a (q 2)) = wl (ix3 (j 0) a (j 2)))
    (h4 : ∀ a : Fin 3, x4 (ix3 0 a (q 2)) = wr (ix3 (j 0) a (j 2))) :
    Cert.Devox.blockK x0 x1 x2 x3 x4 q = Cert.Devox.K feat il ir wl wr j := by
  rw [blockK_eq_contract, K_eq_contract, funext h1, funext h2, funext h3, funext h4,
    (funext fun x => funext fun y => funext fun z => h0 x y z :
      (fun x y z : Fin 32 => x0 (ix3 0 ⟨(q 1).val * 32 + x.val, by have h1 : (q 1).val < 64 := (q 1).isLt; have := x.isLt; omega⟩
        ⟨y.val * 32 + z.val, by have := y.isLt; have := z.isLt; omega⟩)) = fun x y z => feat (ix5 (j 0) (j 1) x y z))]

/-- Entry `q` of `blockK` of point `t`'s blocks — read off any arrays of the windows' shapes — is `K` of those arrays at
    the index of the result array where the result's block at `t` puts `q`: batch `t / 64`, channel `q 1`, point
    `1024 · (t % 64) + q 2`. The matrix block is batch `t / 64`'s whole matrix (`hA0`: the matrices are the voxel grid
    laid out with row `ch·32 + x`, column `y·32 + z`), and each per-point block is the same 1024 columns of the same batch. -/
theorem block_eq (t : Fin cfg0.N) (A0 : S8x2048x1024.Idx → EReal) (A1 A2 : S8x3x65536.Idx → BitVec 32)
    (A3 A4 : S8x3x65536.Idx → EReal) (feat : Cert.Devox.SF.Idx → EReal)
    (hA0 : ∀ (b : Fin 8) (ch : Fin 64) (x y z : Fin 32) (k : S8x2048x1024.Idx), (k 0).val = b.val →
      (k 1).val = ch.val * 32 + x.val → (k 2).val = y.val * 32 + z.val → A0 k = feat (ix5 b ch x y z))
    (q : S1x64x1024.Idx) (j : S8x64x65536.Idx)
    (hj0 : (j 0).val = win0_5.index t (0 : Fin 3) * 1 + 1 * (q 0).val)
    (hj1 : (j 1).val = win0_5.index t (1 : Fin 3) * 64 + 1 * (q 1).val)
    (hj2 : (j 2).val = win0_5.index t (2 : Fin 3) * 1024 + 1 * (q 2).val) :
    Cert.Devox.blockK (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4) q
      = Cert.Devox.K feat A1 A2 A3 A4 j := by
  obtain ⟨e50, e51, e52, e00, e01, e02, e10, e11, e12, e20, e21, e22, e30, e31, e32, e40, e41, e42⟩ := idx_facts t
  have hq0 : (q 0).val < 1 := (q 0).isLt
  have hq1 : (q 1).val < 64 := (q 1).isLt
  have hq2 : (q 2).val < 1024 := (q 2).isLt
  refine blockK_eq_K feat A1 A2 A3 A4 (((cfg0.win 0).blk t).view.read (Elt Ideal) A0)
    (((cfg0.win 1).blk t).view.read (Elt Ideal) A1) (((cfg0.win 2).blk t).view.read (Elt Ideal) A2)
    (((cfg0.win 3).blk t).view.read (Elt Ideal) A3) (((cfg0.win 4).blk t).view.read (Elt Ideal) A4) q j
    (fun x y z => ?_) (fun a => ?_) (fun a => ?_) (fun a => ?_) (fun a => ?_)
  · have hx := x.isLt
    have hy := y.isLt
    have hz := z.isLt
    have hj1' : (j 1).val < 64 := (j 1).isLt
    have hk1 : (j 1).val * 32 + x.val < 2048 := by omega
    have hk2 : y.val * 32 + z.val < 1024 := by omega
    have hr := read0_apply t A0 (ix3 0 ⟨(q 1).val * 32 + x.val, by omega⟩ ⟨y.val * 32 + z.val, hk2⟩)
      (ix3 (j 0) ⟨(j 1).val * 32 + x.val, hk1⟩ ⟨y.val * 32 + z.val, hk2⟩)
      (by show (j 0).val = win0_0.index t (0 : Fin 3) * 1 + 0; omega)
      (by show (j 1).val * 32 + x.val = win0_0.index t (1 : Fin 3) * 2048 + ((q 1).val * 32 + x.val); omega)
      (by show y.val * 32 + z.val = win0_0.index t (2 : Fin 3) * 1024 + (y.val * 32 + z.val); omega)
    exact hr.trans (hA0 (j 0) (j 1) x y z _ rfl rfl rfl)
  · exact read1_apply t A1 (ix3 0 a (q 2)) (ix3 (j 0) a (j 2))
      (by show (j 0).val = win0_1.index t (0 : Fin 3) * 1 + 0; omega)
      (by show a.val = win0_1.index t (1 : Fin 3) * 3 + a.val; omega)
      (by show (j 2).val = win0_1.index t (2 : Fin 3) * 1024 + (q 2).val; omega)
  · exact read2_apply t A2 (ix3 0 a (q 2)) (ix3 (j 0) a (j 2))
      (by show (j 0).val = win0_2.index t (0 : Fin 3) * 1 + 0; omega)
      (by show a.val = win0_2.index t (1 : Fin 3) * 3 + a.val; omega)
      (by show (j 2).val = win0_2.index t (2 : Fin 3) * 1024 + (q 2).val; omega)
  · exact read3_apply t A3 (ix3 0 a (q 2)) (ix3 (j 0) a (j 2))
      (by show (j 0).val = win0_3.index t (0 : Fin 3) * 1 + 0; omega)
      (by show a.val = win0_3.index t (1 : Fin 3) * 3 + a.val; omega)
      (by show (j 2).val = win0_3.index t (2 : Fin 3) * 1024 + (q 2).val; omega)
  · exact read4_apply t A4 (ix3 0 a (q 2)) (ix3 (j 0) a (j 2))
      (by show (j 0).val = win0_4.index t (0 : Fin 3) * 1 + 0; omega)
      (by show a.val = win0_4.index t (1 : Fin 3) * 3 + a.val; omega)
      (by show (j 2).val = win0_4.index t (2 : Fin 3) * 1024 + (q 2).val; omega)

/-- `K` of the voxel grid and of the per-point arrays as the grid finds them. -/
def resultV (c : Dev nD) : FVec Ideal Cert.Devox.SO .f32 :=
  Cert.Devox.K (vgrid m c) (V m c main_v14 : S8x3x65536.Idx → BitVec 32) (V m c main_v16 : S8x3x65536.Idx → BitVec 32)
    (V m c main_v12 : S8x3x65536.Idx → EReal) (V m c main_v10 : S8x3x65536.Idx → EReal)

/-- The result array the run is to leave: `K` of the voxel grid and of the first stage's index words and weights. -/
abbrev result (c : Dev nD) : FVec Ideal Cert.Devox.SO .f32 :=
  Cert.Devox.K (vgrid m c) (Cert.Devox.ilo (pts m c)) (Cert.Devox.ihi (pts m c)) (Cert.Devox.wlo (pts m c)) (Cert.Devox.vox (pts m c))

/-- The per-point arrays the grid finds are the first stage's. -/
theorem resultV_eq (c : Dev nD) : resultV m c = result m c := by
  unfold resultV
  rw [V_ilo, V_ihi, V_wlo, V_vox]

/-- Window 5's block at point `t`, read off any array of the result's shape, at entry `q`. -/
theorem read5_apply (t : Fin cfg0.N) (A : S8x64x65536.Idx → EReal) (q : S1x64x1024.Idx) :
    (((cfg0.win 5).blk t).view.read (Elt Ideal) A : S1x64x1024.Idx → EReal) q = A (((cfg0.win 5).blk t).view.emb q) := by
  rw [View.read_apply]
  rfl

/-- Where the result's block at point `t` puts its entry `q`: block index × block size + the entry's coordinate. -/
theorem emb5_val (t : Fin cfg0.N) (q : S1x64x1024.Idx) :
    ((((cfg0.win 5).blk t).view.emb q : S8x64x65536.Idx) 0).val = win0_5.index t (0 : Fin 3) * 1 + 1 * (q 0).val
    ∧ ((((cfg0.win 5).blk t).view.emb q : S8x64x65536.Idx) 1).val = win0_5.index t (1 : Fin 3) * 64 + 1 * (q 1).val
    ∧ ((((cfg0.win 5).blk t).view.emb q : S8x64x65536.Idx) 2).val = win0_5.index t (2 : Fin 3) * 1024 + 1 * (q 2).val :=
  ⟨rfl, rfl, rfl⟩

/-- The input blocks at point `t` are the windows' blocks read off the arrays the grid finds. -/
theorem iblk_eq (c : Dev nD) (t : Fin cfg0.N) :
    iblk m c 0 t = ((cfg0.win 0).blk t).view.read (Elt Ideal) (V m c main_v18)
    ∧ iblk m c 1 t = ((cfg0.win 1).blk t).view.read (Elt Ideal) (V m c main_v14)
    ∧ iblk m c 2 t = ((cfg0.win 2).blk t).view.read (Elt Ideal) (V m c main_v16)
    ∧ iblk m c 3 t = ((cfg0.win 3).blk t).view.read (Elt Ideal) (V m c main_v12)
    ∧ iblk m c 4 t = ((cfg0.win 4).blk t).view.read (Elt Ideal) (V m c main_v10) := by
  unfold iblk
  exact ⟨rfl, rfl, rfl, rfl, rfl⟩

/-- What point `t` writes back is the block at `t` of `K` of the arrays the grid finds. -/
theorem flushed_eq (hpay : BodyIsBlockK) (c : Dev nD) (t : Fin cfg0.N) :
    (dats m 0 c).flushed 5 t = ((cfg0.win 5).blk t).view.read (Elt Ideal) (resultV m c) := by
  show (cfg0.win 5).cut (grid0.coords t) ((dats m 0 c).after 5 t) = _
  rw [after0_5, hpay (iblk m c 0 t) (iblk m c 1 t) (iblk m c 2 t) (iblk m c 3 t) (iblk m c 4 t)]
  obtain ⟨b0, b1, b2, b3, b4⟩ := iblk_eq m c t
  rw [b0, b1, b2, b3, b4]
  funext q
  obtain ⟨hj0, hj1, hj2⟩ := emb5_val t q
  refine Eq.trans ?_ (read5_apply t (resultV m c) q).symm
  unfold resultV
  exact block_eq t (V m c main_v18) (V m c main_v14) (V m c main_v16) (V m c main_v12) (V m c main_v10) (vgrid m c)
    (V_mat_apply m c) q (((cfg0.win 5).blk t).view.emb q) hj0 hj1 hj2

/-! ## The blocks tile the result array -/

/-- An index of the result array is in point `t`'s block iff each coordinate is in the block's range on its axis. -/
theorem mem_blk (t : Fin cfg0.N) (i : S8x64x65536.Idx) :
    i ∈ ((cfg0.win 5).blk t).view.set ↔ ∀ a : Fin 3, win0_5.index t a * S1x64x1024.size a ≤ (i a).val
      ∧ (i a).val < win0_5.index t a * S1x64x1024.size a + S1x64x1024.size a := by
  show i ∈ ((View.whole main_v19).slice (win0_5.rect t)).set ↔ _
  rw [View.set_slice_whole, Rect.mem_set_unit]
  exact Iff.rfl

/-- Index `(b, ch, n)` of the result array lies in the block of the grid point `(b, n / 1024)`, and every point writes
    its block back. -/
theorem cover (i : S8x64x65536.Idx) :
    ∃ t : Fin cfg0.N, (cfg0.win 5).flush t = true ∧ i ∈ ((cfg0.win 5).blk t).view.set := by
  have hi0 : (i 0).val < 8 := (i 0).isLt
  have hi1 : (i 1).val < 64 := (i 1).isLt
  have hi2 : (i 2).val < 65536 := (i 2).isLt
  have hN : cfg0.N = 512 := N_0
  obtain ⟨t, ht⟩ : ∃ t : Fin cfg0.N, t.val = (i 0).val * 64 + (i 2).val / 1024 :=
    ⟨⟨(i 0).val * 64 + (i 2).val / 1024, by rw [hN]; omega⟩, rfl⟩
  obtain ⟨e50, e51, e52, -⟩ := idx_facts t
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 64 ≤ (i 1).val ∧ (i 1).val < win0_5.index t (1 : Fin 3) * 64 + 64; omega
  | ⟨2, _⟩ => show win0_5.index t (2 : Fin 3) * 1024 ≤ (i 2).val ∧ (i 2).val < win0_5.index t (2 : Fin 3) * 1024 + 1024; omega

/-- The result array after the last grid point is `K` of the voxel grid and of the first stage's index words and weights. -/
theorem final (hpay : BodyIsBlockK) (c : Dev nD) : (dats m 0 c).arrAt 5 cfg0.N = result m c :=
  ((dats m 0 c).arrAt_eq_of_cover 5 (resultV m c) (fun t _ => flushed_eq m hpay c t) cover).trans (resultV_eq m c)

/-! ## The run -/

/-- From any memory with zero counters the program terminates with the result array at `K` of the argument arrays'
    first stage, and the two argument arrays as launched. -/
theorem kernel_run (hpay : BodyIsBlockK) :
    θ_run defs (onTc (τ := τ) (main (F := Ideal))) ⟨m, fun _ => 0, ρ⟩ fun r => ∀ c : Dev nD,
      r.2.mem ((c.tc : Thread nD τ).loc main_v19) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 5).trans (final m hpay c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (Gen.run_main m ρ)

end Cert.KernelIdeal.Array

end
-- ==== Proof.PrefixFacts.lean ====
/-
  The first stage's outputs are finite and in range when every input is a real number.

  With all `x[b, a, n]` real: the lowest value `min_n x[b, a, n]` of a coordinate is the minimum of 65536 reals, a real
  below each of them, so the shifted coordinate `p = x − min x` is a real `≥ 0`. The norm `√(Σ_a p²)` of a shifted point
  is a real `≥ p` for each of its three coordinates, and the largest norm `M` over all batches and points is a real above
  every norm. The scale `D = M + ε`, with `ε` a positive real, is therefore a real with `0 ≤ p < D`; so the voxel
  coordinate `vox = p / D · 31` is a real in `[0, 31]`, the lower weight `1 − vox` is real, and `⌊vox⌋`, `⌈vox⌉` are
  integers in `[0, 31]`, which the conversion to a 32-bit word represents exactly.
-/
import proofs.«112822_j57062935495024_2_alg».proof.Proof.Terms
import Idealize.ShloMosaic.PureOps.Ideal.Laws
import Idealize.ShloMosaic.Lib.IdealHost
import Idealize.ShloMosaic.Lib.Pipeline.Value

noncomputable section

namespace Cert.Devox

open Idealize.ShloMosaic Idealize.ShloMosaic.ValueIdx

open scoped BigOperators

/-! ## Extended reals that are real -/

/-- An extended real that is neither infinity is a real. -/
theorem real_of_ne {y : EReal} (hb : y ≠ ⊥) (ht : y ≠ ⊤) : ∃ r : ℝ, y = (r : EReal) :=
  ⟨y.toReal, (EReal.coe_toReal ht hb).symm⟩

/-- A finite sum of reals, taken in the extended reals, is the real sum. -/
theorem coe_sum {ι : Type} (s : Finset ι) (f : ι → ℝ) : ∑ i ∈ s, ((f i : ℝ) : EReal) = ((∑ i ∈ s, f i : ℝ) : EReal) := by
  induction s using Finset.cons_induction with
  | empty => simp
  | cons a S ha ih => rw [Finset.sum_cons, Finset.sum_cons, ih, EReal.coe_add]

/-! ## The constants -/

theorem posInf_eq : Ideal.ofBits .f32 0x7F800000#32 = ⊤ := by simp [Ideal.ofBits, Ideal.ieee]

theorem negInf_eq : Ideal.ofBits .f32 0xFF800000#32 = ⊥ := by simp [Ideal.ofBits, Ideal.ieee]

theorem thirtyOne_eq : Ideal.ofBits .f32 0x41F80000#32 = ((31 : ℝ) : EReal) := by
  simp [Ideal.ofBits, Ideal.ieee, -EReal.coe_mul]; norm_num

/-- The small constant added to the largest norm is a positive real. -/
theorem eps_pos : ∃ e : ℝ, 0 < e ∧ Ideal.ofBits .f32 0x322BCC77#32 = (e : EReal) := by
  refine ⟨(2 ^ 23 + 2870391 : ℕ) * (2 : ℝ) ^ ((100 : ℤ) - (2 ^ (8 - 1) - 1) - 23), by positivity, ?_⟩
  simp [Ideal.ofBits, Ideal.ieee, -EReal.coe_mul]

/-! ## The lowest value of a coordinate -/

/-- The lowest value is the minimum, from `+∞`, over the points of the batch's coordinate. -/
theorem lo_eq (x : FVec Ideal SP .f32) (j : S83.Idx) :
    lo x j = (Finset.univ.filter fun i => redMin.drop i = j).fold min ⊤ x := by
  unfold lo
  rw [Host.reduce_eq_fold]
  have hinit : constant (F := Ideal) S0 .f32 0x7F800000#32 (Shape.Idx.first h0) = ⊤ := posInf_eq
  rw [hinit]
  rfl

/-- It is below the coordinate of every point. -/
theorem lo_le (x : FVec Ideal SP .f32) (i : SP.Idx) : lo x (redMin.drop i) ≤ x i := by
  rw [lo_eq, Finset.fold_min_le]
  exact Or.inr ⟨i, Finset.mem_filter.2 ⟨Finset.mem_univ _, rfl⟩, le_refl _⟩

/-- With real inputs it is real. -/
theorem lo_real (x : FVec Ideal SP .f32) (hx : ∀ i, ∃ r : ℝ, x i = (r : EReal)) (i : SP.Idx) :
    ∃ m : ℝ, lo x (redMin.drop i) = (m : EReal) := by
  refine real_of_ne ?_ ?_
  · refine ne_of_gt ?_
    rw [lo_eq, Finset.lt_fold_min]
    refine ⟨bot_lt_top, fun k _ => ?_⟩
    obtain ⟨r, hr⟩ := hx k
    rw [hr]; exact EReal.bot_lt_coe r
  · obtain ⟨r, hr⟩ := hx i
    refine ne_of_lt (lt_of_le_of_lt (lo_le x i) ?_)
    rw [hr]; exact EReal.coe_lt_top r

/-! ## The shifted coordinate -/

/-- Dropping the point axis of `(b, a, n)` leaves `(b, a)`. -/
theorem redMin_drop (i : SP.Idx) : redMin.drop i = ix2 (n0 := 8) (n1 := 3) (i 0) (i 1) := by
  funext b
  apply Fin.ext
  match b with
  | ⟨0, _⟩ => exact Shape.ReducesTo.drop_apply_val_of_eq redMin i ⟨0, by decide⟩ 0
  | ⟨1, _⟩ => exact Shape.ReducesTo.drop_apply_val_of_eq redMin i ⟨1, by decide⟩ 1

/-- The lowest values broadcast back over the points: at `(b, a, n)` the lowest value of `(b, a)`. -/
theorem bcast_lo (x : FVec Ideal SP .f32) (i : SP.Idx) :
    broadcastInDim SP ![0, 1, 2] bc831 (broadcastInDim S831 ![0, 1] bc83 (lo x)) i
      = lo x (ix2 (n0 := 8) (n1 := 3) (i 0) (i 1)) :=
  (broadcastInDim_apply _ bc831 _ i (ix3 (n0 := 8) (n1 := 3) (n2 := 1) (i 0) (i 1) 0)
      (fun a => by match a with | ⟨0, _⟩ => rfl | ⟨1, _⟩ => rfl | ⟨2, _⟩ => rfl)).trans
    (broadcastInDim_apply _ bc83 _ _ (ix2 (n0 := 8) (n1 := 3) (i 0) (i 1))
      (fun a => by match a with | ⟨0, _⟩ => rfl | ⟨1, _⟩ => rfl))

/-- The shifted coordinate is the coordinate minus its lowest value. -/
theorem shifted_apply (x : FVec Ideal SP .f32) (i : SP.Idx) : shifted x i = x i - lo x (redMin.drop i) := by
  rw [redMin_drop]
  exact congrArg (fun t => x i - t) (bcast_lo x i)

/-- With real inputs it is a real that is not negative. -/
theorem shifted_real (x : FVec Ideal SP .f32) (hx : ∀ i, ∃ r : ℝ, x i = (r : EReal)) (i : SP.Idx) :
    ∃ p : ℝ, shifted x i = (p : EReal) ∧ 0 ≤ p := by
  obtain ⟨r, hr⟩ := hx i
  obtain ⟨m, hm⟩ := lo_real x hx i
  have hle := lo_le x i
  rw [hm, hr, EReal.coe_le_coe_iff] at hle
  refine ⟨r - m, ?_, sub_nonneg.2 hle⟩
  rw [shifted_apply, hm, hr, EReal.coe_sub]

/-! ## The norm of a shifted point -/

/-- A real is at most the square root of a sum of squares in which its own square occurs. -/
theorem le_sqrt_sum_sq (pr : SP.Idx → ℝ) (i : SP.Idx) :
    pr i ≤ Real.sqrt (∑ k ∈ Finset.univ.filter (fun k => redAdd.drop k = redAdd.drop i), pr k * pr k) := by
  refine le_trans (le_abs_self _) (Real.abs_le_sqrt ?_)
  rw [sq]
  exact Finset.single_le_sum (f := fun k => pr k * pr k) (fun k _ => mul_self_nonneg _)
    (Finset.mem_filter.2 ⟨Finset.mem_univ _, rfl⟩)

/-- With real shifted coordinates `p`, the sum of squares at `(b, n)`, from zero, is the real `Σ_a p[b, a, n]²`. -/
theorem sumSq_eq (x : FVec Ideal SP .f32) (pr : SP.Idx → ℝ) (hp : ∀ i, shifted x i = (pr i : EReal)) (j : S8N.Idx) :
    Ideal.hostReduceAdd redAdd (mulf (shifted x) (shifted x))
        (constant (F := Ideal) S0 .f32 0x00000000#32 (Shape.Idx.first h0)) j
      = ((∑ i ∈ Finset.univ.filter (fun i => redAdd.drop i = j), pr i * pr i : ℝ) : EReal) := by
  unfold Ideal.hostReduceAdd
  rw [constant_apply, Ideal.ofBits_zero_f32, zero_add, ← coe_sum]
  refine Finset.sum_congr rfl fun i _ => ?_
  rw [mulf_apply, hp i, EReal.coe_mul]

/-- So the norm there is the real `√(Σ_a p[b, a, n]²)`. -/
theorem norms_eq (x : FVec Ideal SP .f32) (pr : SP.Idx → ℝ) (hp : ∀ i, shifted x i = (pr i : EReal)) (j : S8N.Idx) :
    norms x j = ((Real.sqrt (∑ i ∈ Finset.univ.filter (fun i => redAdd.drop i = j), pr i * pr i) : ℝ) : EReal) := by
  unfold norms Host.sqrt
  rw [Ideal.hostUnary_sqrt_def, hostReduceAdd_apply, sumSq_eq x pr hp j, Ideal.sqrt_coe,
    if_neg (not_lt.2 (Finset.sum_nonneg fun i _ => mul_self_nonneg _))]

/-! ## The scale -/

/-- The largest norm is the maximum, from `−∞`, over all batches and points. -/
theorem maxNorm_eq (x : FVec Ideal SP .f32) (j : S0.Idx) :
    Host.reduce FloatOps.maximumf (norms x) (constant S0 .f32 0xFF800000#32) redMax h0 j
      = (Finset.univ.filter fun k => redMax.drop k = j).fold max ⊥ (norms x) := by
  rw [Host.reduce_eq_fold]
  have hinit : constant (F := Ideal) S0 .f32 0xFF800000#32 (Shape.Idx.first h0) = ⊥ := negInf_eq
  rw [hinit]
  rfl

/-- With real shifted coordinates `p`, the largest norm is a real above each `p` that is not negative. -/
theorem maxNorm_spec (x : FVec Ideal SP .f32) (pr : SP.Idx → ℝ) (hp : ∀ i, shifted x i = (pr i : EReal)) (i : SP.Idx)
    (hi : 0 ≤ pr i) (j : S0.Idx) :
    ∃ m : ℝ, (Finset.univ.filter fun k => redMax.drop k = j).fold max ⊥ (norms x) = (m : EReal) ∧ pr i ≤ m := by
  obtain ⟨Mx, hM⟩ : ∃ Mx, Mx = (Finset.univ.filter fun k => redMax.drop k = j).fold max ⊥ (norms x) := ⟨_, rfl⟩
  have hlt : Mx < ⊤ := by
    rw [hM, Finset.fold_max_lt]
    refine ⟨bot_lt_top, fun k _ => ?_⟩
    rw [norms_eq x pr hp k]; exact EReal.coe_lt_top _
  have hge : ((pr i : ℝ) : EReal) ≤ Mx := by
    rw [hM, Finset.le_fold_max]
    refine Or.inr ⟨redAdd.drop i, Finset.mem_filter.2 ⟨Finset.mem_univ _, (eq_ix0 _).trans (eq_ix0 _).symm⟩, ?_⟩
    rw [norms_eq x pr hp, EReal.coe_le_coe_iff]
    exact le_sqrt_sum_sq pr i
  obtain ⟨m, hm⟩ := real_of_ne (ne_of_gt (lt_of_lt_of_le (EReal.bot_lt_coe _) hge)) (ne_of_lt hlt)
  rw [hm, EReal.coe_le_coe_iff] at hge
  exact ⟨m, by rw [← hM, hm], hge⟩

/-- With real shifted coordinates `p ≥ 0` the scale is a real above each of them. -/
theorem scale_spec (x : FVec Ideal SP .f32) (pr : SP.Idx → ℝ) (hp : ∀ i, shifted x i = (pr i : EReal)) (i : SP.Idx)
    (hi : 0 ≤ pr i) (j : S0.Idx) : ∃ D : ℝ, scale x j = (D : EReal) ∧ pr i < D := by
  obtain ⟨e, he, hee⟩ := eps_pos
  obtain ⟨m, hm, hge⟩ := maxNorm_spec x pr hp i hi j
  refine ⟨m + e, ?_, by linarith⟩
  unfold scale
  rw [addf_apply, constant_apply, maxNorm_eq, hm, hee, EReal.coe_add]

/-! ## The voxel coordinate, the weights and the index words -/

/-- The voxel coordinate is the shifted coordinate divided by the scale, times 31. -/
theorem vox_apply (x : FVec Ideal SP .f32) (i : SP.Idx) :
    vox x i = Ideal.div (shifted x i) (scale x ix0) * ((31 : ℝ) : EReal) := by
  have e1 := broadcastInDim_scalar_apply bc0P (scale x) i
  have e2 := broadcastInDim_scalar_apply bc0P (constant (F := Ideal) S0 .f32 0x41F80000#32) i
  unfold vox
  rw [mulf_apply, hostDivf_apply, e1, e2, constant_apply, thirtyOne_eq]

/-- With real inputs the voxel coordinate is a real in `[0, 31]`. -/
theorem vox_spec (x : FVec Ideal SP .f32) (hx : ∀ i, ∃ r : ℝ, x i = (r : EReal)) (i : SP.Idx) :
    ∃ v : ℝ, vox x i = (v : EReal) ∧ 0 ≤ v ∧ v ≤ 31 := by
  choose pr hpr using shifted_real x hx
  obtain ⟨D, hD, hlt⟩ := scale_spec x pr (fun k => (hpr k).1) i (hpr i).2 ix0
  have hDpos : 0 < D := lt_of_le_of_lt (hpr i).2 hlt
  have ht : pr i * (1 / D) ≤ 1 := by rw [mul_one_div, div_le_one hDpos]; exact hlt.le
  have ht0 : 0 ≤ pr i * (1 / D) := mul_nonneg (hpr i).2 (by positivity)
  refine ⟨pr i * (1 / D) * 31, ?_, by positivity, by linarith⟩
  rw [vox_apply, (hpr i).1, hD, Ideal.div_coe hDpos.ne', ← EReal.coe_mul, ← EReal.coe_mul]

/-- The lower weight is one minus the voxel coordinate. -/
theorem wlo_apply (x : FVec Ideal SP .f32) (i : SP.Idx) : wlo x i = 1 - vox x i := by
  have e := broadcastInDim_scalar_apply bc0P (constant (F := Ideal) S0 .f32 0x3F800000#32) i
  unfold wlo
  rw [subf_apply, e, constant_apply, Ideal.ofBits_one_f32]

/-- An integer in `[0, 31]`, as a real, converts to the 32-bit word of that number. -/
theorem fptosi_int (z : ℤ) (h0 : 0 ≤ z) (h1 : z ≤ 31) :
    Ideal.fptosi 32 (((z : ℝ) : ℝ) : EReal) = BitVec.ofNat 32 z.toNat := by
  obtain ⟨n, rfl⟩ := Int.eq_ofNat_of_zero_le h0
  unfold Ideal.fptosi
  rw [Ideal.toIntClamped_coe, if_pos (by positivity), Int.floor_intCast]
  have h2 : ((2 ^ (32 - 1) : ℕ) : ℤ) = 2147483648 := by norm_num
  rw [h2, min_eq_right (by omega), max_eq_right (by omega), Int.toNat_natCast, BitVec.ofInt_natCast]

/-- The conversion of the rounded-down array, read at an index. -/
theorem fptosi_floor_apply (v : FVec Ideal SP .f32) (i : SP.Idx) :
    fptosi 32 (Host.floor v) i = Ideal.fptosi 32 (Ideal.liftRound Int.floor (v i)) := rfl

/-- The conversion of the rounded-up array, read at an index. -/
theorem fptosi_ceil_apply (v : FVec Ideal SP .f32) (i : SP.Idx) :
    fptosi 32 (Host.ceil v) i = Ideal.fptosi 32 (Ideal.liftRound Int.ceil (v i)) := rfl

/-- With every input a real number: both weights are real and both index words lie in `[0, 31]`. -/
theorem prefix_facts (x : FVec Ideal SP .f32) (hx : ∀ i, ∃ r : ℝ, x i = (r : EReal)) :
    (∀ i, ∃ r : ℝ, wlo x i = (r : EReal)) ∧ (∀ i, ∃ r : ℝ, vox x i = (r : EReal))
      ∧ (∀ i, ∃ k : Fin 32, ilo x i = BitVec.ofNat 32 k.val) ∧ (∀ i, ∃ k : Fin 32, ihi x i = BitVec.ofNat 32 k.val) := by
  refine ⟨fun i => ?_, fun i => ?_, fun i => ?_, fun i => ?_⟩
  · obtain ⟨v, hv, _, _⟩ := vox_spec x hx i
    exact ⟨1 - v, by rw [wlo_apply, hv, ← EReal.coe_one, ← EReal.coe_sub]⟩
  · obtain ⟨v, hv, _, _⟩ := vox_spec x hx i
    exact ⟨v, hv⟩
  · obtain ⟨v, hv, h0, h1⟩ := vox_spec x hx i
    have hz0 : 0 ≤ ⌊v⌋ := Int.floor_nonneg.2 h0
    have hz1 : ⌊v⌋ ≤ 31 := by
      have h : ((⌊v⌋ : ℤ) : ℝ) ≤ ((31 : ℤ) : ℝ) := by push_cast; exact (Int.floor_le v).trans h1
      exact Int.cast_le.1 h
    refine ⟨⟨⌊v⌋.toNat, by omega⟩, ?_⟩
    unfold ilo
    rw [fptosi_floor_apply, hv, Ideal.liftRound_coe, fptosi_int _ hz0 hz1]
  · obtain ⟨v, hv, h0, h1⟩ := vox_spec x hx i
    have hz0 : 0 ≤ ⌈v⌉ := Int.ceil_nonneg h0
    have hz1 : ⌈v⌉ ≤ 31 := Int.ceil_le.2 (by push_cast; exact h1)
    refine ⟨⟨⌈v⌉.toNat, by omega⟩, ?_⟩
    unfold ihi
    rw [fptosi_ceil_apply, hv, Ideal.liftRound_coe, fptosi_int _ hz0 hz1]

end Cert.Devox

end
-- ==== Proof.PreFinite.lean ====
/-
  From the certificate's precondition to "every input is a real number".

  The precondition compares the absolute value of every element of each argument with +∞ (strictly below), takes the
  conjunction over all elements of each argument, and then the conjunction of the two results. A conjunction of
  one-bit words is 1 only when every word is 1, so every element `x` of either argument has `max x (-x) < ⊤` in the
  extended reals. Both infinities have `max x (-x) = ⊤`, which is not below `⊤`; what is left is a real number.
-/
import proofs.«112822_j57062935495024_2_alg».proof.Pre_finite_inputs
import proofs.«112822_j57062935495024_2_alg».proof.Proof.Gen.Pre_finite_inputs
import proofs.«112822_j57062935495024_2_alg».proof.Proof.Spec
import Idealize.ShloMosaic.Lib.ReduceAll
import Idealize.ShloMosaic.Lib.ValueIdx
import Idealize.ShloMosaic.PureOps.Ideal

noncomputable section

namespace Cert.Devox

open Idealize.ShloMosaic Idealize.ShloMosaic.ValueIdx

/-- The scalar shape has one index. -/
instance subsingleton_scalarIdx : Subsingleton Cert.Pre_finite_inputs.S_.Idx := ⟨fun _ _ => funext fun d => d.elim0⟩

/-- The word `0x7F800000` is the single-precision +∞. -/
theorem ofBits_posInf : Ideal.ofBits .f32 0x7F800000#32 = (⊤ : EReal) := by
  simp [Ideal.ofBits, Ideal.ieee]

/-- An extended real whose absolute value `max x (-x)` lies strictly below `⊤` is a real number. -/
theorem real_of_abs_lt_top (x : EReal) (h : Ideal.cmp .olt (max x (-x)) ⊤ = 1#1) : ∃ r : ℝ, x = (r : EReal) := by
  induction x using EReal.rec with
  | bot =>
    exfalso
    rw [EReal.neg_bot, max_eq_right bot_le] at h
    simp [Ideal.cmp] at h
  | coe r => exact ⟨r, rfl⟩
  | top =>
    exfalso
    rw [EReal.neg_top, max_eq_left bot_le] at h
    simp [Ideal.cmp] at h

/-- **Every element of both arguments is a real number**, when the precondition holds. -/
theorem finite_of_pre (a0 : FVec Ideal SP .f32) (a1 : FVec Ideal SF .f32)
    (h : Cert.Pre_finite_inputs.fn (F := Ideal) a0 a1 = (fun _ => 1#1)) :
    (∀ i, ∃ r : ℝ, a0 i = (r : EReal)) ∧ (∀ i, ∃ r : ℝ, a1 i = (r : EReal)) := by
  have h0 := congrFun h ix0
  dsimp only [Cert.Pre_finite_inputs.fn] at h0
  obtain ⟨hA, hB⟩ := IntOp.andi_eq_one.1 h0
  constructor
  · intro i
    have e := Host.reduce_andi_all _ _ _ _ _ hA i
    have e' : Ideal.cmp .olt (max (a0 i) (-(a0 i))) (Ideal.ofBits .f32 0x7F800000#32) = 1#1 := e
    rw [ofBits_posInf] at e'
    exact real_of_abs_lt_top _ e'
  · intro i
    have e := Host.reduce_andi_all _ _ _ _ _ hB i
    have e' : Ideal.cmp .olt (max (a1 i) (-(a1 i))) (Ideal.ofBits .f32 0x7F800000#32) = 1#1 := e
    rw [ofBits_posInf] at e'
    exact real_of_abs_lt_top _ e'

end Cert.Devox

end
-- ==== Proof.RefRead.lean ====
/-
  The reference's result, read at one index, is the trilinear devoxelization of the specification.

  Every layer of the reference's term is an operation that reads ONE element of its operand at each index:
  a slice of one axis' row followed by a cast that drops the unit axis reads `w[b, a, n]`; the broadcast over the
  channels reads the same row for every channel; the index words with 32 added to the negative ones are a select read
  elementwise; the three rows stacked along a last axis give the start index `[b, n, ·]`; and the gather reads the grid
  at batch `b`, channel `c`, and on each grid axis the start word read as a signed integer and brought into
  `[0, 31]` — which is the voxel the word names. Sums and products are read elementwise, so the term at `(b, c, n)`
  is the specification's weighted sum of the eight corner voxels.
-/
import proofs.«112822_j57062935495024_2_alg».proof.Proof.Terms
import Idealize.ShloMosaic.Lib.ValueIdx
import Idealize.ShloMosaic.Lib.Pipeline.Value

noncomputable section

namespace Cert.Devox

open Idealize.ShloMosaic Idealize.ShloMosaic.ValueIdx

/-! ## One axis' row, and its broadcast over the channels -/

/-- The row of axis `a` read at `(b, n)` is the per-point array at `(b, a, n)`: the slice starts at `(0, a, 0)` and the
    cast from `[8, 1, N]` to `[8, N]` keeps the row-major position. -/
theorem axisRow_apply {α : Type} (w : SP.Idx → α) (o : Fin 3 → Nat) (h : SP.Slices o S81N) (a : Fin 3)
    (h0 : o 0 = 0) (h1 : o 1 = a.val) (h2 : o 2 = 0) (b : Fin 8) (n : Fin 65536) :
    axisRow w o h (ix2 b n) = w (ix3 b a n) := by
  unfold axisRow
  refine (shapeCast_apply _ sc81N (ix2 b n) (ix3 b (0 : Fin 1) n) ?_).trans ?_
  · rw [Shape.rowMajor_val_three, Shape.rowMajor_val_two]
    show (b.val * 1 + 0) * 65536 + n.val = b.val * 65536 + n.val
    omega
  · refine extractStridedSlice_apply o w h _ _ fun c => ?_
    match c with
    | ⟨0, _⟩ => show b.val = o 0 + b.val; omega
    | ⟨1, _⟩ => show a.val = o 1 + 0; omega
    | ⟨2, _⟩ => show n.val = o 2 + n.val; omega

theorem axisRow_apply0 {α : Type} (w : SP.Idx → α) (b : Fin 8) (n : Fin 65536) :
    axisRow w ![0, 0, 0] sl0 (ix2 b n) = w (ix3 b 0 n) := axisRow_apply w _ sl0 0 rfl rfl rfl b n
theorem axisRow_apply1 {α : Type} (w : SP.Idx → α) (b : Fin 8) (n : Fin 65536) :
    axisRow w ![0, 1, 0] sl1 (ix2 b n) = w (ix3 b 1 n) := axisRow_apply w _ sl1 1 rfl rfl rfl b n
theorem axisRow_apply2 {α : Type} (w : SP.Idx → α) (b : Fin 8) (n : Fin 65536) :
    axisRow w ![0, 2, 0] sl2 (ix2 b n) = w (ix3 b 2 n) := axisRow_apply w _ sl2 2 rfl rfl rfl b n

/-- A row broadcast over the channels reads, at `(b, c, n)`, the row at `(b, n)`. -/
theorem lane_apply (w : FVec Ideal SP .f32) (o : Fin 3 → Nat) (h : SP.Slices o S81N) (b : Fin 8) (c : Fin 64) (n : Fin 65536) :
    lane w o h (ix3 b c n) = axisRow w o h (ix2 b n) := by
  unfold lane
  refine (broadcastInDim_apply _ bc81NO _ (ix3 b c n) (ix3 b (0 : Fin 1) n) fun a => ?_).trans ?_
  · match a with
    | ⟨0, _⟩ => rfl
    | ⟨1, _⟩ => rfl
    | ⟨2, _⟩ => rfl
  · refine broadcastInDim_apply _ bcN81N _ _ (ix2 b n) fun a => ?_
    match a with
    | ⟨0, _⟩ => rfl
    | ⟨1, _⟩ => rfl

/-! ## The start indices -/

/-- The index words with 32 added to the negative ones, read at an index. -/
theorem wrapNeg_apply (v : IVec S8N 32) (i : S8N.Idx) :
    wrapNeg v i = Scalar.select (IntOp.cmpi .slt (v i) 0#32) (IntOp.addi (v i) 32#32) (v i) := rfl

/-- A batch × point array with a unit last axis added reads, at `(b, n, 0)`, the array at `(b, n)`. -/
theorem unitLast_apply (v : IVec S8N 32) (b : Fin 8) (n : Fin 65536) (u : Fin 1) :
    broadcastInDim S8N1 ![0, 1] bcN1 v (ix3 b n u) = v (ix2 b n) :=
  broadcastInDim_apply _ bcN1 v _ (ix2 b n) fun a =>
    match a with
    | ⟨0, _⟩ => rfl
    | ⟨1, _⟩ => rfl

/-- Three `[8, N, 1]` pieces stacked along the last axis, read at `(b, n, k)`: piece `k` at `(b, n, 0)`. -/
theorem stack3_apply {α : Type} (x0 x1 x2 : S8N1.Idx → α) (b : Fin 8) (n : Fin 65536) (k : Fin 3) (x : S8N1.Idx → α)
    (hx : [(⟨S8N1, x0⟩ : (s : Shape) × (s.Idx → α)), ⟨S8N1, x1⟩, ⟨S8N1, x2⟩][k.val]'k.isLt = ⟨S8N1, x⟩)
    (hpre : ((([(⟨S8N1, x0⟩ : (s : Shape) × (s.Idx → α)), ⟨S8N1, x1⟩, ⟨S8N1, x2⟩].take k.val).map (·.1)).map
      fun s => if h : s.rank = S8N3.rank then s.size ((2 : Fin 3).cast h.symm) else 0).sum = k.val) :
    concatenate S8N3 2 [⟨S8N1, x0⟩, ⟨S8N1, x1⟩, ⟨S8N1, x2⟩] cat3 (ix3 b n k) = x (ix3 b n 0) :=
  concatenate_apply_piece (t := S8N3) (2 : Fin 3) [⟨S8N1, x0⟩, ⟨S8N1, x1⟩, ⟨S8N1, x2⟩] cat3 (ix3 b n k) k.val k.isLt S8N1 x hx rfl
    k.val hpre (ix3 b n (0 : Fin 1))
    (fun a => match a with
      | ⟨0, _⟩ => fun _ => rfl
      | ⟨1, _⟩ => fun _ => rfl
      | ⟨2, _⟩ => fun h => absurd rfl h) rfl

/-- Component 0 of the start index of point `n` of batch `b` is the first array's word, 32 added when negative. -/
theorem starts_apply0 (vx vy vz : IVec S8N 32) (b : Fin 8) (n : Fin 65536) :
    starts vx vy vz (ix3 b n 0) = wrapNeg vx (ix2 b n) :=
  (stack3_apply _ _ _ b n 0 _ rfl rfl).trans (unitLast_apply _ b n 0)

/-- Component 1 is the second array's word. -/
theorem starts_apply1 (vx vy vz : IVec S8N 32) (b : Fin 8) (n : Fin 65536) :
    starts vx vy vz (ix3 b n 1) = wrapNeg vy (ix2 b n) :=
  (stack3_apply _ _ _ b n 1 _ rfl rfl).trans (unitLast_apply _ b n 0)

/-- Component 2 is the third array's word. -/
theorem starts_apply2 (vx vy vz : IVec S8N 32) (b : Fin 8) (n : Fin 65536) :
    starts vx vy vz (ix3 b n 2) = wrapNeg vz (ix2 b n) :=
  (stack3_apply _ _ _ b n 2 _ rfl rfl).trans (unitLast_apply _ b n 0)

/-! ## The gather -/

/-- On the grid's batch axis the gather reads the result's batch coordinate. -/
theorem corner_batch (b : Fin 8) (c : Fin 64) (n : Fin 65536) : cornerDims.batchCoord (ix3 b c n) (0 : Fin 5) = b.val := by
  unfold GatherDims.batchCoord
  rw [dif_pos (by decide)]
  rfl

/-- On the grid's channel axis it reads the result's channel coordinate. -/
theorem corner_off (b : Fin 8) (c : Fin 64) (n : Fin 65536) : cornerDims.offCoord (ix3 b c n) (1 : Fin 5) = c.val := by
  unfold GatherDims.offCoord
  rw [dif_pos (by decide)]
  rfl

/-- On the first grid axis the slice starts at the voxel the first array's word names. -/
theorem corner_start2 (vx vy vz : IVec S8N 32) (b : Fin 8) (c : Fin 64) (n : Fin 65536) :
    cornerDims.start (ix3 b c n) (starts vx vy vz) (2 : Fin 5) = (voxel (vx (ix2 b n))).val := by
  unfold GatherDims.start
  rw [dif_pos (by decide)]
  have hsi : cornerDims.siIdx (ix3 b c n) ⟨List.idxOf (2 : Fin 5) cornerDims.startIndexMap,
      List.idxOf_lt_length_iff.2 (by decide)⟩ = ix3 b n 0 := by
    funext a; refine Fin.ext ?_
    match a with
    | ⟨0, _⟩ => rfl
    | ⟨1, _⟩ => rfl
    | ⟨2, _⟩ => rfl
  rw [hsi, starts_apply0, wrapNeg_apply]
  rfl

/-- On the second grid axis it starts at the voxel the second array's word names. -/
theorem corner_start3 (vx vy vz : IVec S8N 32) (b : Fin 8) (c : Fin 64) (n : Fin 65536) :
    cornerDims.start (ix3 b c n) (starts vx vy vz) (3 : Fin 5) = (voxel (vy (ix2 b n))).val := by
  unfold GatherDims.start
  rw [dif_pos (by decide)]
  have hsi : cornerDims.siIdx (ix3 b c n) ⟨List.idxOf (3 : Fin 5) cornerDims.startIndexMap,
      List.idxOf_lt_length_iff.2 (by decide)⟩ = ix3 b n 1 := by
    funext a; refine Fin.ext ?_
    match a with
    | ⟨0, _⟩ => rfl
    | ⟨1, _⟩ => rfl
    | ⟨2, _⟩ => rfl
  rw [hsi, starts_apply1, wrapNeg_apply]
  rfl

/-- On the third grid axis it starts at the voxel the third array's word names. -/
theorem corner_start4 (vx vy vz : IVec S8N 32) (b : Fin 8) (c : Fin 64) (n : Fin 65536) :
    cornerDims.start (ix3 b c n) (starts vx vy vz) (4 : Fin 5) = (voxel (vz (ix2 b n))).val := by
  unfold GatherDims.start
  rw [dif_pos (by decide)]
  have hsi : cornerDims.siIdx (ix3 b c n) ⟨List.idxOf (4 : Fin 5) cornerDims.startIndexMap,
      List.idxOf_lt_length_iff.2 (by decide)⟩ = ix3 b n 2 := by
    funext a; refine Fin.ext ?_
    match a with
    | ⟨0, _⟩ => rfl
    | ⟨1, _⟩ => rfl
    | ⟨2, _⟩ => rfl
  rw [hsi, starts_apply2, wrapNeg_apply]
  rfl

/-- The gathered voxel at `(b, c, n)`: the grid at batch `b`, channel `c`, and on each grid axis the voxel the axis'
    index word names. -/
theorem corner_apply (feat : FVec Ideal SF .f32) (vx vy vz : IVec S8N 32) (b : Fin 8) (c : Fin 64) (n : Fin 65536) :
    corner feat vx vy vz (ix3 b c n)
      = feat (ix5 b c (voxel (vx (ix2 b n))) (voxel (vy (ix2 b n))) (voxel (vz (ix2 b n)))) := by
  unfold corner Host.gather
  refine congrArg feat (funext fun a => Fin.ext ?_)
  match a with
  | ⟨0, _⟩ =>
    show cornerDims.start (ix3 b c n) (starts vx vy vz) (0 : Fin 5) + cornerDims.batchCoord (ix3 b c n) (0 : Fin 5)
      + cornerDims.offCoord (ix3 b c n) (0 : Fin 5) = b.val
    rw [GatherDims.start_batching _ _ _ _ (by decide), GatherDims.offCoord_eq_zero _ _ _ (by decide), corner_batch, Nat.zero_add, Nat.add_zero]
  | ⟨1, _⟩ =>
    show cornerDims.start (ix3 b c n) (starts vx vy vz) (1 : Fin 5) + cornerDims.batchCoord (ix3 b c n) (1 : Fin 5)
      + cornerDims.offCoord (ix3 b c n) (1 : Fin 5) = c.val
    have hs : cornerDims.start (ix3 b c n) (starts vx vy vz) (1 : Fin 5) = 0 := by
      unfold GatherDims.start; rw [dif_neg (by decide)]
    rw [hs, GatherDims.batchCoord_eq_zero _ _ _ (by decide), corner_off, Nat.add_zero, Nat.zero_add]
  | ⟨2, _⟩ =>
    show cornerDims.start (ix3 b c n) (starts vx vy vz) (2 : Fin 5) + cornerDims.batchCoord (ix3 b c n) (2 : Fin 5)
      + cornerDims.offCoord (ix3 b c n) (2 : Fin 5) = (voxel (vx (ix2 b n))).val
    rw [GatherDims.batchCoord_eq_zero _ _ _ (by decide), GatherDims.offCoord_eq_zero _ _ _ (by decide), corner_start2, Nat.add_zero]
  | ⟨3, _⟩ =>
    show cornerDims.start (ix3 b c n) (starts vx vy vz) (3 : Fin 5) + cornerDims.batchCoord (ix3 b c n) (3 : Fin 5)
      + cornerDims.offCoord (ix3 b c n) (3 : Fin 5) = (voxel (vy (ix2 b n))).val
    rw [GatherDims.batchCoord_eq_zero _ _ _ (by decide), GatherDims.offCoord_eq_zero _ _ _ (by decide), corner_start3, Nat.add_zero]
  | ⟨4, _⟩ =>
    show cornerDims.start (ix3 b c n) (starts vx vy vz) (4 : Fin 5) + cornerDims.batchCoord (ix3 b c n) (4 : Fin 5)
      + cornerDims.offCoord (ix3 b c n) (4 : Fin 5) = (voxel (vz (ix2 b n))).val
    rw [GatherDims.batchCoord_eq_zero _ _ _ (by decide), GatherDims.offCoord_eq_zero _ _ _ (by decide), corner_start4, Nat.add_zero]

/-! ## The reference's result at an index -/

/-- The reference's result is the specification, at the first stage's index words and weights. -/
theorem refTerm_eq_G (x : FVec Ideal SP .f32) (feat : FVec Ideal SF .f32) :
    refTerm x feat = G feat (ilo x) (ihi x) (wlo x) (vox x) := by
  funext j
  obtain ⟨b, c, n, rfl⟩ : ∃ b c n, j = ix3 b c n := ⟨j 0, j 1, j 2, eq_ix3 j⟩
  unfold refTerm alongY alongX G
  simp only [addf_apply, mulf_apply, lane_apply, axisRow_apply0, axisRow_apply1, axisRow_apply2, corner_apply]

end Cert.Devox

end
-- ==== Proof.Algebra.lean ====
/-
  The kernel's contraction equals the devoxelized feature.

  Fix a point. On each axis the kernel's weight row is supported on at most two voxels: it is the lower weight at the
  lower voxel plus the upper weight at the upper voxel. Contracting any real function `g` of the axis with such a row
  leaves two terms, `Σ_i g i · W i = g l · wl + g r · wr` (the two terms coincide in position, not in value, when
  `l = r`). Doing this along z, then y, then x turns the kernel's triple sum into the eight-corner expression of the
  specification. All the data are real numbers, so sums and products distribute; the computation is carried out in `ℝ`
  and transported to the extended reals through the coercion, which commutes with finite sums and with products.
-/
import proofs.«112822_j57062935495024_2_alg».proof.Proof.KernelForm
import Idealize.ShloMosaic.Lib.ValueIdx
import Mathlib.Data.EReal.Basic
import Mathlib.Algebra.BigOperators.Ring.Finset

noncomputable section

namespace Cert.Devox

open Idealize.ShloMosaic Idealize.ShloMosaic.ValueIdx

/-! ## Index words below 32 -/

/-- Two naturals below 32 give the same 32-bit word only when they are equal. -/
theorem ofNat_eq_ofNat_iff (i k : Fin 32) : BitVec.ofNat 32 i.val = BitVec.ofNat 32 k.val ↔ i = k := by
  constructor
  · intro h
    have h' := congrArg BitVec.toNat h
    simp only [BitVec.toNat_ofNat] at h'
    have hi : i.val % 2 ^ 32 = i.val := Nat.mod_eq_of_lt (by omega)
    have hk : k.val % 2 ^ 32 = k.val := Nat.mod_eq_of_lt (by omega)
    rw [hi, hk] at h'
    exact Fin.ext h'
  · intro h
    rw [h]

/-- Comparing the words of two voxels for equality gives the bit of their equality. -/
theorem cmpi_eq_ofNat (i k : Fin 32) :
    IntOp.cmpi .eq (BitVec.ofNat 32 i.val) (BitVec.ofNat 32 k.val) = if i = k then 1#1 else 0#1 := by
  unfold IntOp.cmpi
  by_cases h : i = k
  · subst h
    simp
  · have hne : BitVec.ofNat 32 i.val ≠ BitVec.ofNat 32 k.val := fun e => h ((ofNat_eq_ofNat_iff i k).mp e)
    rw [if_neg h, beq_eq_false_iff_ne.mpr hne]
    rfl

/-- The weight row at voxel `i`, when the two index words are the voxels `l` and `r`. -/
theorem hot_ofNat (i l r : Fin 32) (a b : EReal) :
    hot i (BitVec.ofNat 32 l.val) (BitVec.ofNat 32 r.val) a b = (if i = l then a else 0) + (if i = r then b else 0) := by
  have e : ∀ (c : Prop) [Decidable c] (x : EReal), Scalar.select (if c then 1#1 else 0#1) x 0 = if c then x else 0 := by
    intro c _ x
    by_cases h : c
    · rw [if_pos h, if_pos h, select_one]
    · rw [if_neg h, if_neg h, select_zero]
  unfold hot
  rw [cmpi_eq_ofNat, cmpi_eq_ofNat, e, e]

/-- The word of a voxel names that voxel: it is not negative, and already lies in `[0, 31]`. -/
theorem voxel_ofNat (k : Fin 32) : voxel (BitVec.ofNat 32 k.val) = k := by
  have hk : k.val < 32 := k.isLt
  have hint : (BitVec.ofNat 32 k.val).toInt = (k.val : ℤ) := by
    rw [BitVec.toInt_eq_toNat_of_lt]
    · simp only [BitVec.toNat_ofNat]
      rw [Nat.mod_eq_of_lt (by omega)]
    · simp only [BitVec.toNat_ofNat]
      rw [Nat.mod_eq_of_lt (by omega)]
      omega
  have hslt : IntOp.cmpi .slt (BitVec.ofNat 32 k.val) 0#32 = 0#1 := by
    unfold IntOp.cmpi
    have : (BitVec.ofNat 32 k.val).slt 0#32 = false := by
      rw [BitVec.slt, hint]
      simp
    simp [this]
  unfold voxel
  apply Fin.ext
  simp only [hslt, select_zero, hint, Int.toNat_natCast]
  omega

/-! ## The contraction with a two-point row, over the reals -/

section Real

variable {ι : Type} [Fintype ι] [DecidableEq ι]

/-- The real weight row: `a` at `l`, plus `b` at `r`. -/
def row (l r : ι) (a b : ℝ) (i : ι) : ℝ := (if i = l then a else 0) + (if i = r then b else 0)

/-- Contracting `g` with a two-point row leaves the two terms at its support. -/
theorem sum_mul_row (g : ι → ℝ) (l r : ι) (a b : ℝ) : ∑ i, g i * row l r a b i = g l * a + g r * b := by
  simp only [row, mul_add, Finset.sum_add_distrib, mul_ite, mul_zero, Finset.sum_ite_eq', Finset.mem_univ, if_true]

/-- The triple contraction, over y and z first and then over x, is the eight-corner expression. -/
theorem contract3 (f : ι → ι → ι → ℝ) (l₀ r₀ l₁ r₁ l₂ r₂ : ι) (a₀ b₀ a₁ b₁ a₂ b₂ : ℝ) :
    ∑ x, (∑ y, ∑ z, f x y z * (row l₁ r₁ a₁ b₁ y * row l₂ r₂ a₂ b₂ z)) * row l₀ r₀ a₀ b₀ x
      = ((f l₀ l₁ l₂ * a₀ + f r₀ l₁ l₂ * b₀) * a₁ + (f l₀ r₁ l₂ * a₀ + f r₀ r₁ l₂ * b₀) * b₁) * a₂
        + ((f l₀ l₁ r₂ * a₀ + f r₀ l₁ r₂ * b₀) * a₁ + (f l₀ r₁ r₂ * a₀ + f r₀ r₁ r₂ * b₀) * b₁) * b₂ := by
  have hz : ∀ x y, ∑ z, f x y z * (row l₁ r₁ a₁ b₁ y * row l₂ r₂ a₂ b₂ z)
      = (f x y l₂ * a₂ + f x y r₂ * b₂) * row l₁ r₁ a₁ b₁ y := by
    intro x y
    rw [← sum_mul_row (fun z => f x y z) l₂ r₂ a₂ b₂, Finset.sum_mul]
    exact Finset.sum_congr rfl (fun z _ => by ring)
  have hy : ∀ x, ∑ y, ∑ z, f x y z * (row l₁ r₁ a₁ b₁ y * row l₂ r₂ a₂ b₂ z)
      = (f x l₁ l₂ * a₂ + f x l₁ r₂ * b₂) * a₁ + (f x r₁ l₂ * a₂ + f x r₁ r₂ * b₂) * b₁ := by
    intro x
    rw [← sum_mul_row (fun y => f x y l₂ * a₂ + f x y r₂ * b₂) l₁ r₁ a₁ b₁]
    exact Finset.sum_congr rfl (fun y _ => hz x y)
  rw [Finset.sum_congr rfl (fun x _ => by rw [hy x])]
  rw [sum_mul_row (fun x => (f x l₁ l₂ * a₂ + f x l₁ r₂ * b₂) * a₁ + (f x r₁ l₂ * a₂ + f x r₁ r₂ * b₂) * b₁) l₀ r₀ a₀ b₀]
  ring

end Real

/-! ## Transport to the extended reals -/

/-- The coercion of the reals into the extended reals commutes with finite sums. -/
theorem coe_sum {ι : Type} (s : Finset ι) (g : ι → ℝ) : ∑ i ∈ s, (g i : EReal) = ((∑ i ∈ s, g i : ℝ) : EReal) := by
  classical
  induction s using Finset.induction_on with
  | empty => simp
  | insert a s ha ih => rw [Finset.sum_insert ha, Finset.sum_insert ha, ih, EReal.coe_add]

/-- The weight row of real weights at voxel words is the coercion of the real row. -/
theorem hot_coe (i l r : Fin 32) (a b : ℝ) :
    hot i (BitVec.ofNat 32 l.val) (BitVec.ofNat 32 r.val) (a : EReal) (b : EReal) = ((row l r a b i : ℝ) : EReal) := by
  have e : ∀ (c : Prop) [Decidable c] (x : ℝ), ((if c then x else 0 : ℝ) : EReal) = if c then (x : EReal) else 0 := by
    intro c _ x
    by_cases h : c
    · rw [if_pos h, if_pos h]
    · rw [if_neg h, if_neg h, EReal.coe_zero]
  rw [hot_ofNat, row, EReal.coe_add, e, e]

/-- **The kernel's contraction is the devoxelized feature**, for real data and index words that are voxels. -/
theorem K_eq_G (feat : SF.Idx → EReal) (il ir : SP.Idx → BitVec 32) (wl wr : SP.Idx → EReal)
    (hf : ∀ i, ∃ r : ℝ, feat i = (r : EReal)) (hwl : ∀ i, ∃ r : ℝ, wl i = (r : EReal)) (hwr : ∀ i, ∃ r : ℝ, wr i = (r : EReal))
    (hil : ∀ i, ∃ k : Fin 32, il i = BitVec.ofNat 32 k.val) (hir : ∀ i, ∃ k : Fin 32, ir i = BitVec.ofNat 32 k.val) :
    K feat il ir wl wr = G feat il ir wl wr := by
  choose f' hf using hf
  choose a' hwl using hwl
  choose b' hwr using hwr
  choose kl hil using hil
  choose kr hir using hir
  obtain rfl : feat = fun i => (f' i : EReal) := funext hf
  obtain rfl : wl = fun i => (a' i : EReal) := funext hwl
  obtain rfl : wr = fun i => (b' i : EReal) := funext hwr
  obtain rfl : il = fun i => BitVec.ofNat 32 (kl i).val := funext hil
  obtain rfl : ir = fun i => BitVec.ofNat 32 (kr i).val := funext hir
  funext j
  simp only [K, G, hot_coe, voxel_ofNat]
  simp only [← EReal.coe_mul, ← EReal.coe_add, coe_sum]
  exact congrArg Real.toEReal (contract3 (fun x y z => f' (ix5 (j 0) (j 1) x y z)) _ _ _ _ _ _ _ _ _ _ _ _)

end Cert.Devox

end
-- ==== Proof.Assembly.lean ====
/-
  The certificate's last two conjuncts from the runs of the two programs.

  Given that the kernel's run ends with its result array at `K` of its arguments (the grid, and the first stage's index
  words and weights of the points) and that the reference's run ends with its result array at the reference's composed
  term of its arguments, both leaving their arguments unchanged: the reference's run is a frame; and from memories
  that agree on the arguments the two results are one array, because the reference's term is the specification `G`
  at every index, and `K` is `G` whenever the grid and the weights are real numbers and every index word names a
  voxel of the axis — which the precondition (finite inputs) gives for the grid and, through the first stage, for the
  weights and index words.
-/
import proofs.«112822_j57062935495024_2_alg».proof.Defs
import proofs.«112822_j57062935495024_2_alg».proof.Proof.Gen.KernelIdeal
import proofs.«112822_j57062935495024_2_alg».proof.Proof.Gen.ReferenceIdeal
import proofs.«112822_j57062935495024_2_alg».proof.Proof.Gen.Pre_finite_inputs
import proofs.«112822_j57062935495024_2_alg».proof.Proof.RefRead
import proofs.«112822_j57062935495024_2_alg».proof.Proof.Algebra
import proofs.«112822_j57062935495024_2_alg».proof.Proof.KernelForm
import Idealize.ShloMosaic.Adequacy
import Idealize.ShloMosaic.Init

noncomputable section

namespace Cert.Proof.Glue

open Idealize.ShloMosaic Idealize.SL.Sem

/-- The reference runs and leaves its arguments unchanged: its run with the result dropped. -/
theorem frame_ri_of
    (hr : ∀ (m : (ℓ : Loc Cert.ReferenceIdeal.nD Cert.ReferenceIdeal.τ Cert.ReferenceIdeal.sig) → Buf (Elt Ideal) ℓ) (ρ : Dev Cert.ReferenceIdeal.nD → PrngReg),
      θ_run (Cert.ReferenceIdeal.defs (F := Ideal)) (onTc (τ := Cert.ReferenceIdeal.τ) (Cert.ReferenceIdeal.main (F := Ideal))) ⟨m, fun _ => 0, ρ⟩ fun r =>
        ∀ c : Dev Cert.ReferenceIdeal.nD,
          r.2.mem ((c.tc : Thread Cert.ReferenceIdeal.nD Cert.ReferenceIdeal.τ).loc Cert.ReferenceIdeal.main_v265) = Cert.Devox.refTerm (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (hr m ρ)

/-- From memories agreeing on the arguments both programs run, end with equal results and unchanged arguments: the
    common result is `K` of the kernel's arguments, which the reference's term equals through the specification. -/
theorem algebraic_of
    (hk : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ fun r =>
        ∀ c : Dev Cert.KernelIdeal.nD,
          r.2.mem ((c.tc : Thread Cert.KernelIdeal.nD Cert.KernelIdeal.τ).loc Cert.KernelIdeal.main_v19)
            = Cert.Devox.K (m ((c.tc : Thread Cert.KernelIdeal.nD Cert.KernelIdeal.τ).loc Cert.KernelIdeal.main_arg1)) (Cert.Devox.ilo (m ((c.tc : Thread Cert.KernelIdeal.nD Cert.KernelIdeal.τ).loc Cert.KernelIdeal.main_arg0))) (Cert.Devox.ihi (m ((c.tc : Thread Cert.KernelIdeal.nD Cert.KernelIdeal.τ).loc Cert.KernelIdeal.main_arg0)))
                (Cert.Devox.wlo (m ((c.tc : Thread Cert.KernelIdeal.nD Cert.KernelIdeal.τ).loc Cert.KernelIdeal.main_arg0))) (Cert.Devox.vox (m ((c.tc : Thread Cert.KernelIdeal.nD Cert.KernelIdeal.τ).loc Cert.KernelIdeal.main_arg0)))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
    (hr : ∀ (m : (ℓ : Loc Cert.ReferenceIdeal.nD Cert.ReferenceIdeal.τ Cert.ReferenceIdeal.sig) → Buf (Elt Ideal) ℓ) (ρ : Dev Cert.ReferenceIdeal.nD → PrngReg),
      θ_run (Cert.ReferenceIdeal.defs (F := Ideal)) (onTc (τ := Cert.ReferenceIdeal.τ) (Cert.ReferenceIdeal.main (F := Ideal))) ⟨m, fun _ => 0, ρ⟩ fun r =>
        ∀ c : Dev Cert.ReferenceIdeal.nD,
          r.2.mem ((c.tc : Thread Cert.ReferenceIdeal.nD Cert.ReferenceIdeal.τ).loc Cert.ReferenceIdeal.main_v265) = Cert.Devox.refTerm (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
    (hfin : ∀ (a0 : FVec Ideal Cert.Devox.SP .f32) (a1 : FVec Ideal Cert.Devox.SF .f32),
      Cert.Pre_finite_inputs.fn (F := Ideal) a0 a1 = (fun _ => 1#1) →
        (∀ i, ∃ r : ℝ, a0 i = (r : EReal)) ∧ (∀ i, ∃ r : ℝ, a1 i = (r : EReal)))
    (hpf : ∀ (x : FVec Ideal Cert.Devox.SP .f32), (∀ i, ∃ r : ℝ, x i = (r : EReal)) →
      (∀ i, ∃ r : ℝ, Cert.Devox.wlo x i = (r : EReal)) ∧ (∀ i, ∃ r : ℝ, Cert.Devox.vox x i = (r : EReal))
        ∧ (∀ i, ∃ k : Fin 32, Cert.Devox.ilo x i = BitVec.ofNat 32 k.val)
        ∧ (∀ i, ∃ k : Fin 32, Cert.Devox.ihi x i = BitVec.ofNat 32 k.val)) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' hpre hagree
  refine ⟨fun c => Cert.Devox.K (m ((c.tc : Thread Cert.KernelIdeal.nD Cert.KernelIdeal.τ).loc Cert.KernelIdeal.main_arg1)) (Cert.Devox.ilo (m ((c.tc : Thread Cert.KernelIdeal.nD Cert.KernelIdeal.τ).loc Cert.KernelIdeal.main_arg0))) (Cert.Devox.ihi (m ((c.tc : Thread Cert.KernelIdeal.nD Cert.KernelIdeal.τ).loc Cert.KernelIdeal.main_arg0)))
      (Cert.Devox.wlo (m ((c.tc : Thread Cert.KernelIdeal.nD Cert.KernelIdeal.τ).loc Cert.KernelIdeal.main_arg0))) (Cert.Devox.vox (m ((c.tc : Thread Cert.KernelIdeal.nD Cert.KernelIdeal.τ).loc Cert.KernelIdeal.main_arg0))), hk m ρ, ?_⟩
  refine (θ_run Cert.ReferenceIdeal.defs _ _).mono (fun _ h c => ⟨(h c).1.trans ?_, (h c).2⟩) (hr m' ρ')
  rw [(hagree c).1, (hagree c).2]
  obtain ⟨hx, hf⟩ := hfin _ _ (hpre c)
  obtain ⟨hwl, hwr, hil, hir⟩ := hpf _ hx
  rw [Cert.Devox.refTerm_eq_G]
  exact (Cert.Devox.K_eq_G _ _ _ _ _ hf hwl hwr hil hir).symm

end Cert.Proof.Glue

end
-- ==== Proof.lean ====
/-
  Devoxelization by separable weight rows against devoxelization by eight gathered corners.

  Both programs first turn the points into voxel coordinates: each coordinate is shifted by its lowest value over the
  batch's points and divided by the largest Euclidean norm of a shifted point (plus a small positive constant), then
  scaled by 31; the lower and upper corner indices are the floor and the ceiling, the upper weight is the coordinate and
  the lower weight one minus it. For finite inputs every coordinate lies in [0, 31], so every index is one of the 32
  voxels of its axis and every weight is a real number.

  The reference gathers the eight corner voxels and combines them axis by axis. The kernel instead builds, per axis, a
  row of 32 weights — the lower weight at the lower index plus the upper weight at the upper index — and contracts the
  grid with the three rows: y and z together in one matrix product, x in 32 accumulation steps. A sum of `g i` against
  such a row is `g l · wl + g r · wr`; applied on z, y and x this is the reference's nested combination. All values being
  real, the distributive law that this uses is available on the extended reals.

  The kernel's frames are the generated ones; the reference's run, the kernel's result array read off the frame run,
  and the comparison are in the modules imported below. The idealization rewrote nothing, so that conjunct is trivial.
-/
import proofs.«112822_j57062935495024_2_alg».proof.Defs
import proofs.«112822_j57062935495024_2_alg».proof.Proof.Gen.Kernel
import proofs.«112822_j57062935495024_2_alg».proof.Proof.Gen.Kernel.Skeleton
import proofs.«112822_j57062935495024_2_alg».proof.Proof.Gen.Kernel.Launch
import proofs.«112822_j57062935495024_2_alg».proof.Proof.Gen.Kernel.Points
import proofs.«112822_j57062935495024_2_alg».proof.Proof.Gen.Kernel.Frame
import proofs.«112822_j57062935495024_2_alg».proof.Proof.Gen.KernelIdeal
import proofs.«112822_j57062935495024_2_alg».proof.Proof.Gen.KernelIdeal.Skeleton
import proofs.«112822_j57062935495024_2_alg».proof.Proof.Gen.KernelIdeal.Launch
import proofs.«112822_j57062935495024_2_alg».proof.Proof.Gen.KernelIdeal.Points
import proofs.«112822_j57062935495024_2_alg».proof.Proof.Gen.KernelIdeal.Frame
import proofs.«112822_j57062935495024_2_alg».proof.Proof.Gen.ReferenceIdeal
import proofs.«112822_j57062935495024_2_alg».proof.Proof.Gen.Pre_finite_inputs
import proofs.«112822_j57062935495024_2_alg».proof.Proof.RefRun
import proofs.«112822_j57062935495024_2_alg».proof.Proof.KernelPay
import proofs.«112822_j57062935495024_2_alg».proof.Proof.KernelArray
import proofs.«112822_j57062935495024_2_alg».proof.Proof.PrefixFacts
import proofs.«112822_j57062935495024_2_alg».proof.Proof.PreFinite
import proofs.«112822_j57062935495024_2_alg».proof.Proof.Assembly
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    Glue.frame_ri_of Cert.ReferenceIdeal.RefRun.run,
    trivial,
    Glue.algebraic_of (fun m ρ => Cert.KernelIdeal.Array.kernel_run m ρ Cert.KernelIdeal.Pay.out_eq_blockK)
      Cert.ReferenceIdeal.RefRun.run Cert.Devox.finite_of_pre Cert.Devox.prefix_facts⟩

end Cert.Proof

end
